-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12500x256 : Shape := ⟨2, ![12500, 256]⟩
abbrev S50000x256 : Shape := ⟨2, ![50000, 256]⟩
abbrev S12500x16x256 : Shape := ⟨3, ![12500, 16, 256]⟩
abbrev S50000x16x256 : Shape := ⟨3, ![50000, 16, 256]⟩
abbrev S50000 : Shape := ⟨1, ![50000]⟩
abbrev S256x256 : Shape := ⟨2, ![256, 256]⟩
abbrev S768x512 : Shape := ⟨2, ![768, 512]⟩
abbrev S_ : Shape := ⟨0, ![]⟩

class Facts : Prop where
  bcast_S_S12500x256 : S_.BroadcastsInDim S12500x256 (![] : Fin 0 → Fin S12500x256.rank)
  reducesTo_S12500x256_S_d0_1 : S12500x256.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S12500x16x256 : S_.BroadcastsInDim S12500x16x256 (![] : Fin 0 → Fin S12500x16x256.rank)
  reducesTo_S12500x16x256_S_d0_1_2 : S12500x16x256.ReducesTo [0, 1, 2] S_
  bcast_S_S50000x16x256 : S_.BroadcastsInDim S50000x16x256 (![] : Fin 0 → Fin S50000x16x256.rank)
  reducesTo_S50000x16x256_S_d0_1_2 : S50000x16x256.ReducesTo [0, 1, 2] S_
  bcast_S_S256x256 : S_.BroadcastsInDim S256x256 (![] : Fin 0 → Fin S256x256.rank)
  reducesTo_S256x256_S_d0_1 : S256x256.ReducesTo [0, 1] S_
  bcast_S_S768x512 : S_.BroadcastsInDim S768x512 (![] : Fin 0 → Fin S768x512.rank)
  reducesTo_S768x512_S_d0_1 : S768x512.ReducesTo [0, 1] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg4 : IVec S50000 32) (main_v33 : IVec S_ 1) : IVec S_ 1 :=
  let main_c_12 : IVec S_ 32 := constantI S_ 32 0#32
  let main_v34 : IVec S50000 32 := broadcastInDim S50000 ![] bcast_S_S50000 main_c_12
  let main_v35 : IVec S50000 1 := cmpi .sge main_arg4 main_v34
  let main_c_13 : IVec S_ 1 := constantI S_ 1 1#1
  let main_v36 : IVec S_ 1 := (fun x v => Host.reduce IntOp.andi x v reducesTo_S50000_S_d0 h_S_) main_v35 main_c_13
  let main_v37 : IVec S_ 1 := andi main_v33 main_v36
  let main_c_14 : IVec S_ 32 := constantI S_ 32 12500#32
  let main_v38 : IVec S50000 32 := broadcastInDim S50000 ![] bcast_S_S50000 main_c_14
  let main_v39 : IVec S50000 1 := cmpi .slt main_arg4 main_v38
  let main_c_15 : IVec S_ 1 := constantI S_ 1 1#1
  let main_v40 : IVec S_ 1 := (fun x v => Host.reduce IntOp.andi x v reducesTo_S50000_S_d0 h_S_) main_v39 main_c_15
  let main_v41 : IVec S_ 1 := andi main_v37 main_v40
  main_v41

def fn_part1 {F : FTy → Type} [FloatOps F] (main_arg4 : IVec S50000 32) (main_arg5 : FVec F S256x256 .f32) (main_arg6 : FVec F S256x256 .f32) (main_arg7 : FVec F S768x512 .f32) (main_v13 : IVec S_ 1) (main_v16 : IVec S50000x16x256 1) : IVec S_ 1 :=
  let main_c_5 : IVec S_ 1 := constantI S_ 1 1#1
  let main_v17 : IVec S_ 1 := (fun x v => Host.reduce IntOp.andi x v reducesTo_S50000x16x256_S_d0_1_2 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S768x512 .f32 := Host.absf main_arg7
  let main_cst_10 : FVec F S_ .f32 := constant S_ .f32 0x7F800000#32
  let main_v30 : FVec F S768x512 .f32 := broadcastInDim S768x512 ![] bcast_S_S768x512 main_cst_10
  let main_v31 : IVec S768x512 1 := cmpf .olt main_v29 main_v30
  let main_c_11 : IVec S_ 1 := constantI S_ 1 1#1
  let main_v32 : IVec S_ 1 := (fun x v => Host.reduce IntOp.andi x v reducesTo_S768x512_S_d0_1 h_S_) main_v31 main_c_11
  let main_v33 : IVec S_ 1 := andi main_v28 main_v32
  fn_part2 (F := F) main_arg4 main_v33

def fn {F : FTy → Type} [FloatOps F] (main_arg0 : FVec F S12500x256 .f32) (main_arg1 : FVec F S50000x256 .f32) (main_arg2 : FVec F S12500x16x256 .f32) (main_arg3 : FVec F S50000x16x256 .f32) (main_arg4 : IVec S50000 32) (main_arg5 : FVec F S256x256 .f32) (main_arg6 : FVec F S256x256 .f32) (main_arg7 : FVec F S768x512 .f32) : IVec S_ 1 :=
  let main_v0 : FVec F S12500x256 .f32 := Host.absf main_arg0
  let main_cst : FVec F S_ .f32 := constant S_ .f32 0x7F800000#32
  let main_v1 : FVec F S12500x256 .f32 := broadcastInDim S12500x256 ![] bcast_S_S12500x256 main_cst
  let main_v2 : IVec S12500x256 1 := cmpf .olt main_v0 main_v1
  let main_c : IVec S_ 1 := constantI S_ 1 1#1
  let main_v3 : IVec S_ 1 := (fun x v => Host.reduce IntOp.andi x v reducesTo_S12500x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S12500x16x256 .f32 := Host.absf main_arg2
  let main_cst_2 : FVec F S_ .f32 := constant S_ .f32 0x7F800000#32
  let main_v10 : FVec F S12500x16x256 .f32 := broadcastInDim S12500x16x256 ![] bcast_S_S12500x16x256 main_cst_2
  let main_v11 : IVec S12500x16x256 1 := cmpf .olt main_v9 main_v10
  let main_c_3 : IVec S_ 1 := constantI S_ 1 1#1
  let main_v12 : IVec S_ 1 := (fun x v => Host.reduce IntOp.andi x v reducesTo_S12500x16x256_S_d0_1_2 h_S_) main_v11 main_c_3
  let main_v13 : IVec S_ 1 := andi main_v8 main_v12
  let main_v14 : FVec F S50000x16x256 .f32 := Host.absf main_arg3
  let main_cst_4 : FVec F S_ .f32 := constant S_ .f32 0x7F800000#32
  let main_v15 : FVec F S50000x16x256 .f32 := broadcastInDim S50000x16x256 ![] bcast_S_S50000x16x256 main_cst_4
  let main_v16 : IVec S50000x16x256 1 := cmpf .olt main_v14 main_v15
  fn_part1 (F := F) main_arg4 main_arg5 main_arg6 main_arg7 main_v13 main_v16
-- ==== Kernel.lean ====
abbrev S12500x256 : Shape := ⟨2, ![12500, 256]⟩
abbrev S50000x256 : Shape := ⟨2, ![50000, 256]⟩
abbrev S12500x16x256 : Shape := ⟨3, ![12500, 16, 256]⟩
abbrev S50000x16x256 : Shape := ⟨3, ![50000, 16, 256]⟩
abbrev S50000 : Shape := ⟨1, ![50000]⟩
abbrev S256x256 : Shape := ⟨2, ![256, 256]⟩
abbrev S768x512 : Shape := ⟨2, ![768, 512]⟩
abbrev S200000x256 : Shape := ⟨2, ![200000, 256]⟩
abbrev S2000x256 : Shape := ⟨2, ![2000, 256]⟩
abbrev S_ : Shape := ⟨0, ![]⟩
abbrev S50000x1 : Shape := ⟨2, ![50000, 1]⟩
abbrev S1 : Shape := ⟨1, ![1]⟩
abbrev S1x1 : Shape := ⟨2, ![1, 1]⟩
abbrev S50000x512 : Shape := ⟨2, ![50000, 512]⟩
abbrev S200x16x256 : Shape := ⟨3, ![200, 16, 256]⟩
abbrev S200x256 : Shape := ⟨2, ![200, 256]⟩
abbrev S200x512 : Shape := ⟨2, ![200, 512]⟩
abbrev S3200x256 : Shape := ⟨2, ![3200, 256]⟩
abbrev S200x768 : Shape := ⟨2, ![200, 768]⟩

abbrev nBuf : Space → Nat
  | .hbm => 58
  | .vmem => 17
  | .smem => 0
  | _ => 0

abbrev bufTy : (tb : Table) → Fin (tcTables nBuf tb) → BufTy
  | .hbm, ⟨0, _⟩ => ⟨S12500x256, .f32⟩
  | .hbm, ⟨1, _⟩ => ⟨S50000x256, .f32⟩
  | .hbm, ⟨2, _⟩ => ⟨S12500x16x256, .f32⟩
  | .hbm, ⟨3, _⟩ => ⟨S50000x16x256, .f32⟩
  | .hbm, ⟨4, _⟩ => ⟨S50000, .i32⟩
  | .hbm, ⟨5, _⟩ => ⟨S256x256, .f32⟩
  | .hbm, ⟨6, _⟩ => ⟨S256x256, .f32⟩
  | .hbm, ⟨7, _⟩ => ⟨S768x512, .f32⟩
  | .hbm, ⟨8, _⟩ => ⟨S200000x256, .f32⟩
  | .hbm, ⟨9, _⟩ => ⟨S200000x256, .f32⟩
  | .hbm, ⟨10, _⟩ => ⟨S12500x16x256, .f32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S1, .i32⟩
  | .hbm, ⟨20, _⟩ => ⟨S_, .i32⟩
  | .hbm, ⟨21, _⟩ => ⟨S50000x1, .i32⟩
  | .hbm, ⟨22, _⟩ => ⟨S50000x1, .i1⟩
  | .hbm, ⟨23, _⟩ => ⟨S1x1, .i32⟩
  | .hbm, ⟨24, _⟩ => ⟨S50000x1, .i32⟩
  | .hbm, ⟨25, _⟩ => ⟨S50000x1, .i1⟩
  | .hbm, ⟨26, _⟩ => ⟨S50000x1, .i1⟩
  | .hbm, ⟨27, _⟩ => ⟨S_, .i1⟩
  | .hbm, ⟨28, _⟩ => ⟨S50000, .i1⟩
  | .hbm, ⟨29, _⟩ => ⟨S50000x256, .f32⟩
  | .hbm, ⟨30, _⟩ => ⟨S50000x256, .i1⟩
  | .hbm, ⟨31, _⟩ => ⟨S_, .f32⟩
  | .hbm, ⟨32, _⟩ => ⟨S50000x256, .f32⟩
  | .hbm, ⟨33, _⟩ => ⟨S50000x256, .f32⟩
  | .hbm, ⟨34, _⟩ => ⟨S_, .i32⟩
  | .hbm, ⟨35, _⟩ => ⟨S50000, .i32⟩
  | .hbm, ⟨36, _⟩ => ⟨S50000, .i1⟩
  | .hbm, ⟨37, _⟩ => ⟨S_, .i32⟩
  | .hbm, ⟨38, _⟩ => ⟨S50000, .i32⟩
  | .hbm, ⟨39, _⟩ => ⟨S50000, .i32⟩
  | .hbm, ⟨40, _⟩ => ⟨S50000, .i32⟩
  | .hbm, ⟨41, _⟩ => ⟨S50000x1, .i32⟩
  | .hbm, ⟨42, _⟩ => ⟨S1, .i32⟩
  | .hbm, ⟨43, _⟩ => ⟨S_, .i32⟩
  | .hbm, ⟨44, _⟩ => ⟨S50000x1, .i32⟩
  | .hbm, ⟨45, _⟩ => ⟨S50000x1, .i1⟩
  | .hbm, ⟨46, _⟩ => ⟨S1x1, .i32⟩
  | .hbm, ⟨47, _⟩ => ⟨S50000x1, .i32⟩
  | .hbm, ⟨48, _⟩ => ⟨S50000x1, .i1⟩
  | .hbm, ⟨49, _⟩ => ⟨S50000x1, .i1⟩
  | .hbm, ⟨50, _⟩ => ⟨S_, .i1⟩
  | .hbm, ⟨51, _⟩ => ⟨S50000, .i1⟩
  | .hbm, ⟨52, _⟩ => ⟨S50000x16x256, .f32⟩
  | .hbm, ⟨53, _⟩ => ⟨S50000x16x256, .i1⟩
  | .hbm, ⟨54, _⟩ => ⟨S_, .f32⟩
  | .hbm, ⟨55, _⟩ => ⟨S50000x16x256, .f32⟩
  | .hbm, ⟨56, _⟩ => ⟨S50000x16x256, .f32⟩
  | .hbm, ⟨57, _⟩ => ⟨S50000x512, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S200x16x256, .f32⟩
  | .local _ .vmem, ⟨6, _⟩ => ⟨S200x16x256, .f32⟩
  | .local _ .vmem, ⟨7, _⟩ => ⟨S200x16x256, .f32⟩
  | .local _ .vmem, ⟨8, _⟩ => ⟨S200x16x256, .f32⟩
  | .local _ .vmem, ⟨9, _⟩ => ⟨S200x256, .f32⟩
  | .local _ .vmem, ⟨10, _⟩ => ⟨S200x256, .f32⟩
  | .local _ .vmem, ⟨11, _⟩ => ⟨S200x256, .f32⟩
  | .local _ .vmem, ⟨12, _⟩ => ⟨S200x256, .f32⟩
  | .local _ .vmem, ⟨13, _⟩ => ⟨S256x256, .f32⟩
  | .local _ .vmem, ⟨14, _⟩ => ⟨S768x512, .f32⟩
  | .local _ .vmem, ⟨15, _⟩ => ⟨S200x512, .f32⟩
  | .local _ .vmem, ⟨16, _⟩ => ⟨S200x512, .f32⟩
  | _, _ => ⟨S12500x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v3 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v4 : Ref sig .tc := ⟨.hbm, 56, rfl⟩
abbrev main_v5 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![250], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x16x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x16x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S200x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S768x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S200x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S12500x16x256_S200000x256 : S12500x16x256.ShapeCasts S200000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S200000x256_S12500x16x256 : S200000x256.ShapeCasts S12500x16x256
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x256_0 : S50000.BroadcastsInDim S50000x256 (![0] : Fin 1 → Fin S50000x256.rank)
  bcast_S_S50000x256 : S_.BroadcastsInDim S50000x256 (![] : Fin 0 → Fin S50000x256.rank)
  bcast_S50000_S50000x16x256_0 : S50000.BroadcastsInDim S50000x16x256 (![0] : Fin 1 → Fin S50000x16x256.rank)
  bcast_S_S50000x16x256 : S_.BroadcastsInDim S50000x16x256 (![] : Fin 0 → Fin S50000x16x256.rank)
  inb_S200x16x256_S200x16x256_0_0_0 : ∀ a, (![0, 0, 0] : Fin 3 → Nat) a + S200x16x256.size a ≤ S200x16x256.size a
  h_S200x16x256 : 0 < S200x16x256.numel
  shapeCasts_S200x16x256_S3200x256 : S200x16x256.ShapeCasts S3200x256
  shapeCasts_S3200x256_S200x16x256 : S3200x256.ShapeCasts S200x16x256
  shapeCasts_S200x16x256_S200x16x256 : S200x16x256.ShapeCasts S200x16x256
  reduces_S200x16x256_S200x256 : S200x16x256.Reduces [1] S200x256
  inb_S200x256_S200x256_0_0 : ∀ a, (![0, 0] : Fin 2 → Nat) a + S200x256.size a ≤ S200x256.size a
  h_S200x256 : 0 < S200x256.numel
  shapeCasts_S200x256_S200x256 : S200x256.ShapeCasts S200x256
  concatenates_S200x256_S200x256_S200x256_S200x768_d1 : Shape.Concatenates [S200x256, S200x256, S200x256] S200x768 1
  inb_S768x512_S768x512_0_0 : ∀ a, (![0, 0] : Fin 2 → Nat) a + S768x512.size a ≤ S768x512.size a
  h_S768x512 : 0 < S768x512.numel
  inb_S200x512_S200x512_0_0 : ∀ a, (![0, 0] : Fin 2 → Nat) a + S200x512.size a ≤ S200x512.size a
  h_S200x512 : 0 < S200x512.numel
  dot_S2000x256_S256x256_S2000x256_1_0_0_1_n_n_wf : DotDims.WF S2000x256 S256x256 S2000x256 [1] [0] [0] [1] [] []
  gather_S12500x256_S50000x1_S50000x256_1_0_n_n_0_1_1256_wf : GatherDims.WF S12500x256 S50000x1 S50000x256 [1] [0] [] [0] [] 1 ![1, 256]
  gather_S12500x16x256_S50000x1_S50000x16x256_12_0_n_n_0_1_116256_wf : GatherDims.WF S12500x16x256 S50000x1 S50000x16x256 [1, 2] [0] [] [0] [] 1 ![1, 16, 256]
  dot_S3200x256_S256x256_S3200x256_1_0_0_1_n_n_wf : DotDims.WF S3200x256 S256x256 S3200x256 [1] [0] [0] [1] [] []
  dot_S200x768_S768x512_S200x512_1_0_0_1_n_n_wf : DotDims.WF S200x768 S768x512 S200x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .f32 = 32 ∨ (Rect.block (s := S200000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S200000x256.size a
  hwx0_2 : ∀ i : grid0.Coords, EltTy.bits .f32 = 32 ∨ (Rect.block (s := S200000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x16x256.size a ≤ S50000x16x256.size a
  hwx1_0 : ∀ i : grid1.Coords, EltTy.bits .f32 = 32 ∨ (Rect.block (s := S50000x16x256) S200x16x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x16x256.size a ≤ S50000x16x256.size a
  hwx1_1 : ∀ i : grid1.Coords, EltTy.bits .f32 = 32 ∨ (Rect.block (s := S50000x16x256) S200x16x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x256.size a ≤ S50000x256.size a
  hwx1_2 : ∀ i : grid1.Coords, EltTy.bits .f32 = 32 ∨ (Rect.block (s := S50000x256) S200x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x256.size a ≤ S50000x256.size a
  hwx1_3 : ∀ i : grid1.Coords, EltTy.bits .f32 = 32 ∨ (Rect.block (s := S50000x256) S200x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S768x512.size a ≤ S768x512.size a
  hwx1_5 : ∀ i : grid1.Coords, EltTy.bits .f32 = 32 ∨ (Rect.block (s := S768x512) S768x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S200x512.size a ≤ S50000x512.size a
  hwx1_6 : ∀ i : grid1.Coords, EltTy.bits .f32 = 32 ∨ (Rect.block (s := S50000x512) S200x512.size (cc1_transform_6 i) (hinb1_6 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S12500x256_S50000x1_S50000x256_1_0_n_n_0_1_1256 : GatherDims S12500x256 S50000x1 S50000x256 where
  offsetDims := [1]
  collapsedSliceDims := [0]
  operandBatchingDims := []
  startIndicesBatchingDims := []
  startIndexMap := [0]
  indexVectorDim := 1
  sliceSizes := ![1, 256]
  wf := gather_S12500x256_S50000x1_S50000x256_1_0_n_n_0_1_1256_wf
def gather_S12500x16x256_S50000x1_S50000x16x256_12_0_n_n_0_1_116256 : GatherDims S12500x16x256 S50000x1 S50000x16x256 where
  offsetDims := [1, 2]
  collapsedSliceDims := [0]
  operandBatchingDims := []
  startIndicesBatchingDims := []
  startIndexMap := [0]
  indexVectorDim := 1
  sliceSizes := ![1, 16, 256]
  wf := gather_S12500x16x256_S50000x1_S50000x16x256_12_0_n_n_0_1_116256_wf
def dot_S3200x256_S256x256_S3200x256_1_0_0_1_n_n : DotDims S3200x256 S256x256 S3200x256 where
  lhsContracting := [1]
  rhsContracting := [0]
  lhsNonContracting := [0]
  rhsNonContracting := [1]
  lhsBatch := []
  rhsBatch := []
  wf := dot_S3200x256_S256x256_S3200x256_1_0_0_1_n_n_wf
def dot_S200x768_S768x512_S200x512_1_0_0_1_n_n : DotDims S200x768 S768x512 S200x512 where
  lhsContracting := [1]
  rhsContracting := [0]
  lhsNonContracting := [0]
  rhsNonContracting := [1]
  lhsBatch := []
  rhsBatch := []
  wf := dot_S200x768_S768x512_S200x512_1_0_0_1_n_n_wf

abbrev win0_0 : Pipeline.Window sig grid0 :=
  Pipeline.Window.ofSpec (Memref.whole main_v0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S200x16x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S200x16x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S200x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S200x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S768x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S200x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S12500x256 : Shape := ⟨2, ![12500, 256]⟩
abbrev S50000x256 : Shape := ⟨2, ![50000, 256]⟩
abbrev S12500x16x256 : Shape := ⟨3, ![12500, 16, 256]⟩
abbrev S50000x16x256 : Shape := ⟨3, ![50000, 16, 256]⟩
abbrev S50000 : Shape := ⟨1, ![50000]⟩
abbrev S256x256 : Shape := ⟨2, ![256, 256]⟩
abbrev S768x512 : Shape := ⟨2, ![768, 512]⟩
abbrev S_ : Shape := ⟨0, ![]⟩
abbrev S50000x1 : Shape := ⟨2, ![50000, 1]⟩
abbrev S1 : Shape := ⟨1, ![1]⟩
abbrev S1x1 : Shape := ⟨2, ![1, 1]⟩
abbrev S50000x768 : Shape := ⟨2, ![50000, 768]⟩
abbrev S50000x512 : Shape := ⟨2, ![50000, 512]⟩

abbrev nBuf : Space → Nat
  | .hbm => 64
  | .vmem => 0
  | .smem => 0
  | _ => 0

abbrev bufTy : (tb : Table) → Fin (tcTables nBuf tb) → BufTy
  | .hbm, ⟨0, _⟩ => ⟨S12500x256, .f32⟩
  | .hbm, ⟨1, _⟩ => ⟨S50000x256, .f32⟩
  | .hbm, ⟨2, _⟩ => ⟨S12500x16x256, .f32⟩
  | .hbm, ⟨3, _⟩ => ⟨S50000x16x256, .f32⟩
  | .hbm, ⟨4, _⟩ => ⟨S50000, .i32⟩
  | .hbm, ⟨5, _⟩ => ⟨S256x256, .f32⟩
  | .hbm, ⟨6, _⟩ => ⟨S256x256, .f32⟩
  | .hbm, ⟨7, _⟩ => ⟨S768x512, .f32⟩
  | .hbm, ⟨8, _⟩ => ⟨S_, .i32⟩
  | .hbm, ⟨9, _⟩ => ⟨S50000, .i32⟩
  | .hbm, ⟨10, _⟩ => ⟨S50000, .i1⟩
  | .hbm, ⟨11, _⟩ => ⟨S_, .i32⟩
  | .hbm, ⟨12, _⟩ => ⟨S50000, .i32⟩
  | .hbm, ⟨13, _⟩ => ⟨S50000, .i32⟩
  | .hbm, ⟨14, _⟩ => ⟨S50000, .i32⟩
  | .hbm, ⟨15, _⟩ => ⟨S50000x1, .i32⟩
  | .hbm, ⟨16, _⟩ => ⟨S1, .i32⟩
  | .hbm, ⟨17, _⟩ => ⟨S_, .i32⟩
  | .hbm, ⟨18, _⟩ => ⟨S50000x1, .i32⟩
  | .hbm, ⟨19, _⟩ => ⟨S50000x1, .i1⟩
  | .hbm, ⟨20, _⟩ => ⟨S1x1, .i32⟩
  | .hbm, ⟨21, _⟩ => ⟨S50000x1, .i32⟩
  | .hbm, ⟨22, _⟩ => ⟨S50000x1, .i1⟩
  | .hbm, ⟨23, _⟩ => ⟨S50000x1, .i1⟩
  | .hbm, ⟨24, _⟩ => ⟨S_, .i1⟩
  | .hbm, ⟨25, _⟩ => ⟨S50000, .i1⟩
  | .hbm, ⟨26, _⟩ => ⟨S50000x256, .f32⟩
  | .hbm, ⟨27, _⟩ => ⟨S50000x256, .i1⟩
  | .hbm, ⟨28, _⟩ => ⟨S_, .f32⟩
  | .hbm, ⟨29, _⟩ => ⟨S50000x256, .f32⟩
  | .hbm, ⟨30, _⟩ => ⟨S50000x256, .f32⟩
  | .hbm, ⟨31, _⟩ => ⟨S_, .i32⟩
  | .hbm, ⟨32, _⟩ => ⟨S50000, .i32⟩
  | .hbm, ⟨33, _⟩ => ⟨S50000, .i1⟩
  | .hbm, ⟨34, _⟩ => ⟨S_, .i32⟩
  | .hbm, ⟨35, _⟩ => ⟨S50000, .i32⟩
  | .hbm, ⟨36, _⟩ => ⟨S50000, .i32⟩
  | .hbm, ⟨37, _⟩ => ⟨S50000, .i32⟩
  | .hbm, ⟨38, _⟩ => ⟨S50000x1, .i32⟩
  | .hbm, ⟨39, _⟩ => ⟨S1, .i32⟩
  | .hbm, ⟨40, _⟩ => ⟨S_, .i32⟩
  | .hbm, ⟨41, _⟩ => ⟨S50000x1, .i32⟩
  | .hbm, ⟨42, _⟩ => ⟨S50000x1, .i1⟩
  | .hbm, ⟨43, _⟩ => ⟨S1x1, .i32⟩
  | .hbm, ⟨44, _⟩ => ⟨S50000x1, .i32⟩
  | .hbm, ⟨45, _⟩ => ⟨S50000x1, .i1⟩
  | .hbm, ⟨46, _⟩ => ⟨S50000x1, .i1⟩
  | .hbm, ⟨47, _⟩ => ⟨S_, .i1⟩
  | .hbm, ⟨48, _⟩ => ⟨S50000, .i1⟩
  | .hbm, ⟨49, _⟩ => ⟨S50000x16x256, .f32⟩
  | .hbm, ⟨50, _⟩ => ⟨S50000x16x256, .i1⟩
  | .hbm, ⟨51, _⟩ => ⟨S_, .f32⟩
  | .hbm, ⟨52, _⟩ => ⟨S50000x16x256, .f32⟩
  | .hbm, ⟨53, _⟩ => ⟨S50000x16x256, .f32⟩
  | .hbm, ⟨54, _⟩ => ⟨S50000x16x256, .f32⟩
  | .hbm, ⟨55, _⟩ => ⟨S50000x16x256, .f32⟩
  | .hbm, ⟨56, _⟩ => ⟨S50000x16x256, .f32⟩
  | .hbm, ⟨57, _⟩ => ⟨S_, .f32⟩
  | .hbm, ⟨58, _⟩ => ⟨S50000x256, .f32⟩
  | .hbm, ⟨59, _⟩ => ⟨S_, .f32⟩
  | .hbm, ⟨60, _⟩ => ⟨S50000x256, .f32⟩
  | .hbm, ⟨61, _⟩ => ⟨S50000x256, .f32⟩
  | .hbm, ⟨62, _⟩ => ⟨S50000x768, .f32⟩
  | .hbm, ⟨63, _⟩ => ⟨S50000x512, .f32⟩
  | _, _ => ⟨S12500x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_cst : Ref sig .tc := ⟨.hbm, 57, rfl⟩
abbrev main_v5 : Ref sig .tc := ⟨.hbm, 58, rfl⟩
abbrev main_cst_0 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x256_0 : S50000.BroadcastsInDim S50000x256 (![0] : Fin 1 → Fin S50000x256.rank)
  bcast_S_S50000x256 : S_.BroadcastsInDim S50000x256 (![] : Fin 0 → Fin S50000x256.rank)
  bcast_S50000_S50000x16x256_0 : S50000.BroadcastsInDim S50000x16x256 (![0] : Fin 1 → Fin S50000x16x256.rank)
  bcast_S_S50000x16x256 : S_.BroadcastsInDim S50000x16x256 (![] : Fin 0 → Fin S50000x16x256.rank)
  reducesTo_S50000x16x256_S50000x256_d1 : S50000x16x256.ReducesTo [1] S50000x256
  concatenates_S50000x256_S50000x256_S50000x256_S50000x768_d1 : Shape.Concatenates [S50000x256, S50000x256, S50000x256] S50000x768 1
  gather_S12500x256_S50000x1_S50000x256_1_0_n_n_0_1_1256_wf : GatherDims.WF S12500x256 S50000x1 S50000x256 [1] [0] [] [0] [] 1 ![1, 256]
  gather_S12500x16x256_S50000x1_S50000x16x256_12_0_n_n_0_1_116256_wf : GatherDims.WF S12500x16x256 S50000x1 S50000x16x256 [1, 2] [0] [] [0] [] 1 ![1, 16, 256]
  dot_S50000x16x256_S256x256_S50000x16x256_2_0_01_1_n_n_wf : DotDims.WF S50000x16x256 S256x256 S50000x16x256 [2] [0] [0, 1] [1] [] []
  dot_S50000x768_S768x512_S50000x512_1_0_0_1_n_n_wf : DotDims.WF S50000x768 S768x512 S50000x512 [1] [0] [0] [1] [] []

variable [Facts₀]

def gather_S12500x256_S50000x1_S50000x256_1_0_n_n_0_1_1256 : GatherDims S12500x256 S50000x1 S50000x256 where
  offsetDims := [1]
  collapsedSliceDims := [0]
  operandBatchingDims := []
  startIndicesBatchingDims := []
  startIndexMap := [0]
  indexVectorDim := 1
  sliceSizes := ![1, 256]
  wf := gather_S12500x256_S50000x1_S50000x256_1_0_n_n_0_1_1256_wf
def gather_S12500x16x256_S50000x1_S50000x16x256_12_0_n_n_0_1_116256 : GatherDims S12500x16x256 S50000x1 S50000x16x256 where
  offsetDims := [1, 2]
  collapsedSliceDims := [0]
  operandBatchingDims := []
  startIndicesBatchingDims := []
  startIndexMap := [0]
  indexVectorDim := 1
  sliceSizes := ![1, 16, 256]
  wf := gather_S12500x16x256_S50000x1_S50000x16x256_12_0_n_n_0_1_116256_wf
def dot_S50000x16x256_S256x256_S50000x16x256_2_0_01_1_n_n : DotDims S50000x16x256 S256x256 S50000x16x256 where
  lhsContracting := [2]
  rhsContracting := [0]
  lhsNonContracting := [0, 1]
  rhsNonContracting := [1]
  lhsBatch := []
  rhsBatch := []
  wf := dot_S50000x16x256_S256x256_S50000x16x256_2_0_01_1_n_n_wf
def dot_S50000x768_S768x512_S50000x512_1_0_0_1_n_n : DotDims S50000x768 S768x512 S50000x512 where
  lhsContracting := [1]
  rhsContracting := [0]
  lhsNonContracting := [0]
  rhsNonContracting := [1]
  lhsBatch := []
  rhsBatch := []
  wf := dot_S50000x768_S768x512_S50000x512_1_0_0_1_n_n_wf

class Facts : Prop extends Facts₀ where

variable [Facts]
-- ==== Proof.KRun.lean ====
/-
  The kernel program's run with its result named.

  The program is two pipelined regions among stretches of host operations. Every weakly fair execution ends with each
  unscoped buffer of a core at the contents the fold of the segments leaves (`Gen.W6`): the argument arrays as launched,
  and the result buffer at what the second region's write-backs leave in its output array.
-/
import proofs.«129143_j42090679501122_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and
    the arguments end as launched. -/
theorem run_named : θ_run defs (onTc (τ := τ) (main (F := F))) ⟨m, fun _ => 0, ρ⟩ (fun r => ∀ c : Dev nD,
      r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v5 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.KRun

end
-- ==== Proof.Spec.lean ====
/-
  What both programs compute, row by row, on the extended reals.

  A fine row `n` reads the coarse row `row idx n` (its index, read signed and clamped into the table). From that row of
  the invariant table `li`, the fine row's own invariant features `ci`, its sixteen equivariant feature rows `xe` and the
  sixteen coarse equivariant rows already multiplied by the coarse weight, `le`, the result row is

    out j = ∑ k < 768, com k · Wmlp(k, j),   com = li ‖ ci ‖ equ,
    equ d = (∑ b < 16, (∑ c, xe b c · Wce(c, d)) · le b d) / 16.

  Every step acts on one row at a time, so the whole-array function is this row function applied to each row's data.
  Nothing here needs a finite entry: only sums and products of extended reals in a fixed order.
-/
import Idealize.ShloMosaic.PureOps.Ideal
import Idealize.ShloMosaic.Lib.ValueIdx

noncomputable section

namespace Cert.Spec

open Idealize.ShloMosaic Idealize.ShloMosaic.ValueIdx

/-- The coarse row a fine row reads: its 32-bit index read signed, clamped into `[0, 12499]`. -/
def row (idx : IVec (⟨1, ![50000]⟩ : Shape) 32) (n : Fin 50000) : Fin 12500 :=
  ⟨min (idx (ix1 n)).toInt.toNat 12499, by omega⟩

/-- One row times a `256 × 256` matrix, at column `d`. -/
def rowDot (x : Fin 256 → EReal) (W : FVec Ideal (⟨2, ![256, 256]⟩ : Shape) .f32) (d : Fin 256) : EReal :=
  ∑ c : Fin 256, x c * W (ix2 c d)

/-- The mean over the sixteen basis rows of the entrywise product, at column `d`. -/
def rowEqu (ce le : Fin 16 → Fin 256 → EReal) (d : Fin 256) : EReal :=
  Ideal.div (∑ b : Fin 16, ce b d * le b d) (Ideal.ofBits .f32 0x41800000#32)

/-- Three rows of 256 entries side by side. -/
def rowCom (li ci equ : Fin 256 → EReal) (k : Fin 768) : EReal :=
  if h : k.val < 256 then li ⟨k.val, h⟩
  else if h2 : k.val < 512 then ci ⟨k.val - 256, by omega⟩
  else equ ⟨k.val - 512, by omega⟩

/-- The result row at column `j`. -/
def rowOut (li ci : Fin 256 → EReal) (xe le : Fin 16 → Fin 256 → EReal)
    (Wce : FVec Ideal (⟨2, ![256, 256]⟩ : Shape) .f32) (Wmlp : FVec Ideal (⟨2, ![768, 512]⟩ : Shape) .f32) (j : Fin 512) : EReal :=
  ∑ k : Fin 768, rowCom li ci (rowEqu (fun b => rowDot (xe b) Wce) le) k * Wmlp (ix2 k j)

/-- Row `r` of the coarse equivariant table times the coarse weight: entry `(b, d)`. -/
def coarse (A2 : FVec Ideal (⟨3, ![12500, 16, 256]⟩ : Shape) .f32) (W5 : FVec Ideal (⟨2, ![256, 256]⟩ : Shape) .f32)
    (r : Fin 12500) (b : Fin 16) (d : Fin 256) : EReal :=
  rowDot (fun c => A2 (ix3 r b c)) W5 d

/-- The whole result: entry `(n, j)`. -/
def out (A0 : FVec Ideal (⟨2, ![12500, 256]⟩ : Shape) .f32) (A1 : FVec Ideal (⟨2, ![50000, 256]⟩ : Shape) .f32)
    (A2 : FVec Ideal (⟨3, ![12500, 16, 256]⟩ : Shape) .f32) (A3 : FVec Ideal (⟨3, ![50000, 16, 256]⟩ : Shape) .f32)
    (idx : IVec (⟨1, ![50000]⟩ : Shape) 32) (W5 W6 : FVec Ideal (⟨2, ![256, 256]⟩ : Shape) .f32)
    (W7 : FVec Ideal (⟨2, ![768, 512]⟩ : Shape) .f32) : FVec Ideal (⟨2, ![50000, 512]⟩ : Shape) .f32 :=
  fun i =>
    rowOut (fun k => A0 (ix2 (row idx ⟨(i 0).val, idx2_lt0 i⟩) k)) (fun k => A1 (ix2 (⟨(i 0).val, idx2_lt0 i⟩ : Fin 50000) k))
      (fun b c => A3 (ix3 (⟨(i 0).val, idx2_lt0 i⟩ : Fin 50000) b c)) (coarse A2 W5 (row idx ⟨(i 0).val, idx2_lt0 i⟩)) W6 W7
      ⟨(i 1).val, idx2_lt1 i⟩

theorem out_apply (A0 : FVec Ideal (⟨2, ![12500, 256]⟩ : Shape) .f32) (A1 : FVec Ideal (⟨2, ![50000, 256]⟩ : Shape) .f32)
    (A2 : FVec Ideal (⟨3, ![12500, 16, 256]⟩ : Shape) .f32) (A3 : FVec Ideal (⟨3, ![50000, 16, 256]⟩ : Shape) .f32)
    (idx : IVec (⟨1, ![50000]⟩ : Shape) 32) (W5 W6 : FVec Ideal (⟨2, ![256, 256]⟩ : Shape) .f32)
    (W7 : FVec Ideal (⟨2, ![768, 512]⟩ : Shape) .f32) (n : Fin 50000) (j : Fin 512) :
    out A0 A1 A2 A3 idx W5 W6 W7 (ix2 n j)
      = rowOut (fun k => A0 (ix2 (row idx n) k)) (fun k => A1 (ix2 n k)) (fun b c => A3 (ix3 n b c))
          (coarse A2 W5 (row idx n)) W6 W7 j := rfl

end Cert.Spec

end
-- ==== Proof.LibMatmulNN.lean ====
/-
  A plain matrix product read at an index, at the ideal values.

  For an M×K matrix A and a K×N matrix B, the product that contracts axis 1 of A with axis 0 of B (dimension numbers
  [1], [0], [0], [1], no batch axis: A · B) has at (a, b) the entry

      acc (a, b) + ∑ c < K, A (a, c) · B (c, b)

  on the extended reals, and just the sum when the accumulator is the zero splat. The index of the contraction is
  the one coordinate c; the operand indices at output (a, b) and contraction position c are (a, c) and (c, b).
-/
import Idealize.ShloMosaic.Lib.ValueIdx
import Idealize.ShloMosaic.PureOps.Ideal.Laws

noncomputable section

open scoped BigOperators

namespace Idealize.ShloMosaic.MatmulNN

open Idealize.ShloMosaic Idealize.ShloMosaic.ValueIdx

variable {M K N : Nat}

/-- The left operand's index at output (a, b) and contraction position c is (a, c). -/
theorem lhsIdx_plain (a : Fin M) (b : Fin N) (c : Fin K) :
    (DotDims.plain M K N).lhsIdx (ix2 a b) ((contrEquiv1 (DotDims.plain M K N) K rfl rfl).symm c) = ix2 a c := by
  have c2 := contrEquiv1_symm_val (DotDims.plain M K N) K rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output (a, b) and contraction position c is (c, b). -/
theorem rhsIdx_plain (a : Fin M) (b : Fin N) (c : Fin K) :
    (DotDims.plain M K N).rhsIdx (ix2 a b) ((contrEquiv1 (DotDims.plain M K N) K rfl rfl).symm c) = ix2 c b := by
  have c2 := contrEquiv1_symm_val (DotDims.plain M K N) K rfl rfl c
  funext ax; apply Fin.ext
  match ax with
  | ⟨0, _⟩ => simp [DotDims.rhsIdx, DotDims.plain]; exact c2
  | ⟨1, _⟩ => simp [DotDims.rhsIdx, DotDims.plain]; rfl

/-- A · B accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![K, N]⟩ φ₂) (acc : FVec Ideal ⟨2, ![M, N]⟩ .f32) (a : Fin M) (b : Fin N) :
    FloatOps.matmul (DotDims.plain M K N) prec A B acc (ix2 a b)
      = acc (ix2 a b) + ∑ c : Fin K, A (ix2 a c) * B (ix2 c b) := by
  rw [Ideal.matmul_apply, ← Equiv.sum_comp (contrEquiv1 (DotDims.plain M K N) K rfl rfl).symm]
  refine congrArg (acc (ix2 a b) + ·) (Finset.sum_congr rfl fun c _ => ?_)
  rw [lhsIdx_plain, rhsIdx_plain]

/-- A · B into the zero splat, at (a, b): the sum over the contracted coordinate. -/
theorem matmul_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  rw [lhsIdx_plain, rhsIdx_plain]

end Idealize.ShloMosaic.MatmulNN

end
-- ==== Proof.Pay0.lean ====
/-
  The coarse kernel's body read at an index: a [2000, 256] block times the [256, 256] weight, accumulated into
  the zero splat, has at (p, d) the sum over c of x(p, c) · W(c, d) — the row's product with the weight at column d.
  The rounding to the narrow format is the identity on the extended reals and the cast to the same shape keeps
  every index.
-/
import Idealize.ShloMosaic.Lib.Pipeline.Value
import proofs.«129143_j42090679501122_1_alg».proof.Proof.Spec
import proofs.«129143_j42090679501122_1_alg».proof.Proof.Gen.KernelIdeal.Skeleton
import proofs.«129143_j42090679501122_1_alg».proof.Proof.LibMatmulNN

noncomputable section

namespace Cert.KernelIdeal.Pay

open Idealize.ShloMosaic Idealize.ShloMosaic.ValueIdx Cert.KernelIdeal

/-- The coarse kernel's dimension numbers are the plain product's. -/
theorem dot0_eq : dot_S2000x256_S256x256_S2000x256_1_0_0_1_n_n = DotDims.plain 2000 256 256 := rfl

theorem pay0_apply (x0 : Vec Ideal S2000x256 .f32) (x3 : Vec Ideal S256x256 .f32) (p : Fin 2000) (d : Fin 256) :
    Gen.k0_pay1 (F := Ideal) x0 x3 (ix2 p d) = Cert.Spec.rowDot (fun c => x0 (ix2 p c)) x3 d := by
  unfold Gen.k0_pay1 Cert.Spec.rowDot
  simp only [matmul, dot0_eq]
  refine (MatmulNN.matmul_zero_apply none _ _ p d).trans ?_
  refine Finset.sum_congr rfl fun c _ => ?_
  rw [truncf_apply, truncf_apply, shapeCast_self]

end Cert.KernelIdeal.Pay

end
-- ==== Proof.KVal0.lean ====
/-
  What the first region leaves in its output array.

  The region multiplies the 200000 × 256 array of coarse equivariant rows (the [12500, 16, 256] table with its two
  leading axes merged) by the 256 × 256 coarse weight, 2000 rows per grid point. Point `t` writes rows
  `2000·t … 2000·t + 1999`, each the product of that row with the weight, so the hundred blocks tile the array and it ends
  holding, at `(r, d)`, the sum over `c` of `X(r, c) · W(c, d)`.
-/
import proofs.«129143_j42090679501122_1_alg».proof.Proof.Gen.KernelIdeal.Frame
import proofs.«129143_j42090679501122_1_alg».proof.Proof.Spec
import proofs.«129143_j42090679501122_1_alg».proof.Proof.Pay0
import Idealize.ShloMosaic.Lib.Pipeline.Value

set_option maxRecDepth 16384

noncomputable section

namespace Cert.KernelIdeal.KVal0

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz2 : (![0, 0] : Fin 2 → Nat) = fun _ => 0 := funext fun a => by fin_cases a <;> rfl

/-- The rows times the weight: entry `(r, d)`. -/
def G0 (X : FVec Ideal S200000x256 .f32) (W : FVec Ideal S256x256 .f32) : FVec Ideal S200000x256 .f32 :=
  fun i => Cert.Spec.rowDot (fun c => X (ix2 (⟨(i 0).val, idx2_lt0 i⟩ : Fin 200000) c)) W ⟨(i 1).val, idx2_lt1 i⟩

theorem G0_apply (X : FVec Ideal S200000x256 .f32) (W : FVec Ideal S256x256 .f32) (r : Fin 200000) (d : Fin 256) :
    G0 X W (ix2 r d) = Cert.Spec.rowDot (fun c => X (ix2 r c)) W d := rfl

/-- The block index maps over the grid: rows move with the point, the weight stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One block: if the row block holds rows `2000·T + p` of `X` and the weight block is `W`, the body's result at `j` is
    the array's function at the index `j` lands on. -/
theorem blk0 (x0 : Vec Ideal S2000x256 .f32) (x1 : Vec Ideal S256x256 .f32) (X : FVec Ideal S200000x256 .f32)
    (W : FVec Ideal S256x256 .f32) (T : Nat)
    (hx0 : ∀ (p : Fin 2000) (c : Fin 256) (r : Fin 200000), r.val = T * 2000 + p.val → x0 (ix2 p c) = X (ix2 r c))
    (hx1 : ∀ (a b : Fin 256), x1 (ix2 a b) = W (ix2 a b)) (j : S2000x256.Idx) (i : S200000x256.Idx)
    (hi0 : (i 0).val = T * 2000 + (j 0).val) (hi1 : (i 1).val = (j 1).val) :
    k0_pay1 (F := Ideal) x0 x1 j = G0 X W i := by
  obtain ⟨p, d, rfl⟩ : ∃ (p : Fin 2000) (d : Fin 256), j = ix2 p d := ⟨j 0, j 1, eq_ix2 j⟩
  obtain ⟨r, d', rfl⟩ : ∃ (r : Fin 200000) (d' : Fin 256), i = ix2 r d' := ⟨i 0, i 1, eq_ix2 i⟩
  obtain rfl : d' = d := Fin.ext hi1
  rw [Pay.pay0_apply, G0_apply]
  unfold Cert.Spec.rowDot
  refine Finset.sum_congr rfl fun c _ => ?_
  show x0 (ix2 p c) * x1 (ix2 c d') = X (ix2 r c) * W (ix2 c d')
  rw [hx0 p c r hi0, hx1]

variable (V : (c : Dev nD) → (b : Ref sig .tc) → Buf (Elt Ideal) ((c : Thread nD τ).loc b))

/-- What point `t` writes back is block `t` of the product. -/
theorem flushed0 (c : Dev nD) (t : Fin cfg0.N) :
    (dat0 V c).flushed 2 t = ((cfg0.win 2).blk t).view.read (Elt Ideal) (G0 (V c main_v0) (V c main_arg5)) := by
  show (cfg0.win 2).cut (grid0.coords t) ((dat0 V c).after 2 t) = _
  rw [after0_2]
  unfold out0_2
  rw [View.canon_unit_zero hz2]
  simp only [View.ld_unit_zero (S := S2000x256) hz2, View.ld_unit_zero (S := S256x256) hz2]
  obtain ⟨e0, e1, e2, e3, e4, e5⟩ := idx_facts0 t
  funext j
  refine blk0 (iblk0 V c 0 t) (iblk0 V c 1 t) (V c main_v0) (V c main_arg5) t.val ?_ ?_ j
    (((cfg0.win 2).blk t).view.emb j) ?_ ?_
  · intro p k r hr
    show V c main_v0 (((cfg0.win 0).blk t).view.emb (ix2 p k)) = V c main_v0 (ix2 r k)
    refine congrArg (V c main_v0) (funext fun a => Fin.ext ?_)
    match a with
    | ⟨0, _⟩ => show win0_0.index t (0 : Fin 2) * 2000 + 1 * p.val = r.val; omega
    | ⟨1, _⟩ => show win0_0.index t (1 : Fin 2) * 256 + 1 * k.val = k.val; omega
  · intro a b
    show V c main_arg5 (((cfg0.win 1).blk t).view.emb (ix2 a b)) = V c main_arg5 (ix2 a b)
    refine congrArg (V c main_arg5) (funext fun x => Fin.ext ?_)
    match x with
    | ⟨0, _⟩ => show win0_1.index t (0 : Fin 2) * 256 + 1 * a.val = a.val; omega
    | ⟨1, _⟩ => show win0_1.index t (1 : Fin 2) * 256 + 1 * b.val = b.val; omega
  · show win0_2.index t (0 : Fin 2) * 2000 + 1 * (j 0).val = t.val * 2000 + (j 0).val; omega
  · show win0_2.index t (1 : Fin 2) * 256 + 1 * (j 1).val = (j 1).val; omega

/-- An index of the array is in point `t`'s block iff each coordinate is in the block's range on its axis. -/
theorem mem_blk0 (t : Fin cfg0.N) (i : S200000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v1).slice (win0_2.rect t)).set ↔ _
  rw [View.set_slice_whole, Rect.mem_set_unit]
  exact Iff.rfl

/-- Every row is in the block of the point `row / 2000`. -/
theorem cover0 (i : S200000x256.Idx) : ∃ t : Fin cfg0.N, (cfg0.win 2).flush t = true ∧ i ∈ ((cfg0.win 2).blk t).view.set := by
  have hi0 : (i 0).val < 200000 := (i 0).isLt
  have hi1 : (i 1).val < 256 := (i 1).isLt
  have hN : cfg0.N = 100 := N_0
  let t : Fin cfg0.N := ⟨(i 0).val / 2000, by rw [hN]; omega⟩
  obtain ⟨e0, e1, e2, e3, e4, e5⟩ := idx_facts0 t
  have ht : t.val = (i 0).val / 2000 := rfl
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The output array after the region: the rows times the weight. -/
theorem final0 (c : Dev nD) : (dat0 V c).arrAt 2 cfg0.N = G0 (V c main_v0) (V c main_arg5) :=
  (dat0 V c).arrAt_eq_of_cover 2 (G0 (V c main_v0) (V c main_arg5)) (fun t _ => flushed0 V c t) cover0

end Cert.KernelIdeal.KVal0

end
-- ==== Proof.LibRowsMerge.lean ====
/-
  Merging the two leading axes of a three-axis array into one axis of rows, and splitting them again, read at an
  index; any extents and element type.

  A shape cast keeps every element at its row-major position. So an [a, b, c] array viewed as [a·b, c] has at
  (r, k) the element (i, j, k) whenever r = b·i + j, the same holds the other way round, and an [a, b] array viewed
  as an [a·b, 1] column has at (r, 0) the element (i, j).
-/
import Idealize.ShloMosaic.Lib.ValueIdx
import Idealize.ShloMosaic.Lib.Pipeline.Value

namespace Cert.Lib.RowsMerge

open Idealize.ShloMosaic Idealize.ShloMosaic.ValueIdx

variable {α : Type}

/-- [a, b, c] viewed as [n, c] rows: row r = b·i + j holds the elements (i, j, ·). -/
theorem merge_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = b * i.val + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr, Nat.mul_comm b i.val])

/-- [n, c] rows viewed as [a, b, c]: the element (i, j, k) is row r = b·i + j, column k. -/
theorem split_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = b * i.val + j.val) : shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr, Nat.mul_comm b i.val])

/-- [a, b] viewed as an [n, 1] column: entry r = b·i + j is the element (i, j). -/
theorem mergeCol_apply {a b n : ℕ} (x : (⟨2, ![a, b]⟩ : Shape).Idx → α)
    (h : (⟨2, ![a, b]⟩ : Shape).ShapeCasts ⟨2, ![n, 1]⟩) (i : Fin a) (j : Fin b) (r : Fin n) (u : Fin 1)
    (hr : r.val = b * i.val + j.val) : shapeCast ⟨2, ![n, 1]⟩ x h (ix2 r u) = x (ix2 i j) :=
  shapeCast_apply x h _ _ (by
    have hu : u.val = 0 := by omega
    rw [Shape.rowMajor_val_two, Shape.rowMajor_val_two]
    show i.val * b + j.val = r.val * 1 + u.val
    rw [hr, hu, Nat.mul_comm b i.val, Nat.mul_one, Nat.add_zero])

end Cert.Lib.RowsMerge
-- ==== Proof.Pay1.lean ====
/-
  The fine kernel's body read at an index.

  Row p of a block holds, for each of the sixteen basis rows b, the row (p, b, ·) of the equivariant features; seen
  as a [3200, 256] matrix that row is row 16·p + b, so the first product at (16·p + b, d) is the sum over c of
  x(p, b, c) · W(c, d), and seen again as [200, 16, 256] it sits at (p, b, d). The entrywise product with the
  coarse rows, summed over b from zero and divided by the word of 16, is the mean row; laid beside the two
  invariant rows it is the 768-entry row whose product with the last weight is the result at (p, j).
-/
import Idealize.ShloMosaic.Lib.Pipeline.Value
import Idealize.ShloMosaic.PureOps.Ideal.Laws
import proofs.«129143_j42090679501122_1_alg».proof.Proof.Spec
import proofs.«129143_j42090679501122_1_alg».proof.Proof.Gen.KernelIdeal.Skeleton
import proofs.«129143_j42090679501122_1_alg».proof.Proof.LibMatmulNN
import proofs.«129143_j42090679501122_1_alg».proof.Proof.LibRowsMerge

noncomputable section

namespace Cert.KernelIdeal.Pay

open Idealize.ShloMosaic Idealize.ShloMosaic.ValueIdx Cert.KernelIdeal Cert.Lib

/-! ## The sum over the middle axis -/

/-- Inserting b at the middle axis of (p, d) gives (p, b, d). -/
theorem lift_mid {n0 n1 n2 : Nat} (h : Shape.Reduces (⟨3, ![n0, n1, n2]⟩ : Shape) [1] ⟨2, ![n0, n2]⟩)
    (p : Fin n0) (d : Fin n2) (b : Fin n1) : Shape.Reduces.lift (a := 1) h (ix2 p d) b = ix3 p b d := by
  funext a; match a with | ⟨0, _⟩ => rfl | ⟨1, _⟩ => rfl | ⟨2, _⟩ => rfl

/-- The sum over the middle axis from the zero word, at (p, d): the sum over b of the source at (p, b, d). -/
theorem sumMid_apply {n0 n1 n2 : Nat} (src : FVec Ideal (⟨3, ![n0, n1, n2]⟩ : Shape) .f32)
    (h : Shape.Reduces (⟨3, ![n0, n1, n2]⟩ : Shape) [1] ⟨2, ![n0, n2]⟩) (hφ : FKind.Formats .f32)
    (hacc : (0x00000000#32 : BitVec 32) = 0x00000000#32) (p : Fin n0) (d : Fin n2) :
    multiReduction (F := Ideal) .add [1] ⟨2, ![n0, n2]⟩ src 0x00000000#32 h hφ hacc (ix2 p d)
      = ∑ b : Fin n1, src (ix3 p b d) := by
  refine (Ideal.multiReduction_add_single src 0x00000000#32 h hφ hacc (ix2 p d)).trans ?_
  exact Finset.sum_congr rfl fun b _ => congrArg src (lift_mid h p d b)

/-! ## The two products' dimension numbers -/

theorem dot1_eq : dot_S3200x256_S256x256_S3200x256_1_0_0_1_n_n = DotDims.plain 3200 256 256 := rfl
theorem dot2_eq : dot_S200x768_S768x512_S200x512_1_0_0_1_n_n = DotDims.plain 200 768 512 := rfl

/-! ## The first product, back in three axes -/

/-- The equivariant rows times the weight, at (p, b, d): row 16·p + b of the [3200, 256] view is the row (p, b, ·). -/
theorem fine_apply (x0 : FVec Ideal S200x16x256 .f32) (x3 : FVec Ideal S256x256 .f32)
    (h1 : S200x16x256.ShapeCasts S3200x256) (h2 : S3200x256.ShapeCasts S200x16x256)
    (hb : FTy.bits .bf16 < FTy.bits .f32) (p : Fin 200) (b : Fin 16) (d : Fin 256) :
    shapeCast S200x16x256
        (FloatOps.matmul (DotDims.plain 3200 256 256) none (shapeCast S3200x256 (truncf .bf16 x0 hb) h1)
          (truncf .bf16 x3 hb) (constant S3200x256 .f32 0x00000000#32)) h2 (ix3 p b d)
      = Cert.Spec.rowDot (fun c => x0 (ix3 p b c)) x3 d := by
  have hr : 16 * p.val + b.val < 3200 := by omega
  refine (RowsMerge.split_apply _ h2 p b d ⟨16 * p.val + b.val, hr⟩ rfl).trans ?_
  refine (MatmulNN.matmul_zero_apply none _ _ _ d).trans ?_
  unfold Cert.Spec.rowDot
  refine Finset.sum_congr rfl fun c _ => ?_
  rw [truncf_apply, RowsMerge.merge_apply _ h1 p b c ⟨16 * p.val + b.val, hr⟩ rfl, truncf_apply]

/-! ## The mean over the sixteen basis rows -/

/-- The entrywise product with the coarse rows, summed over b from zero and divided by the word of 16, at (p, d). -/
theorem equ_apply (x0 : FVec Ideal S200x16x256 .f32) (x3 : FVec Ideal S256x256 .f32) (x7 : FVec Ideal S200x16x256 .f32)
    (h1 : S200x16x256.ShapeCasts S3200x256) (h2 : S3200x256.ShapeCasts S200x16x256)
    (h3 : S200x16x256.ShapeCasts S200x16x256) (hred : S200x16x256.Reduces [1] S200x256)
    (hφ : FKind.Formats .f32) (hacc : (0x00000000#32 : BitVec 32) = 0x00000000#32)
    (hb : FTy.bits .bf16 < FTy.bits .f32) (p : Fin 200) (d : Fin 256) :
    divf (multiReduction (F := Ideal) .add [1] S200x256
          (mulf (shapeCast S200x16x256
              (FloatOps.matmul (DotDims.plain 3200 256 256) none (shapeCast S3200x256 (truncf .bf16 x0 hb) h1)
                (truncf .bf16 x3 hb) (constant S3200x256 .f32 0x00000000#32)) h2)
            (shapeCast S200x16x256 x7 h3)) 0x00000000#32 hred hφ hacc)
        (broadcast S200x256 (Scalar.ofBits .f32 0x41800000#32)) (ix2 p d)
      = Cert.Spec.rowEqu (fun b => Cert.Spec.rowDot (fun c => x0 (ix3 p b c)) x3) (fun b d => x7 (ix3 p b d)) d := by
  rw [divf_apply, broadcast_apply]
  unfold Cert.Spec.rowEqu
  refine congrArg (fun s => Ideal.div s (Ideal.ofBits .f32 0x41800000#32)) ?_
  refine (sumMid_apply _ hred hφ hacc p d).trans ?_
  refine Finset.sum_congr rfl fun b _ => ?_
  rw [mulf_apply, fine_apply, shapeCast_self]

/-! ## Three matrices side by side -/

section SideBySide
variable {α : Type}

/-- Column k of three matrices laid side by side is column k - pre of the piece whose span of columns holds k. -/
theorem concat3_piece {B w0 w1 w2 W : ℕ} (y0 : (⟨2, ![B, w0]⟩ : Shape).Idx → α) (y1 : (⟨2, ![B, w1]⟩ : Shape).Idx → α)
    (y2 : (⟨2, ![B, w2]⟩ : Shape).Idx → α)
    (hc : Shape.Concatenates [⟨2, ![B, w0]⟩, ⟨2, ![B, w1]⟩, ⟨2, ![B, w2]⟩] ⟨2, ![B, W]⟩ 1)
    (p : Fin B) (k : Fin W) :
    concatenate ⟨2, ![B, W]⟩ 1 [⟨⟨2, ![B, w0]⟩, y0⟩, ⟨⟨2, ![B, w1]⟩, y1⟩, ⟨⟨2, ![B, w2]⟩, y2⟩] hc (ix2 p k)
      = if c0 : k.val < w0 then y0 (ix2 p ⟨k.val, c0⟩)
        else if c1 : k.val < w0 + w1 then y1 (ix2 p ⟨k.val - w0, by omega⟩)
        else y2 (ix2 p ⟨k.val - (w0 + w1), by
          have hk := k.isLt
          have hs := hc.2.2
          simp at hs
          omega⟩) := by
  have hk := k.isLt
  have hs := hc.2.2
  simp at hs
  by_cases c0 : k.val < w0
  · rw [dif_pos c0]
    exact concatenate_apply_piece (t := ⟨2, ![B, W]⟩) 1 [⟨⟨2, ![B, w0]⟩, y0⟩, ⟨⟨2, ![B, w1]⟩, y1⟩, ⟨⟨2, ![B, w2]⟩, y2⟩] hc (ix2 p k) 0 (by simp) _ y0 rfl rfl 0 rfl (ix2 p ⟨k.val, c0⟩) (fun b hb => by
      match b with
      | ⟨0, _⟩ => rfl
      | ⟨1, _⟩ => exact absurd rfl hb) (by show 0 + k.val = k.val; omega)
  · rw [dif_neg c0]
    by_cases c1 : k.val < w0 + w1
    · rw [dif_pos c1]
      exact concatenate_apply_piece (t := ⟨2, ![B, W]⟩) 1 [⟨⟨2, ![B, w0]⟩, y0⟩, ⟨⟨2, ![B, w1]⟩, y1⟩, ⟨⟨2, ![B, w2]⟩, y2⟩] hc (ix2 p k) 1 (by simp) _ y1 rfl rfl w0 rfl (ix2 p ⟨k.val - w0, by omega⟩) (fun b hb => by
        match b with
        | ⟨0, _⟩ => rfl
        | ⟨1, _⟩ => exact absurd rfl hb) (by show w0 + (k.val - w0) = k.val; omega)
    · rw [dif_neg c1]
      exact concatenate_apply_piece (t := ⟨2, ![B, W]⟩) 1 [⟨⟨2, ![B, w0]⟩, y0⟩, ⟨⟨2, ![B, w1]⟩, y1⟩, ⟨⟨2, ![B, w2]⟩, y2⟩] hc (ix2 p k) 2 (by simp) _ y2 rfl rfl (w0 + w1) rfl (ix2 p ⟨k.val - (w0 + w1), by omega⟩) (fun b hb => by
        match b with
        | ⟨0, _⟩ => rfl
        | ⟨1, _⟩ => exact absurd rfl hb) (by show (w0 + w1) + (k.val - (w0 + w1)) = k.val; omega)

end SideBySide

/-- The three 256-wide rows side by side, at (p, k): the 768-entry row of the specification. -/
theorem com_apply (y0 y1 y2 : FVec Ideal S200x256 .f32)
    (hc : Shape.Concatenates [S200x256, S200x256, S200x256] S200x768 1) (p : Fin 200) (k : Fin 768) :
    concatenate S200x768 1 [⟨S200x256, y0⟩, ⟨S200x256, y1⟩, ⟨S200x256, y2⟩] hc (ix2 p k)
      = Cert.Spec.rowCom (fun c => y0 (ix2 p c)) (fun c => y1 (ix2 p c)) (fun c => y2 (ix2 p c)) k := by
  refine (concat3_piece y0 y1 y2 hc p k).trans ?_
  unfold Cert.Spec.rowCom
  by_cases c0 : k.val < 256
  · rw [dif_pos c0]
  · rw [dif_neg c0]

/-! ## The body at an index -/

theorem pay1_apply (x0 : Vec Ideal S200x16x256 .f32) (x3 : Vec Ideal S256x256 .f32) (x7 : Vec Ideal S200x16x256 .f32)
    (x13 x15 : Vec Ideal S200x256 .f32) (x18 : Vec Ideal S768x512 .f32) (p : Fin 200) (j : Fin 512) :
    Gen.k1_pay1 (F := Ideal) x0 x3 x7 x13 x15 x18 (ix2 p j)
      = Cert.Spec.rowOut (fun k => x13 (ix2 p k)) (fun k => x15 (ix2 p k)) (fun b c => x0 (ix3 p b c))
          (fun b d => x7 (ix3 p b d)) x3 x18 j := by
  unfold Gen.k1_pay1 Cert.Spec.rowOut
  simp only [matmul, dot1_eq, dot2_eq]
  refine (MatmulNN.matmul_zero_apply none _ _ p j).trans ?_
  refine Finset.sum_congr rfl fun k _ => ?_
  rw [truncf_apply, truncf_apply]
  refine congrArg (· * x18 (ix2 k j)) ?_
  refine (com_apply _ _ _ _ p k).trans ?_
  congr 1
  · funext c; rw [shapeCast_self]
  · funext d
    exact equ_apply x0 x3 x7 _ _ _ _ _ _ _ p d

end Cert.KernelIdeal.Pay

end
-- ==== Proof.KVal1.lean ====
/-
  What the second region leaves in its output array.

  The region works on 200 fine rows per grid point. Point `t` reads rows `200·t … 200·t + 199` of the fine equivariant
  features, of the coarse equivariant rows already gathered and multiplied by the coarse weight, of the gathered
  coarse invariant features and of the fine invariant features, together with the two whole weights, and writes rows
  `200·t … 200·t + 199` of the result, each the result row of the specification on that row's data. The 250 blocks tile
  the array, so it ends holding the row function applied to every row.
-/
import proofs.«129143_j42090679501122_1_alg».proof.Proof.Gen.KernelIdeal.Frame
import proofs.«129143_j42090679501122_1_alg».proof.Proof.Spec
import proofs.«129143_j42090679501122_1_alg».proof.Proof.Pay1
import Idealize.ShloMosaic.Lib.Pipeline.Value

set_option maxRecDepth 16384

noncomputable section

namespace Cert.KernelIdeal.KVal1

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The result row of every fine row: entry `(n, j)`. -/
def G1 (A3 LE : FVec Ideal S50000x16x256 .f32) (LI A1 : FVec Ideal S50000x256 .f32) (W6 : FVec Ideal S256x256 .f32)
    (W7 : FVec Ideal S768x512 .f32) : FVec Ideal S50000x512 .f32 :=
  fun i => Cert.Spec.rowOut (fun k => LI (ix2 (⟨(i 0).val, idx2_lt0 i⟩ : Fin 50000) k))
    (fun k => A1 (ix2 (⟨(i 0).val, idx2_lt0 i⟩ : Fin 50000) k))
    (fun b c => A3 (ix3 (⟨(i 0).val, idx2_lt0 i⟩ : Fin 50000) b c))
    (fun b d => LE (ix3 (⟨(i 0).val, idx2_lt0 i⟩ : Fin 50000) b d)) W6 W7 ⟨(i 1).val, idx2_lt1 i⟩

theorem G1_apply (A3 LE : FVec Ideal S50000x16x256 .f32) (LI A1 : FVec Ideal S50000x256 .f32)
    (W6 : FVec Ideal S256x256 .f32) (W7 : FVec Ideal S768x512 .f32) (n : Fin 50000) (j : Fin 512) :
    G1 A3 LE LI A1 W6 W7 (ix2 n j)
      = Cert.Spec.rowOut (fun k => LI (ix2 n k)) (fun k => A1 (ix2 n k)) (fun b c => A3 (ix3 n b c))
          (fun b d => LE (ix3 n b d)) W6 W7 j := rfl

/-! ## The block index maps over the grid: the four row windows and the result move with the point, the weights stay -/

theorem idx1_0 : ∀ t : Fin cfg1.N, win1_0.index t (0 : Fin 3) = t.val ∧ win1_0.index t (1 : Fin 3) = 0
    ∧ win1_0.index t (2 : Fin 3) = 0 := (by decide +kernel : ∀ t : Fin grid1.N, _)
theorem idx1_1 : ∀ t : Fin cfg1.N, win1_1.index t (0 : Fin 3) = t.val ∧ win1_1.index t (1 : Fin 3) = 0
    ∧ win1_1.index t (2 : Fin 3) = 0 := (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)

/-- One block: if the four row blocks hold rows `200·T + p` of their arrays and the weight blocks are the weights, the
    body's result at `j` is the array's function at the index `j` lands on. -/
theorem blk1 (x0 x1 : Vec Ideal S200x16x256 .f32) (x2 x3 : Vec Ideal S200x256 .f32) (x4 : Vec Ideal S256x256 .f32)
    (x5 : Vec Ideal S768x512 .f32) (A3 LE : FVec Ideal S50000x16x256 .f32) (LI A1 : FVec Ideal S50000x256 .f32)
    (W6 : FVec Ideal S256x256 .f32) (W7 : FVec Ideal S768x512 .f32) (T : Nat)
    (hx0 : ∀ (p : Fin 200) (b : Fin 16) (k : Fin 256) (n : Fin 50000), n.val = T * 200 + p.val →
      x0 (ix3 p b k) = A3 (ix3 n b k))
    (hx1 : ∀ (p : Fin 200) (b : Fin 16) (k : Fin 256) (n : Fin 50000), n.val = T * 200 + p.val →
      x1 (ix3 p b k) = LE (ix3 n b k))
    (hx2 : ∀ (p : Fin 200) (k : Fin 256) (n : Fin 50000), n.val = T * 200 + p.val → x2 (ix2 p k) = LI (ix2 n k))
    (hx3 : ∀ (p : Fin 200) (k : Fin 256) (n : Fin 50000), n.val = T * 200 + p.val → x3 (ix2 p k) = A1 (ix2 n k))
    (hx4 : ∀ (a b : Fin 256), x4 (ix2 a b) = W6 (ix2 a b))
    (hx5 : ∀ (a : Fin 768) (b : Fin 512), x5 (ix2 a b) = W7 (ix2 a b))
    (j : S200x512.Idx) (i : S50000x512.Idx)
    (hi0 : (i 0).val = T * 200 + (j 0).val) (hi1 : (i 1).val = (j 1).val) :
    k1_pay1 (F := Ideal) x0 x4 x1 x2 x3 x5 j = G1 A3 LE LI A1 W6 W7 i := by
  obtain ⟨p, q, rfl⟩ : ∃ (p : Fin 200) (q : Fin 512), j = ix2 p q := ⟨j 0, j 1, eq_ix2 j⟩
  obtain ⟨n, q', rfl⟩ : ∃ (n : Fin 50000) (q' : Fin 512), i = ix2 n q' := ⟨i 0, i 1, eq_ix2 i⟩
  obtain rfl : q' = q := Fin.ext hi1
  have e4 : x4 = W6 := funext fun y => by
    obtain ⟨a, b, rfl⟩ : ∃ (a b : Fin 256), y = ix2 a b := ⟨y 0, y 1, eq_ix2 y⟩
    exact hx4 a b
  have e5 : x5 = W7 := funext fun y => by
    obtain ⟨a, b, rfl⟩ : ∃ (a : Fin 768) (b : Fin 512), y = ix2 a b := ⟨y 0, y 1, eq_ix2 y⟩
    exact hx5 a b
  have e2 : (fun k => x2 (ix2 p k)) = fun k => LI (ix2 n k) := funext fun k => hx2 p k n hi0
  have e3 : (fun k => x3 (ix2 p k)) = fun k => A1 (ix2 n k) := funext fun k => hx3 p k n hi0
  have e0 : (fun b c => x0 (ix3 p b c)) = fun b c => A3 (ix3 n b c) :=
    funext fun b => funext fun k => hx0 p b k n hi0
  have e1 : (fun b d => x1 (ix3 p b d)) = fun b d => LE (ix3 n b d) :=
    funext fun b => funext fun k => hx1 p b k n hi0
  rw [Pay.pay1_apply, G1_apply, e4, e5, e2, e3, e0, e1]

variable (V : (c : Dev nD) → (b : Ref sig .tc) → Buf (Elt Ideal) ((c : Thread nD τ).loc b))

/-- What point `t` writes back is block `t` of the result. -/
theorem flushed1 (c : Dev nD) (t : Fin cfg1.N) :
    (dat1 V c).flushed 6 t = ((cfg1.win 6).blk t).view.read (Elt Ideal)
      (G1 (V c main_arg3) (V c main_v4) (V c main_v3) (V c main_arg1) (V c main_arg6) (V c main_arg7)) := by
  show (cfg1.win 6).cut (grid1.coords t) ((dat1 V c).after 6 t) = _
  rw [after1_6]
  unfold out1_6
  rw [View.canon_unit_zero hz2]
  simp only [View.ld_unit_zero (S := S200x16x256) hz3, View.ld_unit_zero (S := S256x256) hz2,
    View.ld_unit_zero (S := S200x256) hz2, View.ld_unit_zero (S := S768x512) hz2]
  obtain ⟨a0, a1, a2⟩ := idx1_0 t
  obtain ⟨b0, b1, b2⟩ := idx1_1 t
  obtain ⟨c0, c1⟩ := idx1_2 t
  obtain ⟨d0, d1⟩ := idx1_3 t
  obtain ⟨e0, e1⟩ := idx1_4 t
  obtain ⟨f0, f1⟩ := idx1_5 t
  obtain ⟨g0, g1⟩ := idx1_6 t
  funext j
  refine blk1 (iblk1 V c 0 t) (iblk1 V c 1 t) (iblk1 V c 2 t) (iblk1 V c 3 t) (iblk1 V c 4 t) (iblk1 V c 5 t)
    (V c main_arg3) (V c main_v4) (V c main_v3) (V c main_arg1) (V c main_arg6) (V c main_arg7) t.val
    ?_ ?_ ?_ ?_ ?_ ?_ j (((cfg1.win 6).blk t).view.emb j) ?_ ?_
  · intro p b k n hn
    show V c main_arg3 (((cfg1.win 0).blk t).view.emb (ix3 p b k)) = V c main_arg3 (ix3 n b k)
    refine congrArg (V c main_arg3) (funext fun a => Fin.ext ?_)
    match a with
    | ⟨0, _⟩ => show win1_0.index t (0 : Fin 3) * 200 + 1 * p.val = n.val; omega
    | ⟨1, _⟩ => show win1_0.index t (1 : Fin 3) * 16 + 1 * b.val = b.val; omega
    | ⟨2, _⟩ => show win1_0.index t (2 : Fin 3) * 256 + 1 * k.val = k.val; omega
  · intro p b k n hn
    show V c main_v4 (((cfg1.win 1).blk t).view.emb (ix3 p b k)) = V c main_v4 (ix3 n b k)
    refine congrArg (V c main_v4) (funext fun a => Fin.ext ?_)
    match a with
    | ⟨0, _⟩ => show win1_1.index t (0 : Fin 3) * 200 + 1 * p.val = n.val; omega
    | ⟨1, _⟩ => show win1_1.index t (1 : Fin 3) * 16 + 1 * b.val = b.val; omega
    | ⟨2, _⟩ => show win1_1.index t (2 : Fin 3) * 256 + 1 * k.val = k.val; omega
  · intro p k n hn
    show V c main_v3 (((cfg1.win 2).blk t).view.emb (ix2 p k)) = V c main_v3 (ix2 n k)
    refine congrArg (V c main_v3) (funext fun a => Fin.ext ?_)
    match a with
    | ⟨0, _⟩ => show win1_2.index t (0 : Fin 2) * 200 + 1 * p.val = n.val; omega
    | ⟨1, _⟩ => show win1_2.index t (1 : Fin 2) * 256 + 1 * k.val = k.val; omega
  · intro p k n hn
    show V c main_arg1 (((cfg1.win 3).blk t).view.emb (ix2 p k)) = V c main_arg1 (ix2 n k)
    refine congrArg (V c main_arg1) (funext fun a => Fin.ext ?_)
    match a with
    | ⟨0, _⟩ => show win1_3.index t (0 : Fin 2) * 200 + 1 * p.val = n.val; omega
    | ⟨1, _⟩ => show win1_3.index t (1 : Fin 2) * 256 + 1 * k.val = k.val; omega
  · intro a b
    show V c main_arg6 (((cfg1.win 4).blk t).view.emb (ix2 a b)) = V c main_arg6 (ix2 a b)
    refine congrArg (V c main_arg6) (funext fun x => Fin.ext ?_)
    match x with
    | ⟨0, _⟩ => show win1_4.index t (0 : Fin 2) * 256 + 1 * a.val = a.val; omega
    | ⟨1, _⟩ => show win1_4.index t (1 : Fin 2) * 256 + 1 * b.val = b.val; omega
  · intro a b
    show V c main_arg7 (((cfg1.win 5).blk t).view.emb (ix2 a b)) = V c main_arg7 (ix2 a b)
    refine congrArg (V c main_arg7) (funext fun x => Fin.ext ?_)
    match x with
    | ⟨0, _⟩ => show win1_5.index t (0 : Fin 2) * 768 + 1 * a.val = a.val; omega
    | ⟨1, _⟩ => show win1_5.index t (1 : Fin 2) * 512 + 1 * b.val = b.val; omega
  · show win1_6.index t (0 : Fin 2) * 200 + 1 * (j 0).val = t.val * 200 + (j 0).val; omega
  · show win1_6.index t (1 : Fin 2) * 512 + 1 * (j 1).val = (j 1).val; omega

/-- An index of the array is in point `t`'s block iff each coordinate is in the block's range on its axis. -/
theorem mem_blk1 (t : Fin cfg1.N) (i : S50000x512.Idx) :
    i ∈ ((cfg1.win 6).blk t).view.set ↔ ∀ a : Fin 2, win1_6.index t a * S200x512.size a ≤ (i a).val
      ∧ (i a).val < win1_6.index t a * S200x512.size a + S200x512.size a := by
  show i ∈ ((View.whole main_v5).slice (win1_6.rect t)).set ↔ _
  rw [View.set_slice_whole, Rect.mem_set_unit]
  exact Iff.rfl

/-- Every row is in the block of the point `row / 200`. -/
theorem cover1 (i : S50000x512.Idx) :
    ∃ t : Fin cfg1.N, (cfg1.win 6).flush t = true ∧ i ∈ ((cfg1.win 6).blk t).view.set := by
  have hi0 : (i 0).val < 50000 := (i 0).isLt
  have hi1 : (i 1).val < 512 := (i 1).isLt
  have hN : cfg1.N = 250 := N_1
  let t : Fin cfg1.N := ⟨(i 0).val / 200, by rw [hN]; omega⟩
  obtain ⟨g0, g1⟩ := idx1_6 t
  have ht : t.val = (i 0).val / 200 := rfl
  refine ⟨t, flush1_6 t, ?_⟩
  rw [mem_blk1]
  intro a
  match a with
  | ⟨0, _⟩ => show win1_6.index t (0 : Fin 2) * 200 ≤ (i 0).val ∧ (i 0).val < win1_6.index t (0 : Fin 2) * 200 + 200; omega
  | ⟨1, _⟩ => show win1_6.index t (1 : Fin 2) * 512 ≤ (i 1).val ∧ (i 1).val < win1_6.index t (1 : Fin 2) * 512 + 512; omega

/-- The output array after the region: the result row of every fine row. -/
theorem final1 (c : Dev nD) :
    (dat1 V c).arrAt 6 cfg1.N
      = G1 (V c main_arg3) (V c main_v4) (V c main_v3) (V c main_arg1) (V c main_arg6) (V c main_arg7) :=
  (dat1 V c).arrAt_eq_of_cover 6
    (G1 (V c main_arg3) (V c main_v4) (V c main_v3) (V c main_arg1) (V c main_arg6) (V c main_arg7))
    (fun t _ => flushed1 V c t) cover1

end Cert.KernelIdeal.KVal1

end
-- ==== Proof.LibTakeRows.lean ====
/-
  Row gathers: `jnp.take` in fill mode and plain `arr[idx]` are the same rows when every index is in range.

  Both programs gather rows of a two-axis array `arr : [N, 64]` at a vector `idx : [800000]` of 32-bit indices
  (`N = 800000` and `N = 50000`). Both first wrap a negative index, `idx' = select (idx < 0) (idx + N) idx`, and
  broadcast it to a column `w : [800000, 1]`. One program then gathers `arr` at `w` (`stablehlo.gather` with offset
  axis 1, collapsed axis 0, start index map [0], index vector axis 1 and slices [1, 64]; the start index is read signed
  and clamped into [0, N − 1]). The other also computes, per row, whether `0 ≤ w ≤ N − 1` (a reduction by `and` over
  the column's one entry), gathers the same way, and selects the gathered row where the test holds and a constant
  row where it does not.

  For `0 ≤ idx i < N` (signed): the wrap is the identity (`wrap_apply`), the range test holds in every row
  (`inRange_eq_one`), the clamp is the identity, and both terms are the function `rows`:
  entry `(i, c) ↦ arr (idx i, c)` (`take_fill_eq_rows`, `take_clip_eq_rows`, hence `take_fill_eq_take_clip`).
  The float instance is arbitrary; no float operation is involved beyond the constant row that is never selected.

  The gather's dimension numbers are a parameter constrained by its fields (`RowGather`), so the lemmas apply to any
  record with those fields whatever the proof of its side conditions; the shape facts of the broadcasts and of the
  reduction are parameters too.
-/
import Idealize.ShloMosaic.Lib.ValueIdx
import Idealize.ShloMosaic.Lib.ReduceAll

noncomputable section

namespace Cert.TakeRows

open Idealize.ShloMosaic Idealize.ShloMosaic.ValueIdx

abbrev S_ : Shape := ⟨0, ![]⟩
abbrev S1 : Shape := ⟨1, ![1]⟩
abbrev S1x1 : Shape := ⟨2, ![1, 1]⟩
abbrev S800000 : Shape := ⟨1, ![800000]⟩
abbrev S800000x1 : Shape := ⟨2, ![800000, 1]⟩
abbrev S800000x64 : Shape := ⟨2, ![800000, 64]⟩
abbrev S50000x64 : Shape := ⟨2, ![50000, 64]⟩

/-! ## The gather read at an index -/

section Gather
variable {α : Type}

/-- The dimension numbers of a row gather: operand `[N, C]`, start indices `[R, 1]`, result `[R, C]`. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The start-indices index `[t, 0]` of result index `(t, c)`. -/
abbrev rowIdx {R C : Nat} (y : (⟨2, ![R, C]⟩ : Shape).Idx) : (⟨2, ![R, 1]⟩ : Shape).Idx :=
  ix2 (⟨(y 0).val, idx2_lt0 y⟩ : Fin R) (⟨0, Nat.one_pos⟩ : Fin 1)

/-- THE GATHER READ AT `(t, c)`: the operand's row at the start index `idx[t, 0]`, read signed and clamped into
    `[0, N − 1]`, at column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowDims N R C wf) x idx y
      = x (ix2 (⟨min (idx (rowIdx y)).toInt.toNat (N - 1), by omega⟩ : Fin N) (⟨(y 1).val, idx2_lt1 y⟩ : Fin C)) := by
  unfold Host.gather
  congr 1
  funext a
  refine Fin.ext ?_
  match a with
  | ⟨0, _⟩ =>
    show (rowDims N R C wf).start y idx 0 + (rowDims N R C wf).batchCoord y 0 + (rowDims N R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx y ⟨List.idxOf (0 : Fin 2) (rowDims N R C wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    show (rowDims N R C wf).start y idx 1 + (rowDims N R C wf).batchCoord y 1 + (rowDims N R C wf).offCoord y 1 = (y 1).val
    rw [GatherDims.batchCoord_eq_zero _ _ _ List.not_mem_nil]
    have hs : (rowDims N R C wf).start y idx 1 = 0 := by
      unfold GatherDims.start
      rw [dif_neg (show ¬ (1 : Fin 2) ∈ (rowDims N R C wf).startIndexMap from
        fun h => absurd (Fin.val_eq_of_eq (List.mem_singleton.mp h)) Nat.one_ne_zero)]
    rw [hs]
    simp only [Nat.add_zero, Nat.zero_add]
    rfl

/-- A gather's dimension numbers are a row gather's: its seven fields are the ones above (each holds by `rfl` for a
    record written with them). -/
structure RowGather {N R C : Nat} (d : GatherDims ⟨2, ![N, C]⟩ ⟨2, ![R, 1]⟩ ⟨2, ![R, C]⟩) : Prop where
  offsetDims : d.offsetDims = [1]
  collapsedSliceDims : d.collapsedSliceDims = [0]
  operandBatchingDims : d.operandBatchingDims = []
  startIndicesBatchingDims : d.startIndicesBatchingDims = []
  startIndexMap : d.startIndexMap = [0]
  indexVectorDim : d.indexVectorDim = 1
  sliceSizes : d.sliceSizes = ![1, C]

/-- The same reading for any record with a row gather's fields. -/
theorem gather_apply {N R C w : Nat} (hN : 0 < N) (d : GatherDims ⟨2, ![N, C]⟩ ⟨2, ![R, 1]⟩ ⟨2, ![R, C]⟩) (hd : RowGather d)
    (x : (⟨2, ![N, C]⟩ : Shape).Idx → α) (idx : IVec ⟨2, ![R, 1]⟩ w) (y : (⟨2, ![R, C]⟩ : Shape).Idx) :
    Host.gather d x idx y
      = x (ix2 (⟨min (idx (rowIdx y)).toInt.toNat (N - 1), by omega⟩ : Fin N) (⟨(y 1).val, idx2_lt1 y⟩ : Fin C)) := by
  obtain ⟨od, cd, ob, sb, sm, iv, ss, wf⟩ := d
  obtain ⟨h1, h2, h3, h4, h5, h6, h7⟩ := hd
  simp only at h1 h2 h3 h4 h5 h6 h7
  subst h1 h2 h3 h4 h5 h6 h7
  exact gather_rows_apply hN wf x idx y

end Gather

/-! ## Words -/

theorem toInt_zero : (0#32 : BitVec 32).toInt = 0 := by decide
theorem toInt_799999 : (799999#32 : BitVec 32).toInt = 799999 := by decide
theorem toInt_49999 : (49999#32 : BitVec 32).toInt = 49999 := by decide

/-- A reduction by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1 : BitVec 1) (f a) = 1#1 := by rw [h a (List.mem_cons_self ..)]; decide
    rw [List.foldl_cons, e]
    exact foldl_andi_ones f l fun n hn => h n (List.mem_cons_of_mem _ hn)

/-- `jnp.all` of an array of ones, at any result index: the converse of `Host.reduce_andi_eq_one`. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x _ fun n _ => hx n

/-! ## The index pipeline: wrap, column -/

/-- The wrap `select (idx < 0) (idx + n) idx` leaves a nonnegative index alone. -/
theorem wrap_apply (bc0 : S_.BroadcastsInDim S800000 ![]) (n : BitVec 32) (idx : IVec S800000 32) (i : S800000.Idx)
    (h0 : 0 ≤ (idx i).toInt) :
    select (cmpi .slt idx (broadcastInDim S800000 ![] bc0 (constantI S_ 32 0#32)))
      (addi idx (broadcastInDim S800000 ![] bc0 (constantI S_ 32 n))) idx i = idx i := by
  show Scalar.select (IntOp.cmpi .slt (idx i) 0#32) _ _ = _
  unfold Scalar.select
  rw [if_neg]
  intro hc
  have := IntOp.cmpi_slt.1 hc
  rw [toInt_zero] at this
  omega

/-- So on an array of nonnegative indices the wrap is the identity. -/
theorem wrap_eq (bc0 : S_.BroadcastsInDim S800000 ![]) (n : BitVec 32) (idx : IVec S800000 32)
    (h0 : ∀ i, 0 ≤ (idx i).toInt) :
    select (cmpi .slt idx (broadcastInDim S800000 ![] bc0 (constantI S_ 32 0#32)))
      (addi idx (broadcastInDim S800000 ![] bc0 (constantI S_ 32 n))) idx = idx :=
  funext fun i => wrap_apply bc0 n idx i (h0 i)

/-- The column `[800000, 1]` of a vector `[800000]` reads the vector at the row. -/
theorem col_apply {w : Nat} (bc1 : S800000.BroadcastsInDim S800000x1 ![0]) (v : IVec S800000 w) (y : S800000x1.Idx) :
    broadcastInDim S800000x1 ![0] bc1 v y = v (ix1 (⟨(y 0).val, idx2_lt0 y⟩ : Fin 800000)) := by
  unfold broadcastInDim
  refine congrArg v (funext fun a => ?_)
  match a with
  | ⟨0, _⟩ =>
    refine Fin.ext ?_
    rw [dif_neg (show ¬ S800000.size ⟨0, by decide⟩ = 1 from by decide)]
    rfl

/-! ## The two programs' terms -/

/-- A nonnegative signed reading is the unsigned reading. -/
theorem toInt_eq_toNat {x : BitVec 32} (h : 0 ≤ x.toInt) : x.toInt = (x.toNat : Int) :=
  BitVec.toInt_eq_toNat_of_lt (BitVec.toInt_pos_iff.mp h)

/-- Equal row numbers give the same entry. -/
theorem row_congr {α : Type} {N : Nat} (arr : (⟨2, ![N, 64]⟩ : Shape).Idx → α) {a b : Nat} (ha : a < N) (hb : b < N)
    (c : Fin 64) (e : a = b) : arr (ix2 (⟨a, ha⟩ : Fin N) c) = arr (ix2 (⟨b, hb⟩ : Fin N) c) := by
  subst e; rfl

/-- THE ROWS: entry `(i, c)` is `arr` at row `idx i` (read signed, clamped into `[0, N − 1]`) and column `c`. -/
def rows {α : Type} {N : Nat} (hN : 0 < N) (arr : (⟨2, ![N, 64]⟩ : Shape).Idx → α) (idx : IVec S800000 32) : S800000x64.Idx → α :=
  fun y => arr (ix2 (⟨min (idx (ix1 (⟨(y 0).val, idx2_lt0 y⟩ : Fin 800000))).toInt.toNat (N - 1), by omega⟩ : Fin N)
    (⟨(y 1).val, idx2_lt1 y⟩ : Fin 64))

/-- For an index in range the clamp is the identity: the row is `idx i` read unsigned. -/
theorem rows_apply {α : Type} {N : Nat} (hN : 0 < N) (arr : (⟨2, ![N, 64]⟩ : Shape).Idx → α) (idx : IVec S800000 32)
    (y : S800000x64.Idx) (h0 : 0 ≤ (idx (ix1 (⟨(y 0).val, idx2_lt0 y⟩ : Fin 800000))).toInt)
    (h1 : (idx (ix1 (⟨(y 0).val, idx2_lt0 y⟩ : Fin 800000))).toInt < N)
    (hlt : (idx (ix1 (⟨(y 0).val, idx2_lt0 y⟩ : Fin 800000))).toNat < N) :
    rows hN arr idx y
      = arr (ix2 (⟨(idx (ix1 (⟨(y 0).val, idx2_lt0 y⟩ : Fin 800000))).toNat, hlt⟩ : Fin N) (⟨(y 1).val, idx2_lt1 y⟩ : Fin 64)) := by
  unfold rows
  have e : min (idx (ix1 (⟨(y 0).val, idx2_lt0 y⟩ : Fin 800000))).toInt.toNat (N - 1)
      = (idx (ix1 (⟨(y 0).val, idx2_lt0 y⟩ : Fin 800000))).toNat := by
    have := toInt_eq_toNat h0
    omega
  exact row_congr arr _ _ _ e

section Take
variable {F : FTy → Type} [FloatOps F]
variable (bc0 : S_.BroadcastsInDim S800000 ![]) (bc1 : S800000.BroadcastsInDim S800000x1 ![0])
  (bc2 : S_.BroadcastsInDim S800000x1 ![]) (bc3 : S1.BroadcastsInDim S1x1 ![1])
  (bc4 : S1x1.BroadcastsInDim S800000x1 ![0, 1]) (red : S800000x1.ReducesTo [1] S800000) (hS : 0 < S_.numel)
  (bc5 : S800000.BroadcastsInDim S800000x64 ![0]) (bc6 : S_.BroadcastsInDim S800000x64 ![])

/-- The per-row range test `all (0 ≤ w ∧ w ≤ m)` over the column's one entry is 1 in every row when every entry of
    the column lies in `[0, m]` (signed). -/
theorem inRange_eq_one (m : BitVec 32) (M : Int) (hm : m.toInt = M) (w : IVec S800000x1 32)
    (hw : ∀ y, 0 ≤ (w y).toInt ∧ (w y).toInt ≤ M) (j : S800000.Idx) :
    Host.reduce IntOp.andi
      (andi (cmpi .sge w (broadcastInDim S800000x1 ![] bc2 (constantI S_ 32 0#32)))
        (cmpi .sle w (broadcastInDim S800000x1 ![0, 1] bc4 (broadcastInDim S1x1 ![1] bc3 (constantI S1 32 m)))))
      (constantI S_ 1 1#1) red hS j = 1#1 := by
  refine reduce_andi_of_all _ _ red hS j rfl fun y => ?_
  show IntOp.andi (IntOp.cmpi .sge (w y) 0#32) (IntOp.cmpi .sle (w y) m) = 1#1
  rw [IntOp.andi_eq_one]
  refine ⟨IntOp.cmpi_sge.2 ?_, IntOp.cmpi_sle.2 ?_⟩
  · rw [toInt_zero]; exact (hw y).1
  · rw [hm]; exact (hw y).2

/-- PLAIN `arr[idx]`: the gather at the wrapped index column is the rows, for nonnegative indices. -/
theorem take_clip_eq_rows {N : Nat} (hN : 0 < N) (n : BitVec 32)
    (d : GatherDims ⟨2, ![N, 64]⟩ S800000x1 S800000x64) (hd : RowGather d)
    (arr : FVec F ⟨2, ![N, 64]⟩ .f32) (idx : IVec S800000 32) (h0 : ∀ i, 0 ≤ (idx i).toInt) :
    Host.gather d arr (broadcastInDim S800000x1 ![0] bc1
        (select (cmpi .slt idx (broadcastInDim S800000 ![] bc0 (constantI S_ 32 0#32)))
          (addi idx (broadcastInDim S800000 ![] bc0 (constantI S_ 32 n))) idx))
      = rows hN arr idx := by
  rw [wrap_eq bc0 n idx h0]
  funext y
  rw [gather_apply hN d hd]
  refine row_congr arr _ _ _ ?_
  rw [col_apply]

/-- `jnp.take` IN FILL MODE: for indices in `[0, N)` the range test holds in every row, so the select takes the
    gathered row everywhere, and the term is the rows. `m` is the word of `N − 1`. -/
theorem take_fill_eq_rows {N : Nat} (hN : 0 < N) (n m : BitVec 32) (hm : m.toInt = (N : Int) - 1)
    (d : GatherDims ⟨2, ![N, 64]⟩ S800000x1 S800000x64) (hd : RowGather d)
    (arr : FVec F ⟨2, ![N, 64]⟩ .f32) (idx : IVec S800000 32)
    (h0 : ∀ i, 0 ≤ (idx i).toInt) (h1 : ∀ i, (idx i).toInt < N) :
    select
      (broadcastInDim S800000x64 ![0] bc5
        (Host.reduce IntOp.andi
          (andi
            (cmpi .sge
              (broadcastInDim S800000x1 ![0] bc1
                (select (cmpi .slt idx (broadcastInDim S800000 ![] bc0 (constantI S_ 32 0#32)))
                  (addi idx (broadcastInDim S800000 ![] bc0 (constantI S_ 32 n))) idx))
              (broadcastInDim S800000x1 ![] bc2 (constantI S_ 32 0#32)))
            (cmpi .sle
              (broadcastInDim S800000x1 ![0] bc1
                (select (cmpi .slt idx (broadcastInDim S800000 ![] bc0 (constantI S_ 32 0#32)))
                  (addi idx (broadcastInDim S800000 ![] bc0 (constantI S_ 32 n))) idx))
              (broadcastInDim S800000x1 ![0, 1] bc4 (broadcastInDim S1x1 ![1] bc3 (constantI S1 32 m)))))
          (constantI S_ 1 1#1) red hS))
      (Host.gather d arr (broadcastInDim S800000x1 ![0] bc1
        (select (cmpi .slt idx (broadcastInDim S800000 ![] bc0 (constantI S_ 32 0#32)))
          (addi idx (broadcastInDim S800000 ![] bc0 (constantI S_ 32 n))) idx)))
      (broadcastInDim S800000x64 ![] bc6 (constant S_ .f32 0x7FC00000#32))
      = rows hN arr idx := by
  rw [← take_clip_eq_rows bc0 bc1 hN n d hd arr idx h0, wrap_eq bc0 n idx h0]
  have hmask : Host.reduce IntOp.andi
      (andi (cmpi .sge (broadcastInDim S800000x1 ![0] bc1 idx) (broadcastInDim S800000x1 ![] bc2 (constantI S_ 32 0#32)))
        (cmpi .sle (broadcastInDim S800000x1 ![0] bc1 idx)
          (broadcastInDim S800000x1 ![0, 1] bc4 (broadcastInDim S1x1 ![1] bc3 (constantI S1 32 m)))))
      (constantI S_ 1 1#1) red hS = fun _ => 1#1 :=
    funext fun j => inRange_eq_one bc2 bc3 bc4 red hS m _ hm _ (fun y => by
      rw [col_apply]
      have a := h0 (ix1 (⟨(y 0).val, idx2_lt0 y⟩ : Fin 800000))
      have b := h1 (ix1 (⟨(y 0).val, idx2_lt0 y⟩ : Fin 800000))
      exact ⟨a, by omega⟩) j
  rw [hmask]
  funext y
  show Scalar.select 1#1 _ _ = _
  rw [select_one]

/-- So the two programs' gathers are ONE function of the array and the indices, for indices in range. -/
theorem take_fill_eq_take_clip {N : Nat} (hN : 0 < N) (n n' m : BitVec 32) (hm : m.toInt = (N : Int) - 1)
    (d d' : GatherDims ⟨2, ![N, 64]⟩ S800000x1 S800000x64) (hd : RowGather d) (hd' : RowGather d')
    (bc0' : S_.BroadcastsInDim S800000 ![]) (bc1' : S800000.BroadcastsInDim S800000x1 ![0])
    (arr : FVec F ⟨2, ![N, 64]⟩ .f32) (idx : IVec S800000 32)
    (h0 : ∀ i, 0 ≤ (idx i).toInt) (h1 : ∀ i, (idx i).toInt < N) :
    select
      (broadcastInDim S800000x64 ![0] bc5
        (Host.reduce IntOp.andi
          (andi
            (cmpi .sge
              (broadcastInDim S800000x1 ![0] bc1
                (select (cmpi .slt idx (broadcastInDim S800000 ![] bc0 (constantI S_ 32 0#32)))
                  (addi idx (broadcastInDim S800000 ![] bc0 (constantI S_ 32 n))) idx))
              (broadcastInDim S800000x1 ![] bc2 (constantI S_ 32 0#32)))
            (cmpi .sle
              (broadcastInDim S800000x1 ![0] bc1
                (select (cmpi .slt idx (broadcastInDim S800000 ![] bc0 (constantI S_ 32 0#32)))
                  (addi idx (broadcastInDim S800000 ![] bc0 (constantI S_ 32 n))) idx))
              (broadcastInDim S800000x1 ![0, 1] bc4 (broadcastInDim S1x1 ![1] bc3 (constantI S1 32 m)))))
          (constantI S_ 1 1#1) red hS))
      (Host.gather d arr (broadcastInDim S800000x1 ![0] bc1
        (select (cmpi .slt idx (broadcastInDim S800000 ![] bc0 (constantI S_ 32 0#32)))
          (addi idx (broadcastInDim S800000 ![] bc0 (constantI S_ 32 n))) idx)))
      (broadcastInDim S800000x64 ![] bc6 (constant S_ .f32 0x7FC00000#32))
      = Host.gather d' arr (broadcastInDim S800000x1 ![0] bc1'
          (select (cmpi .slt idx (broadcastInDim S800000 ![] bc0' (constantI S_ 32 0#32)))
            (addi idx (broadcastInDim S800000 ![] bc0' (constantI S_ 32 n'))) idx)) :=
  (take_fill_eq_rows bc0 bc1 bc2 bc3 bc4 red hS bc5 bc6 hN n m hm d hd arr idx h0 h1).trans
    (take_clip_eq_rows bc0' bc1' hN n' d' hd' arr idx h0).symm

end Take

/-! ## The two extents -/

section Extents
variable {F : FTy → Type} [FloatOps F]

theorem pos_800000 : 0 < 800000 := by decide
theorem pos_50000 : 0 < 50000 := by decide
theorem toInt_m800000 : (799999#32 : BitVec 32).toInt = ((800000 : Nat) : Int) - 1 := by decide
theorem toInt_m50000 : (49999#32 : BitVec 32).toInt = ((50000 : Nat) : Int) - 1 := by decide

/-- Rows of the `[800000, 64]` array: the fill-mode term (constants `800000`, `799999`) is the rows. -/
theorem take_fill_800000 (bc0 : S_.BroadcastsInDim S800000 ![]) (bc1 : S800000.BroadcastsInDim S800000x1 ![0])
    (bc2 : S_.BroadcastsInDim S800000x1 ![]) (bc3 : S1.BroadcastsInDim S1x1 ![1])
    (bc4 : S1x1.BroadcastsInDim S800000x1 ![0, 1]) (red : S800000x1.ReducesTo [1] S800000) (hS : 0 < S_.numel)
    (bc5 : S800000.BroadcastsInDim S800000x64 ![0]) (bc6 : S_.BroadcastsInDim S800000x64 ![])
    (d : GatherDims S800000x64 S800000x1 S800000x64) (hd : RowGather d)
    (arr : FVec F S800000x64 .f32) (idx : IVec S800000 32)
    (h0 : ∀ i, 0 ≤ (idx i).toInt) (h1 : ∀ i, (idx i).toInt < 800000) :
    select
      (broadcastInDim S800000x64 ![0] bc5
        (Host.reduce IntOp.andi
          (andi
            (cmpi .sge
              (broadcastInDim S800000x1 ![0] bc1
                (select (cmpi .slt idx (broadcastInDim S800000 ![] bc0 (constantI S_ 32 0#32)))
                  (addi idx (broadcastInDim S800000 ![] bc0 (constantI S_ 32 800000#32))) idx))
              (broadcastInDim S800000x1 ![] bc2 (constantI S_ 32 0#32)))
            (cmpi .sle
              (broadcastInDim S800000x1 ![0] bc1
                (select (cmpi .slt idx (broadcastInDim S800000 ![] bc0 (constantI S_ 32 0#32)))
                  (addi idx (broadcastInDim S800000 ![] bc0 (constantI S_ 32 800000#32))) idx))
              (broadcastInDim S800000x1 ![0, 1] bc4 (broadcastInDim S1x1 ![1] bc3 (constantI S1 32 799999#32)))))
          (constantI S_ 1 1#1) red hS))
      (Host.gather d arr (broadcastInDim S800000x1 ![0] bc1
        (select (cmpi .slt idx (broadcastInDim S800000 ![] bc0 (constantI S_ 32 0#32)))
          (addi idx (broadcastInDim S800000 ![] bc0 (constantI S_ 32 800000#32))) idx)))
      (broadcastInDim S800000x64 ![] bc6 (constant S_ .f32 0x7FC00000#32))
      = rows pos_800000 arr idx :=
  take_fill_eq_rows bc0 bc1 bc2 bc3 bc4 red hS bc5 bc6 pos_800000 800000#32 799999#32 toInt_m800000 d hd arr idx h0
    (fun i => by have := h1 i; exact_mod_cast this)

/-- … and the plain gather at the wrapped index column. -/
theorem take_clip_800000 (bc0 : S_.BroadcastsInDim S800000 ![]) (bc1 : S800000.BroadcastsInDim S800000x1 ![0])
    (d : GatherDims S800000x64 S800000x1 S800000x64) (hd : RowGather d)
    (arr : FVec F S800000x64 .f32) (idx : IVec S800000 32) (h0 : ∀ i, 0 ≤ (idx i).toInt) :
    Host.gather d arr (broadcastInDim S800000x1 ![0] bc1
        (select (cmpi .slt idx (broadcastInDim S800000 ![] bc0 (constantI S_ 32 0#32)))
          (addi idx (broadcastInDim S800000 ![] bc0 (constantI S_ 32 800000#32))) idx))
      = rows pos_800000 arr idx :=
  take_clip_eq_rows bc0 bc1 pos_800000 800000#32 d hd arr idx h0

/-- Rows of the `[50000, 64]` array: the fill-mode term (constants `50000`, `49999`) is the rows. -/
theorem take_fill_50000 (bc0 : S_.BroadcastsInDim S800000 ![]) (bc1 : S800000.BroadcastsInDim S800000x1 ![0])
    (bc2 : S_.BroadcastsInDim S800000x1 ![]) (bc3 : S1.BroadcastsInDim S1x1 ![1])
    (bc4 : S1x1.BroadcastsInDim S800000x1 ![0, 1]) (red : S800000x1.ReducesTo [1] S800000) (hS : 0 < S_.numel)
    (bc5 : S800000.BroadcastsInDim S800000x64 ![0]) (bc6 : S_.BroadcastsInDim S800000x64 ![])
    (d : GatherDims S50000x64 S800000x1 S800000x64) (hd : RowGather d)
    (arr : FVec F S50000x64 .f32) (idx : IVec S800000 32)
    (h0 : ∀ i, 0 ≤ (idx i).toInt) (h1 : ∀ i, (idx i).toInt < 50000) :
    select
      (broadcastInDim S800000x64 ![0] bc5
        (Host.reduce IntOp.andi
          (andi
            (cmpi .sge
              (broadcastInDim S800000x1 ![0] bc1
                (select (cmpi .slt idx (broadcastInDim S800000 ![] bc0 (constantI S_ 32 0#32)))
                  (addi idx (broadcastInDim S800000 ![] bc0 (constantI S_ 32 50000#32))) idx))
              (broadcastInDim S800000x1 ![] bc2 (constantI S_ 32 0#32)))
            (cmpi .sle
              (broadcastInDim S800000x1 ![0] bc1
                (select (cmpi .slt idx (broadcastInDim S800000 ![] bc0 (constantI S_ 32 0#32)))
                  (addi idx (broadcastInDim S800000 ![] bc0 (constantI S_ 32 50000#32))) idx))
              (broadcastInDim S800000x1 ![0, 1] bc4 (broadcastInDim S1x1 ![1] bc3 (constantI S1 32 49999#32)))))
          (constantI S_ 1 1#1) red hS))
      (Host.gather d arr (broadcastInDim S800000x1 ![0] bc1
        (select (cmpi .slt idx (broadcastInDim S800000 ![] bc0 (constantI S_ 32 0#32)))
          (addi idx (broadcastInDim S800000 ![] bc0 (constantI S_ 32 50000#32))) idx)))
      (broadcastInDim S800000x64 ![] bc6 (constant S_ .f32 0x7FC00000#32))
      = rows pos_50000 arr idx :=
  take_fill_eq_rows bc0 bc1 bc2 bc3 bc4 red hS bc5 bc6 pos_50000 50000#32 49999#32 toInt_m50000 d hd arr idx h0
    (fun i => by have := h1 i; exact_mod_cast this)

/-- … and the plain gather at the wrapped index column. -/
theorem take_clip_50000 (bc0 : S_.BroadcastsInDim S800000 ![]) (bc1 : S800000.BroadcastsInDim S800000x1 ![0])
    (d : GatherDims S50000x64 S800000x1 S800000x64) (hd : RowGather d)
    (arr : FVec F S50000x64 .f32) (idx : IVec S800000 32) (h0 : ∀ i, 0 ≤ (idx i).toInt) :
    Host.gather d arr (broadcastInDim S800000x1 ![0] bc1
        (select (cmpi .slt idx (broadcastInDim S800000 ![] bc0 (constantI S_ 32 0#32)))
          (addi idx (broadcastInDim S800000 ![] bc0 (constantI S_ 32 50000#32))) idx))
      = rows pos_50000 arr idx :=
  take_clip_eq_rows bc0 bc1 pos_50000 50000#32 d hd arr idx h0

end Extents

/-! ## Index vectors cut out of a two-row array -/

abbrev S2x800000 : Shape := ⟨2, ![2, 800000]⟩
abbrev S1x800000 : Shape := ⟨2, ![1, 800000]⟩

/-- A row of a `[2, 800000]` array, sliced out and reshaped to `[800000]`, holds entries of the array: what holds of
    every entry of the array holds of every entry of the row (a slice and a reshape only re-index). -/
theorem slice_reshape_all {w : Nat} (off : Fin S2x800000.rank → Nat) (hs : S2x800000.Slices off S1x800000)
    (hc : S1x800000.ShapeCasts S800000) (a : IVec S2x800000 w) (P : BitVec w → Prop) (h : ∀ i, P (a i))
    (i : S800000.Idx) : P (shapeCast S800000 (extractStridedSlice S1x800000 off a hs) hc i) :=
  h _

end Cert.TakeRows

end
-- ==== Proof.TakeRows.lean ====
/-
  Row gathers by a vector of 50000 indices: `jnp.take` in fill mode reads rows of the table.

  The index vector is first wrapped (a negative index gets the table's height added), laid out as a column, tested
  row by row for lying in `[0, N − 1]`, and used as the start index of a gather of whole rows (of a two-axis table
  `[N, C]`) or whole slabs (of a three-axis table `[N, B, C]`); where the test fails a constant fills the row. For
  indices with `0 ≤ idx i < N` (signed) the wrap is the identity and the test holds in every row, so entry `(i, k)` of
  the result is the table's entry `(idx i, k)` — with `idx i` spelled as its signed reading clamped into `[0, N − 1]`,
  which is how the gather itself reads it — and entry `(i, b, k)` is the table's `(idx i, b, k)`. The float instance is
  arbitrary: no float operation is involved beyond the fill constant that is never selected.
-/
import proofs.«129143_j42090679501122_1_alg».proof.Proof.LibTakeRows
import proofs.«129143_j42090679501122_1_alg».proof.Proof.Spec

noncomputable section

namespace Cert.Take

open Idealize.ShloMosaic Idealize.ShloMosaic.ValueIdx Cert.TakeRows

abbrev S50000 : Shape := ⟨1, ![50000]⟩
abbrev S50000x1 : Shape := ⟨2, ![50000, 1]⟩

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-! ## A gather of whole slabs of a three-axis table, read at an index -/

section Gather3
variable {α : Type}

/-- The dimension numbers of a slab gather: operand `[N, B, C]`, start indices `[R, 1]`, result `[R, B, C]`. -/
abbrev slabDims (N R B C : Nat)
    (wf : GatherDims.WF ⟨3, ![N, B, C]⟩ ⟨2, ![R, 1]⟩ ⟨3, ![R, B, C]⟩ [1, 2] [0] [] [0] [] 1 ![1, B, C]) :
    GatherDims ⟨3, ![N, B, C]⟩ ⟨2, ![R, 1]⟩ ⟨3, ![R, B, C]⟩ where
  offsetDims := [1, 2]
  collapsedSliceDims := [0]
  operandBatchingDims := []
  startIndicesBatchingDims := []
  startIndexMap := [0]
  indexVectorDim := 1
  sliceSizes := ![1, B, C]
  wf := wf

/-- The start-indices index `[t, 0]` of result index `(t, b, c)`. -/
abbrev slabIdx {R B C : Nat} (y : (⟨3, ![R, B, C]⟩ : Shape).Idx) : (⟨2, ![R, 1]⟩ : Shape).Idx :=
  ix2 (⟨(y 0).val, idx3_lt0 y⟩ : Fin R) (⟨0, Nat.one_pos⟩ : Fin 1)

/-- The gather read at `(t, b, c)`: the operand's slab at the start index `idx[t, 0]`, read signed and clamped into
    `[0, N − 1]`, at `(b, c)`. -/
theorem gather_slabs_apply {N R B C w : Nat} (hN : 0 < N)
    (wf : GatherDims.WF ⟨3, ![N, B, C]⟩ ⟨2, ![R, 1]⟩ ⟨3, ![R, B, C]⟩ [1, 2] [0] [] [0] [] 1 ![1, B, C])
    (x : (⟨3, ![N, B, C]⟩ : Shape).Idx → α) (idx : IVec ⟨2, ![R, 1]⟩ w) (y : (⟨3, ![R, B, C]⟩ : Shape).Idx) :
    Host.gather (slabDims N R B C wf) x idx y
      = x (ix3 (⟨min (idx (slabIdx y)).toInt.toNat (N - 1), by omega⟩ : Fin N) (⟨(y 1).val, idx3_lt1 y⟩ : Fin B)
          (⟨(y 2).val, idx3_lt2 y⟩ : Fin C)) := by
  unfold Host.gather
  congr 1
  funext a
  refine Fin.ext ?_
  match a with
  | ⟨0, _⟩ =>
    show (slabDims N R B C wf).start y idx 0 + (slabDims N R B C wf).batchCoord y 0 + (slabDims N R B C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N R B C wf).startIndexMap from List.mem_singleton.mpr rfl)]
    have hsi : (slabDims N R B C wf).siIdx y ⟨List.idxOf (0 : Fin 3) (slabDims N R B C wf).startIndexMap,
        List.idxOf_lt_length_iff.2 (List.mem_singleton.mpr rfl)⟩ = slabIdx y := by
      funext b; refine Fin.ext ?_
      match b with
      | ⟨0, _⟩ => rfl
      | ⟨1, _⟩ => rfl
    rw [hsi]
    rfl
  | ⟨1, _⟩ =>
    show (slabDims N R B C wf).start y idx 1 + (slabDims N R B C wf).batchCoord y 1 + (slabDims N R B C wf).offCoord y 1 = (y 1).val
    rw [GatherDims.batchCoord_eq_zero _ _ _ List.not_mem_nil]
    have hs : (slabDims N R B C wf).start y idx 1 = 0 := by
      unfold GatherDims.start
      rw [dif_neg (show ¬ (1 : Fin 3) ∈ (slabDims N R B C wf).startIndexMap from
        fun h => absurd (Fin.val_eq_of_eq (List.mem_singleton.mp h)) Nat.one_ne_zero)]
    rw [hs]
    simp only [Nat.add_zero, Nat.zero_add]
    rfl
  | ⟨2, _⟩ =>
    show (slabDims N R B C wf).start y idx 2 + (slabDims N R B C wf).batchCoord y 2 + (slabDims N R B C wf).offCoord y 2 = (y 2).val
    rw [GatherDims.batchCoord_eq_zero _ _ _ List.not_mem_nil]
    have hs : (slabDims N R B C wf).start y idx 2 = 0 := by
      unfold GatherDims.start
      rw [dif_neg (show ¬ (2 : Fin 3) ∈ (slabDims N R B C wf).startIndexMap from
        fun h => absurd (Fin.val_eq_of_eq (List.mem_singleton.mp h)) (show (2 : Nat) ≠ 0 from by decide))]
    rw [hs]
    simp only [Nat.add_zero, Nat.zero_add]
    rfl

/-- A gather's dimension numbers are a slab gather's: its seven fields are the ones above. -/
structure SlabGather {N R B C : Nat} (d : GatherDims ⟨3, ![N, B, C]⟩ ⟨2, ![R, 1]⟩ ⟨3, ![R, B, C]⟩) : Prop where
  offsetDims : d.offsetDims = [1, 2]
  collapsedSliceDims : d.collapsedSliceDims = [0]
  operandBatchingDims : d.operandBatchingDims = []
  startIndicesBatchingDims : d.startIndicesBatchingDims = []
  startIndexMap : d.startIndexMap = [0]
  indexVectorDim : d.indexVectorDim = 1
  sliceSizes : d.sliceSizes = ![1, B, C]

/-- The same reading for any record with a slab gather's fields. -/
theorem gather3_apply {N R B C w : Nat} (hN : 0 < N) (d : GatherDims ⟨3, ![N, B, C]⟩ ⟨2, ![R, 1]⟩ ⟨3, ![R, B, C]⟩)
    (hd : SlabGather d) (x : (⟨3, ![N, B, C]⟩ : Shape).Idx → α) (idx : IVec ⟨2, ![R, 1]⟩ w)
    (y : (⟨3, ![R, B, C]⟩ : Shape).Idx) :
    Host.gather d x idx y
      = x (ix3 (⟨min (idx (slabIdx y)).toInt.toNat (N - 1), by omega⟩ : Fin N) (⟨(y 1).val, idx3_lt1 y⟩ : Fin B)
          (⟨(y 2).val, idx3_lt2 y⟩ : Fin C)) := by
  obtain ⟨od, cd, ob, sb, sm, iv, ss, wf⟩ := d
  obtain ⟨h1, h2, h3, h4, h5, h6, h7⟩ := hd
  simp only at h1 h2 h3 h4 h5 h6 h7
  subst h1 h2 h3 h4 h5 h6 h7
  exact gather_slabs_apply hN wf x idx y

end Gather3

/-! ## The index pipeline at 50000 indices -/

/-- The wrap `select (idx < 0) (idx + n) idx` leaves a nonnegative index alone. -/
theorem wrap_eq (bc0 : S_.BroadcastsInDim S50000 ![]) (n : BitVec 32) (idx : IVec S50000 32)
    (h0 : ∀ i, 0 ≤ (idx i).toInt) :
    select (cmpi .slt idx (broadcastInDim S50000 ![] bc0 (constantI S_ 32 0#32)))
      (addi idx (broadcastInDim S50000 ![] bc0 (constantI S_ 32 n))) idx = idx := by
  funext i
  show Scalar.select (IntOp.cmpi .slt (idx i) 0#32) _ _ = _
  unfold Scalar.select
  rw [if_neg]
  intro hc
  have := IntOp.cmpi_slt.1 hc
  rw [toInt_zero] at this
  have := h0 i
  omega

/-- The column `[50000, 1]` of a vector `[50000]` reads the vector at the row. -/
theorem col_apply {w : Nat} (bc1 : S50000.BroadcastsInDim S50000x1 ![0]) (v : IVec S50000 w) (y : S50000x1.Idx) :
    broadcastInDim S50000x1 ![0] bc1 v y = v (ix1 (⟨(y 0).val, idx2_lt0 y⟩ : Fin 50000)) := by
  unfold broadcastInDim
  refine congrArg v (funext fun a => ?_)
  match a with
  | ⟨0, _⟩ =>
    refine Fin.ext ?_
    rw [dif_neg (show ¬ S50000.size ⟨0, by decide⟩ = 1 from by decide)]
    rfl

/-- The wrapped index column. -/
def wcol (bc0 : S_.BroadcastsInDim S50000 ![]) (bc1 : S50000.BroadcastsInDim S50000x1 ![0]) (n : BitVec 32)
    (idx : IVec S50000 32) : IVec S50000x1 32 :=
  broadcastInDim S50000x1 ![0] bc1
    (select (cmpi .slt idx (broadcastInDim S50000 ![] bc0 (constantI S_ 32 0#32)))
      (addi idx (broadcastInDim S50000 ![] bc0 (constantI S_ 32 n))) idx)

theorem wcol_apply (bc0 : S_.BroadcastsInDim S50000 ![]) (bc1 : S50000.BroadcastsInDim S50000x1 ![0]) (n : BitVec 32)
    (idx : IVec S50000 32) (h0 : ∀ i, 0 ≤ (idx i).toInt) (y : S50000x1.Idx) :
    wcol bc0 bc1 n idx y = idx (ix1 (⟨(y 0).val, idx2_lt0 y⟩ : Fin 50000)) := by
  unfold wcol
  rw [wrap_eq bc0 n idx h0, col_apply]

/-- The per-row range test `all (0 ≤ w ∧ w ≤ m)` over the column's one entry. -/
def inRange (bc2 : S_.BroadcastsInDim S50000x1 ![]) (bc3 : S1.BroadcastsInDim S1x1 ![1])
    (bc4 : S1x1.BroadcastsInDim S50000x1 ![0, 1]) (red : S50000x1.ReducesTo [1] S50000) (hS : 0 < S_.numel)
    (m : BitVec 32) (w : IVec S50000x1 32) : IVec S50000 1 :=
  Host.reduce IntOp.andi
    (andi (cmpi .sge w (broadcastInDim S50000x1 ![] bc2 (constantI S_ 32 0#32)))
      (cmpi .sle w (broadcastInDim S50000x1 ![0, 1] bc4 (broadcastInDim S1x1 ![1] bc3 (constantI S1 32 m)))))
    (constantI S_ 1 1#1) red hS

/-- The test is 1 in every row when every entry of the column lies in `[0, M]` (signed), `M` the value of `m`. -/
theorem inRange_eq_one (bc2 : S_.BroadcastsInDim S50000x1 ![]) (bc3 : S1.BroadcastsInDim S1x1 ![1])
    (bc4 : S1x1.BroadcastsInDim S50000x1 ![0, 1]) (red : S50000x1.ReducesTo [1] S50000) (hS : 0 < S_.numel)
    (m : BitVec 32) (M : Int) (hm : m.toInt = M) (w : IVec S50000x1 32)
    (hw : ∀ y, 0 ≤ (w y).toInt ∧ (w y).toInt ≤ M) : inRange bc2 bc3 bc4 red hS m w = fun _ => 1#1 := by
  funext j
  unfold inRange
  refine reduce_andi_of_all _ _ red hS j rfl fun y => ?_
  show IntOp.andi (IntOp.cmpi .sge (w y) 0#32) (IntOp.cmpi .sle (w y) m) = 1#1
  rw [IntOp.andi_eq_one]
  refine ⟨IntOp.cmpi_sge.2 ?_, IntOp.cmpi_sle.2 ?_⟩
  · rw [toInt_zero]; exact (hw y).1
  · rw [hm]; exact (hw y).2

/-! ## The fill-mode take of a two-axis and of a three-axis table -/

section Take
variable {F : FTy → Type} [FloatOps F]
variable (bc0 : S_.BroadcastsInDim S50000 ![]) (bc1 : S50000.BroadcastsInDim S50000x1 ![0])
  (bc2 : S_.BroadcastsInDim S50000x1 ![]) (bc3 : S1.BroadcastsInDim S1x1 ![1])
  (bc4 : S1x1.BroadcastsInDim S50000x1 ![0, 1]) (red : S50000x1.ReducesTo [1] S50000) (hS : 0 < S_.numel)

/-- `jnp.take` in fill mode on a two-axis table: the range test broadcast along the rows selects between the gathered
    rows and a constant fill. -/
def take2 {N C : Nat} (bc5 : S50000.BroadcastsInDim ⟨2, ![50000, C]⟩ ![0]) (bc6 : S_.BroadcastsInDim ⟨2, ![50000, C]⟩ ![])
    (n m : BitVec 32) (d : GatherDims ⟨2, ![N, C]⟩ S50000x1 ⟨2, ![50000, C]⟩) (arr : FVec F ⟨2, ![N, C]⟩ .f32)
    (idx : IVec S50000 32) : FVec F ⟨2, ![50000, C]⟩ .f32 :=
  select (broadcastInDim ⟨2, ![50000, C]⟩ ![0] bc5 (inRange bc2 bc3 bc4 red hS m (wcol bc0 bc1 n idx)))
    (Host.gather d arr (wcol bc0 bc1 n idx))
    (broadcastInDim ⟨2, ![50000, C]⟩ ![] bc6 (constant S_ .f32 0x7FC00000#32))

/-- … and on a three-axis table. -/
def take3 {N B C : Nat} (bc5 : S50000.BroadcastsInDim ⟨3, ![50000, B, C]⟩ ![0])
    (bc6 : S_.BroadcastsInDim ⟨3, ![50000, B, C]⟩ ![]) (n m : BitVec 32)
    (d : GatherDims ⟨3, ![N, B, C]⟩ S50000x1 ⟨3, ![50000, B, C]⟩) (arr : FVec F ⟨3, ![N, B, C]⟩ .f32)
    (idx : IVec S50000 32) : FVec F ⟨3, ![50000, B, C]⟩ .f32 :=
  select (broadcastInDim ⟨3, ![50000, B, C]⟩ ![0] bc5 (inRange bc2 bc3 bc4 red hS m (wcol bc0 bc1 n idx)))
    (Host.gather d arr (wcol bc0 bc1 n idx))
    (broadcastInDim ⟨3, ![50000, B, C]⟩ ![] bc6 (constant S_ .f32 0x7FC00000#32))

/-- For indices in `[0, N)` the range test holds in every row. -/
theorem inRange_wcol {N : Nat} (n m : BitVec 32) (hm : m.toInt = (N : Int) - 1) (idx : IVec S50000 32)
    (h0 : ∀ i, 0 ≤ (idx i).toInt) (h1 : ∀ i, (idx i).toInt < N) :
    inRange bc2 bc3 bc4 red hS m (wcol bc0 bc1 n idx) = fun _ => 1#1 :=
  inRange_eq_one bc2 bc3 bc4 red hS m _ hm _ fun y => by
    rw [wcol_apply bc0 bc1 n idx h0]
    have a := h0 (ix1 (⟨(y 0).val, idx2_lt0 y⟩ : Fin 50000))
    have b := h1 (ix1 (⟨(y 0).val, idx2_lt0 y⟩ : Fin 50000))
    exact ⟨a, by omega⟩

/-- Entry `(i, k)` of the take of a two-axis table is the table's entry `(idx i, k)`. -/
theorem take2_apply {N C : Nat} (hN : 0 < N) (bc5 : S50000.BroadcastsInDim ⟨2, ![50000, C]⟩ ![0])
    (bc6 : S_.BroadcastsInDim ⟨2, ![50000, C]⟩ ![]) (n m : BitVec 32) (hm : m.toInt = (N : Int) - 1)
    (d : GatherDims ⟨2, ![N, C]⟩ S50000x1 ⟨2, ![50000, C]⟩) (hd : RowGather d) (arr : FVec F ⟨2, ![N, C]⟩ .f32)
    (idx : IVec S50000 32) (h0 : ∀ i, 0 ≤ (idx i).toInt) (h1 : ∀ i, (idx i).toInt < N) (i : Fin 50000) (k : Fin C) :
    take2 bc0 bc1 bc2 bc3 bc4 red hS bc5 bc6 n m d arr idx (ix2 i k)
      = arr (ix2 (⟨min (idx (ix1 i)).toInt.toNat (N - 1), by omega⟩ : Fin N) k) := by
  unfold take2
  rw [inRange_wcol bc0 bc1 bc2 bc3 bc4 red hS n m hm idx h0 h1]
  show Scalar.select 1#1 _ _ = _
  rw [select_one, gather_apply hN d hd]
  have e : wcol bc0 bc1 n idx (rowIdx (ix2 i k)) = idx (ix1 i) := wcol_apply bc0 bc1 n idx h0 _
  exact congrArg arr (congrArg (fun r => ix2 r k) (Fin.ext (by show min _ _ = min _ _; rw [e])))

/-- Entry `(i, b, k)` of the take of a three-axis table is the table's entry `(idx i, b, k)`. -/
theorem take3_apply {N B C : Nat} (hN : 0 < N) (bc5 : S50000.BroadcastsInDim ⟨3, ![50000, B, C]⟩ ![0])
    (bc6 : S_.BroadcastsInDim ⟨3, ![50000, B, C]⟩ ![]) (n m : BitVec 32) (hm : m.toInt = (N : Int) - 1)
    (d : GatherDims ⟨3, ![N, B, C]⟩ S50000x1 ⟨3, ![50000, B, C]⟩) (hd : SlabGather d)
    (arr : FVec F ⟨3, ![N, B, C]⟩ .f32) (idx : IVec S50000 32) (h0 : ∀ i, 0 ≤ (idx i).toInt)
    (h1 : ∀ i, (idx i).toInt < N) (i : Fin 50000) (b : Fin B) (k : Fin C) :
    take3 bc0 bc1 bc2 bc3 bc4 red hS bc5 bc6 n m d arr idx (ix3 i b k)
      = arr (ix3 (⟨min (idx (ix1 i)).toInt.toNat (N - 1), by omega⟩ : Fin N) b k) := by
  unfold take3
  rw [inRange_wcol bc0 bc1 bc2 bc3 bc4 red hS n m hm idx h0 h1]
  show Scalar.select 1#1 _ _ = _
  rw [select_one, gather3_apply hN d hd]
  have e : wcol bc0 bc1 n idx (slabIdx (ix3 i b k)) = idx (ix1 i) := wcol_apply bc0 bc1 n idx h0 _
  exact congrArg arr (congrArg (fun r => ix3 r b k) (Fin.ext (by show min _ _ = min _ _; rw [e])))

end Take

/-! ## At the table height 12500 -/

section Height
variable {F : FTy → Type} [FloatOps F]

theorem toInt_12499 : (12499#32 : BitVec 32).toInt = ((12500 : Nat) : Int) - 1 := by decide

/-- Rows of a `[12500, C]` table: entry `(i, k)` is the table's row `Spec.row idx i`. -/
theorem take2_12500 {C : Nat} (bc0 : S_.BroadcastsInDim S50000 ![]) (bc1 : S50000.BroadcastsInDim S50000x1 ![0])
    (bc2 : S_.BroadcastsInDim S50000x1 ![]) (bc3 : S1.BroadcastsInDim S1x1 ![1])
    (bc4 : S1x1.BroadcastsInDim S50000x1 ![0, 1]) (red : S50000x1.ReducesTo [1] S50000) (hS : 0 < S_.numel)
    (bc5 : S50000.BroadcastsInDim ⟨2, ![50000, C]⟩ ![0]) (bc6 : S_.BroadcastsInDim ⟨2, ![50000, C]⟩ ![])
    (d : GatherDims ⟨2, ![12500, C]⟩ S50000x1 ⟨2, ![50000, C]⟩) (hd : RowGather d)
    (arr : FVec F ⟨2, ![12500, C]⟩ .f32) (idx : IVec S50000 32) (h0 : ∀ i, 0 ≤ (idx i).toInt)
    (h1 : ∀ i, (idx i).toInt < 12500) (i : Fin 50000) (k : Fin C) :
    take2 bc0 bc1 bc2 bc3 bc4 red hS bc5 bc6 12500#32 12499#32 d arr idx (ix2 i k)
      = arr (ix2 (Cert.Spec.row idx i) k) :=
  take2_apply bc0 bc1 bc2 bc3 bc4 red hS (by decide) bc5 bc6 12500#32 12499#32 toInt_12499 d hd arr idx h0
    (fun i => by have := h1 i; exact_mod_cast this) i k

/-- Slabs of a `[12500, B, C]` table: entry `(i, b, k)` is the table's slab `Spec.row idx i`. -/
theorem take3_12500 {B C : Nat} (bc0 : S_.BroadcastsInDim S50000 ![]) (bc1 : S50000.BroadcastsInDim S50000x1 ![0])
    (bc2 : S_.BroadcastsInDim S50000x1 ![]) (bc3 : S1.BroadcastsInDim S1x1 ![1])
    (bc4 : S1x1.BroadcastsInDim S50000x1 ![0, 1]) (red : S50000x1.ReducesTo [1] S50000) (hS : 0 < S_.numel)
    (bc5 : S50000.BroadcastsInDim ⟨3, ![50000, B, C]⟩ ![0]) (bc6 : S_.BroadcastsInDim ⟨3, ![50000, B, C]⟩ ![])
    (d : GatherDims ⟨3, ![12500, B, C]⟩ S50000x1 ⟨3, ![50000, B, C]⟩) (hd : SlabGather d)
    (arr : FVec F ⟨3, ![12500, B, C]⟩ .f32) (idx : IVec S50000 32) (h0 : ∀ i, 0 ≤ (idx i).toInt)
    (h1 : ∀ i, (idx i).toInt < 12500) (i : Fin 50000) (b : Fin B) (k : Fin C) :
    take3 bc0 bc1 bc2 bc3 bc4 red hS bc5 bc6 12500#32 12499#32 d arr idx (ix3 i b k)
      = arr (ix3 (Cert.Spec.row idx i) b k) :=
  take3_apply bc0 bc1 bc2 bc3 bc4 red hS (by decide) bc5 bc6 12500#32 12499#32 toInt_12499 d hd arr idx h0
    (fun i => by have := h1 i; exact_mod_cast this) i b k

end Height

end Cert.Take

end
-- ==== Proof.KHostTakeA.lean ====
/-
  The kernel program's first gather stretch, read as one function.

  From any buffer contents, the 23 host operations that gather rows of the invariant table leave in their result
  buffer the fill-mode take of the table by the index vector: the operations' composed pure term, by unfolding the fold.
-/
import proofs.«129143_j42090679501122_1_alg».proof.Proof.Gen.KernelIdeal.Frame
import proofs.«129143_j42090679501122_1_alg».proof.Proof.TakeRows
import Idealize.ShloMosaic.Lib.StableHlo.Run

set_option maxRecDepth 16384

noncomputable section

namespace Cert.KernelIdeal.KHost

open Idealize.ShloMosaic Idealize.ShloMosaic.TcCoe Idealize.ShloMosaic.ValueIdx Idealize.SL.Sem
open Cert.KernelIdeal Cert.KernelIdeal.Gen

variable {F : FTy → Type} [FloatOps F]

attribute [local irreducible] Host.reduce Host.gather select broadcastInDim cmpi andi addi constantI constant in
set_option maxHeartbeats 1000000 in
/-- The invariant rows gathered: the take of `main_arg0` by `main_arg4`. -/
theorem after_take0 (Wv : Valuation τ sig (Elt F)) :
    StableHlo.after hostOps1_1 Wv (Proc.devRef .tc main_v3)
      = Cert.Take.take2 bcast_S_S50000 bcast_S50000_S50000x1_0 bcast_S_S50000x1 bcast_S1_S1x1_1 bcast_S1x1_S50000x1_0_1
          reducesTo_S50000x1_S50000_d1 h_S_ bcast_S50000_S50000x256_0 bcast_S_S50000x256 12500#32 12499#32
          gather_S12500x256_S50000x1_S50000x256_1_0_n_n_0_1_1256 (Wv (Proc.devRef .tc main_arg0)) (Wv (Proc.devRef .tc main_arg4)) := by
  simp only [StableHlo.after_cons, StableHlo.after_nil]
  rfl

end Cert.KernelIdeal.KHost

end
-- ==== Proof.KHostTakeB.lean ====
/-
  The kernel program's second gather stretch, read as one function.

  From any buffer contents, the 23 host operations that gather slabs of the transformed coarse table leave in their
  result buffer the fill-mode take of that table by the index vector.
-/
import proofs.«129143_j42090679501122_1_alg».proof.Proof.Gen.KernelIdeal.Frame
import proofs.«129143_j42090679501122_1_alg».proof.Proof.TakeRows
import Idealize.ShloMosaic.Lib.StableHlo.Run

set_option maxRecDepth 16384

noncomputable section

namespace Cert.KernelIdeal.KHost

open Idealize.ShloMosaic Idealize.ShloMosaic.TcCoe Idealize.ShloMosaic.ValueIdx Idealize.SL.Sem
open Cert.KernelIdeal Cert.KernelIdeal.Gen

variable {F : FTy → Type} [FloatOps F]

attribute [local irreducible] Host.reduce Host.gather select broadcastInDim cmpi andi addi constantI constant in
set_option maxHeartbeats 1000000 in
/-- The transformed coarse slabs gathered: the take of `main_v2` by `main_arg4`. -/
theorem after_take1 (Wv : Valuation τ sig (Elt F)) :
    StableHlo.after hostOps1_2 Wv (Proc.devRef .tc main_v4)
      = Cert.Take.take3 bcast_S_S50000 bcast_S50000_S50000x1_0 bcast_S_S50000x1 bcast_S1_S1x1_1 bcast_S1x1_S50000x1_0_1
          reducesTo_S50000x1_S50000_d1 h_S_ bcast_S50000_S50000x16x256_0 bcast_S_S50000x16x256 12500#32 12499#32
          gather_S12500x16x256_S50000x1_S50000x16x256_12_0_n_n_0_1_116256 (Wv (Proc.devRef .tc main_v2)) (Wv (Proc.devRef .tc main_arg4)) := by
  simp only [StableHlo.after_cons, StableHlo.after_nil]
  rfl

end Cert.KernelIdeal.KHost

end
-- ==== Proof.KHostKeep.lean ====
/-
  The kernel program's two reshapes, and the buffers each host stretch leaves alone.

  A reshape leaves in its result buffer the shape cast of its operand. A stretch of host operations changes only the
  buffers its operations write; every other buffer keeps its contents.
-/
import proofs.«129143_j42090679501122_1_alg».proof.Proof.Gen.KernelIdeal.Frame
import Idealize.ShloMosaic.Lib.StableHlo.Run
import Idealize.ShloMosaic.Lib.ValueIdx

set_option maxRecDepth 16384

noncomputable section

namespace Cert.KernelIdeal.KHost

open Idealize.ShloMosaic Idealize.ShloMosaic.TcCoe Idealize.ShloMosaic.ValueIdx Idealize.SL.Sem
open Cert.KernelIdeal Cert.KernelIdeal.Gen

variable {F : FTy → Type} [FloatOps F]

/-- The coarse equivariant table with its two leading axes merged. -/
theorem after_rs0 (Wv : Valuation τ sig (Elt F)) :
    StableHlo.after hostOps0 Wv (Proc.devRef .tc main_v0)
      = shapeCast S200000x256 (Wv (Proc.devRef .tc main_arg2)) shapeCasts_S12500x16x256_S200000x256 := by
  simp only [StableHlo.after_cons, StableHlo.after_nil]
  rfl

/-- The transformed rows split back into three axes. -/
theorem after_rs1 (Wv : Valuation τ sig (Elt F)) :
    StableHlo.after hostOps1 Wv (Proc.devRef .tc main_v2)
      = shapeCast S12500x16x256 (Wv (Proc.devRef .tc main_v1)) shapeCasts_S200000x256_S12500x16x256 := by
  simp only [StableHlo.after_cons, StableHlo.after_nil]
  rfl

theorem ops0_arg0 (Wv : Valuation τ sig (Elt F)) :
    StableHlo.after hostOps0 Wv (Proc.devRef .tc main_arg0) = Wv (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem ops0_arg4 (Wv : Valuation τ sig (Elt F)) :
    StableHlo.after hostOps0 Wv (Proc.devRef .tc main_arg4) = Wv (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem ops0_arg5 (Wv : Valuation τ sig (Elt F)) :
    StableHlo.after hostOps0 Wv (Proc.devRef .tc main_arg5) = Wv (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem ops1_arg0 (Wv : Valuation τ sig (Elt F)) :
    StableHlo.after hostOps1 Wv (Proc.devRef .tc main_arg0) = Wv (Proc.devRef .tc main_arg0) :=
  StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem ops1_arg4 (Wv : Valuation τ sig (Elt F)) :
    StableHlo.after hostOps1 Wv (Proc.devRef .tc main_arg4) = Wv (Proc.devRef .tc main_arg4) :=
  StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem ops1_1_arg4 (Wv : Valuation τ sig (Elt F)) :
    StableHlo.after hostOps1_1 Wv (Proc.devRef .tc main_arg4) = Wv (Proc.devRef .tc main_arg4) :=
  StableHlo.after_of_forall_not_mem (b := Proc.devRef .tc main_arg4) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem ops1_1_v2 (Wv : Valuation τ sig (Elt F)) :
    StableHlo.after hostOps1_1 Wv (Proc.devRef .tc main_v2) = Wv (Proc.devRef .tc main_v2) :=
  StableHlo.after_of_forall_not_mem (b := Proc.devRef .tc main_v2) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem ops1_2_v3 (Wv : Valuation τ sig (Elt F)) :
    StableHlo.after hostOps1_2 Wv (Proc.devRef .tc main_v3) = Wv (Proc.devRef .tc main_v3) :=
  StableHlo.after_of_forall_not_mem (b := Proc.devRef .tc main_v3) _ _ (List.forall_iff_forall_mem.mp (by
    simp only [hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.KHost

end
-- ==== Proof.KValue.lean ====
/-
  The kernel program's result as one function of its arguments.

  The result buffer ends at what the second region's write-backs leave in its output array: row `n` is the row function
  of the specification applied to the blocks' rows. Those rows are read back through the host operations between the
  regions: the gathered invariant rows are rows `row idx n` of the invariant table; the gathered coarse slabs are slabs
  `row idx n` of the first region's output with its rows split back into [12500, 16, 256], that is rows
  `16 · row idx n + b` of the product of the merged coarse table with the coarse weight — the coarse row `(row idx n, b)`
  times the weight. So gathering after the matrix product reads the same numbers as multiplying the gathered rows: the
  product acts on each row by itself.
-/
import proofs.«129143_j42090679501122_1_alg».proof.Proof.KRun
import proofs.«129143_j42090679501122_1_alg».proof.Proof.KVal0
import proofs.«129143_j42090679501122_1_alg».proof.Proof.KVal1
import proofs.«129143_j42090679501122_1_alg».proof.Proof.KHostTakeA
import proofs.«129143_j42090679501122_1_alg».proof.Proof.KHostTakeB
import proofs.«129143_j42090679501122_1_alg».proof.Proof.KHostKeep
import proofs.«129143_j42090679501122_1_alg».proof.Proof.TakeRows
import proofs.«129143_j42090679501122_1_alg».proof.Proof.LibRowsMerge

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## The first region's inputs and output -/

theorem V1_v0 : V1 m ρ c main_v0
    = shapeCast S200000x256 (m ((c.tc : Thread nD τ).loc main_arg2)) shapeCasts_S12500x16x256_S200000x256 :=
  KHost.after_rs0 (W0 m ρ c)

theorem V1_arg5 : V1 m ρ c main_arg5 = (m ((c.tc : Thread nD τ).loc main_arg5)) := KHost.ops0_arg5 (W0 m ρ c)

theorem W2_v1 : W2 m ρ c (Proc.devRef .tc main_v1) = KVal0.G0 (V1 m ρ c main_v0) (V1 m ρ c main_arg5) :=
  (W2_arr m ρ c 2).trans (KVal0.final0 (V1 m ρ) c)

/-! ## Through the host operations between the regions -/

theorem W4_arg4 : W4 m ρ c (Proc.devRef .tc main_arg4) = (m ((c.tc : Thread nD τ).loc main_arg4)) :=
  (KHost.ops1_1_arg4 (W3 m ρ c)).trans ((KHost.ops1_arg4 (W2 m ρ c)).trans
    ((W2_of_ne m ρ c main_arg4 (by decide)).trans (KHost.ops0_arg4 (W0 m ρ c))))

theorem W3_arg4 : W3 m ρ c (Proc.devRef .tc main_arg4) = (m ((c.tc : Thread nD τ).loc main_arg4)) :=
  (KHost.ops1_arg4 (W2 m ρ c)).trans ((W2_of_ne m ρ c main_arg4 (by decide)).trans (KHost.ops0_arg4 (W0 m ρ c)))

theorem W3_arg0 : W3 m ρ c (Proc.devRef .tc main_arg0) = (m ((c.tc : Thread nD τ).loc main_arg0)) :=
  (KHost.ops1_arg0 (W2 m ρ c)).trans ((W2_of_ne m ρ c main_arg0 (by decide)).trans (KHost.ops0_arg0 (W0 m ρ c)))

theorem W4_v2 : W4 m ρ c (Proc.devRef .tc main_v2)
    = shapeCast S12500x16x256 (KVal0.G0 (V1 m ρ c main_v0) (V1 m ρ c main_arg5)) shapeCasts_S200000x256_S12500x16x256 :=
  (KHost.ops1_1_v2 (W3 m ρ c)).trans ((KHost.after_rs1 (W2 m ρ c)).trans (by rw [W2_v1]))

/-- The gathered coarse slabs the second region reads. -/
theorem V5_v4 : V5 m ρ c main_v4
    = Cert.Take.take3 (F := Ideal) bcast_S_S50000 bcast_S50000_S50000x1_0 bcast_S_S50000x1 bcast_S1_S1x1_1 bcast_S1x1_S50000x1_0_1
        reducesTo_S50000x1_S50000_d1 h_S_ bcast_S50000_S50000x16x256_0 bcast_S_S50000x16x256 12500#32 12499#32
        gather_S12500x16x256_S50000x1_S50000x16x256_12_0_n_n_0_1_116256
        (shapeCast S12500x16x256 (KVal0.G0 (V1 m ρ c main_v0) (V1 m ρ c main_arg5)) shapeCasts_S200000x256_S12500x16x256)
        (m ((c.tc : Thread nD τ).loc main_arg4)) :=
  (KHost.after_take1 (W4 m ρ c)).trans (by rw [W4_v2, W4_arg4])

/-- The gathered invariant rows the second region reads. -/
theorem V5_v3 : V5 m ρ c main_v3
    = Cert.Take.take2 (F := Ideal) bcast_S_S50000 bcast_S50000_S50000x1_0 bcast_S_S50000x1 bcast_S1_S1x1_1 bcast_S1x1_S50000x1_0_1
        reducesTo_S50000x1_S50000_d1 h_S_ bcast_S50000_S50000x256_0 bcast_S_S50000x256 12500#32 12499#32
        gather_S12500x256_S50000x1_S50000x256_1_0_n_n_0_1_1256 (m ((c.tc : Thread nD τ).loc main_arg0)) (m ((c.tc : Thread nD τ).loc main_arg4)) :=
  (KHost.ops1_2_v3 (W4 m ρ c)).trans ((KHost.after_take0 (W3 m ρ c)).trans (by rw [W3_arg0, W3_arg4]))

theorem V5_arg1 : V5 m ρ c main_arg1 = (m ((c.tc : Thread nD τ).loc main_arg1)) :=
  ((W6_arr m ρ c 3).trans (((dat1 (V5 m ρ) c).arrAt_in 3 rfl _).trans (A_eq1 (V5 m ρ) c 3))).symm.trans (W6_main_arg1 m ρ c)
theorem V5_arg3 : V5 m ρ c main_arg3 = (m ((c.tc : Thread nD τ).loc main_arg3)) :=
  ((W6_arr m ρ c 0).trans (((dat1 (V5 m ρ) c).arrAt_in 0 rfl _).trans (A_eq1 (V5 m ρ) c 0))).symm.trans (W6_main_arg3 m ρ c)
theorem V5_arg6 : V5 m ρ c main_arg6 = (m ((c.tc : Thread nD τ).loc main_arg6)) :=
  ((W6_arr m ρ c 4).trans (((dat1 (V5 m ρ) c).arrAt_in 4 rfl _).trans (A_eq1 (V5 m ρ) c 4))).symm.trans (W6_main_arg6 m ρ c)
theorem V5_arg7 : V5 m ρ c main_arg7 = (m ((c.tc : Thread nD τ).loc main_arg7)) :=
  ((W6_arr m ρ c 5).trans (((dat1 (V5 m ρ) c).arrAt_in 5 rfl _).trans (A_eq1 (V5 m ρ) c 5))).symm.trans (W6_main_arg7 m ρ c)

/-! ## The coarse slab read back: a row of the product is the row times the weight -/

/-- Slab `(r, b)` of the first region's output, split back into three axes, is coarse row `(r, b)` times the weight. -/
theorem coarse_apply (A2 : FVec Ideal S12500x16x256 .f32) (W5 : FVec Ideal S256x256 .f32) (r : Fin 12500) (b : Fin 16)
    (d : Fin 256) :
    shapeCast S12500x16x256
        (KVal0.G0 (shapeCast S200000x256 A2 shapeCasts_S12500x16x256_S200000x256) W5) shapeCasts_S200000x256_S12500x16x256
        (ix3 r b d)
      = Cert.Spec.coarse A2 W5 r b d := by
  have hr : 16 * r.val + b.val < 200000 := by have := r.isLt; have := b.isLt; omega
  rw [Cert.Lib.RowsMerge.split_apply _ shapeCasts_S200000x256_S12500x16x256 r b d ⟨16 * r.val + b.val, hr⟩ rfl,
    KVal0.G0_apply]
  unfold Cert.Spec.coarse
  refine congrArg (fun x => Cert.Spec.rowDot x W5 d) (funext fun k => ?_)
  exact Cert.Lib.RowsMerge.merge_apply A2 shapeCasts_S12500x16x256_S200000x256 r b k ⟨16 * r.val + b.val, hr⟩ rfl

/-! ## The result -/

/-- The row function depends on its row data only through their values. -/
theorem rowOut_congr {li li' ci ci' : Fin 256 → EReal} {xe xe' le le' : Fin 16 → Fin 256 → EReal}
    (Wce : FVec Ideal S256x256 .f32) (Wmlp : FVec Ideal S768x512 .f32) (j : Fin 512)
    (h1 : li = li') (h2 : ci = ci') (h3 : xe = xe') (h4 : le = le') :
    Cert.Spec.rowOut li ci xe le Wce Wmlp j = Cert.Spec.rowOut li' ci' xe' le' Wce Wmlp j := by
  subst h1 h2 h3 h4; rfl

/-- With every gather index in `[0, 12500)`, the result buffer ends at the specification of the launch arguments. -/
theorem value (h0 : ∀ i, 0 ≤ ((m ((c.tc : Thread nD τ).loc main_arg4)) i).toInt) (h1 : ∀ i, ((m ((c.tc : Thread nD τ).loc main_arg4)) i).toInt < 12500) :
    W6 m ρ c (Proc.devRef .tc main_v5)
      = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  rw [show W6 m ρ c (Proc.devRef .tc main_v5) = (dat1 (V5 m ρ) c).arrAt 6 cfg1.N from W6_arr m ρ c 6, KVal1.final1,
    V5_arg1, V5_arg3, V5_arg6, V5_arg7, V5_v3, V5_v4, V1_v0, V1_arg5]
  funext i
  obtain ⟨n, j, rfl⟩ : ∃ (n : Fin 50000) (j : Fin 512), i = ix2 n j := ⟨i 0, i 1, eq_ix2 i⟩
  rw [KVal1.G1_apply, Cert.Spec.out_apply]
  refine rowOut_congr _ _ _ (funext fun k => ?_) rfl rfl (funext fun b => funext fun d => ?_)
  · exact Cert.Take.take2_12500 _ _ _ _ _ _ _ _ _ _ ⟨rfl, rfl, rfl, rfl, rfl, rfl, rfl⟩ _ _ h0 h1 n k
  · rw [Cert.Take.take3_12500 _ _ _ _ _ _ _ _ _ _ ⟨rfl, rfl, rfl, rfl, rfl, rfl, rfl⟩ _ _ h0 h1 n b d]
    exact coarse_apply _ _ _ b d

end Cert.KernelIdeal.KValue

end
-- ==== Proof.PreRange.lean ====
/-
  What the precondition says about the gather indices.

  The precondition is a conjunction computed as a chain of `and`s whose last two conjuncts are "every index is ≥ 0" and
  "every index is < 12500", each an `and`-reduction over the index vector of a signed comparison against a constant.
  When the whole chain is 1, so are those two reductions, hence so is the comparison at every index.
-/
import proofs.«129143_j42090679501122_1_alg».proof.Pre_finite_inputs
import Idealize.ShloMosaic.Lib.ReduceAll
import Idealize.ShloMosaic.Lib.ValueIdx

noncomputable section

namespace Cert.Pre_finite_inputs.Range

open Idealize.ShloMosaic Idealize.ShloMosaic.ValueIdx Cert.Pre_finite_inputs

variable [Facts]

instance : Subsingleton (⟨0, ![]⟩ : Shape).Idx := ⟨fun a b => funext fun d => d.elim0⟩

/-- If the precondition holds of the arguments then every gather index lies in `[0, 12500)`, read signed. -/
theorem range_of_fn {F : FTy → Type} [FloatOps F] (a0 : FVec F S12500x256 .f32) (a1 : FVec F S50000x256 .f32)
    (a2 : FVec F S12500x16x256 .f32) (a3 : FVec F S50000x16x256 .f32) (a4 : IVec S50000 32)
    (a5 a6 : FVec F S256x256 .f32) (a7 : FVec F S768x512 .f32)
    (h : fn (F := F) a0 a1 a2 a3 a4 a5 a6 a7 = fun _ => 1#1) :
    (∀ i, 0 ≤ (a4 i).toInt) ∧ (∀ i, (a4 i).toInt < 12500) := by
  have e := congrFun h ix0
  dsimp only [fn, fn_part1, fn_part2] at e
  have e' : IntOp.andi (IntOp.andi _ _) _ = 1#1 := e
  rw [IntOp.andi_eq_one, IntOp.andi_eq_one] at e'
  obtain ⟨⟨-, hge⟩, hlt⟩ := e'
  refine ⟨fun i => ?_, fun i => ?_⟩
  · have h1 := Host.reduce_andi_all _ _ _ _ _ hge i
    have h2 : IntOp.cmpi .sge (a4 i) 0#32 = 1#1 := h1
    have h3 := IntOp.cmpi_sge.1 h2
    rw [show (0#32 : BitVec 32).toInt = 0 from by decide] at h3
    exact h3
  · have h1 := Host.reduce_andi_all _ _ _ _ _ hlt i
    have h2 : IntOp.cmpi .slt (a4 i) 12500#32 = 1#1 := h1
    have h3 := IntOp.cmpi_slt.1 h2
    rw [show (12500#32 : BitVec 32).toInt = 12500 from by decide] at h3
    exact h3

end Cert.Pre_finite_inputs.Range

end
-- ==== Proof.RefOps.lean ====
/-
  The reference program as one line of host operations, and the term it composes.

  The program gathers rows of two tables with the library's fill-mode row gather (each an outlined function:
  wrap a negative index, test the range, gather, select the gathered row or a constant row), multiplies the
  gathered three-axis rows and the fine three-axis rows by their 256 x 256 weights, multiplies the two products
  entrywise, sums over the middle axis from zero, divides by sixteen, puts the gathered two-axis rows, the fine
  two-axis rows and that mean side by side, and multiplies by the 768 x 512 weight. With each outlined function's
  operations written at its call over the call's own buffers the program is a straight line of fifty-six
  operations, and the composed term of the eight arguments is written out stage by stage.
-/
import proofs.«129143_j42090679501122_1_alg».proof.ReferenceIdeal
import Idealize.ShloMosaic.Lib.StableHlo.Run
import Idealize.ShloMosaic.PureOps.Ideal

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable [Facts]

/-! ## The composed term -/

section Term
variable {F : FTy → Type} [FloatOps F]

/-- The index column both gathers read: a negative index wrapped by the table's 12500 rows, as a column. -/
def wrapCol (idx : IVec S50000 32) : IVec S50000x1 32 :=
  broadcastInDim S50000x1 ![0] bcast_S50000_S50000x1_0
    (select (cmpi .slt idx (broadcastInDim S50000 ![] bcast_S_S50000 (constantI S_ 32 0#32)))
      (addi idx (broadcastInDim S50000 ![] bcast_S_S50000 (constantI S_ 32 12500#32))) idx)

/-- Per row, whether the wrapped index lies in `[0, 12499]`: the two comparisons' conjunction, reduced over the
    column's one entry. -/
def inRange (idx : IVec S50000 32) : IVec S50000 1 :=
  Host.reduce IntOp.andi
    (andi (cmpi .sge (wrapCol idx) (broadcastInDim S50000x1 ![] bcast_S_S50000x1 (constantI S_ 32 0#32)))
      (cmpi .sle (wrapCol idx)
        (broadcastInDim S50000x1 ![0, 1] bcast_S1x1_S50000x1_0_1
          (broadcastInDim S1x1 ![1] bcast_S1_S1x1_1 (constantI S1 32 12499#32)))))
    (constantI S_ 1 1#1) reducesTo_S50000x1_S50000_d1 h_S_

/-- The fill-mode row gather of the two-axis table. -/
def take2 (A : FVec F S12500x256 .f32) (idx : IVec S50000 32) : FVec F S50000x256 .f32 :=
  select (broadcastInDim S50000x256 ![0] bcast_S50000_S50000x256_0 (inRange idx))
    (Host.gather gather_S12500x256_S50000x1_S50000x256_1_0_n_n_0_1_1256 A (wrapCol idx))
    (broadcastInDim S50000x256 ![] bcast_S_S50000x256 (constant S_ .f32 0x7FC00000#32))

/-- The fill-mode row gather of the three-axis table. -/
def take3 (A : FVec F S12500x16x256 .f32) (idx : IVec S50000 32) : FVec F S50000x16x256 .f32 :=
  select (broadcastInDim S50000x16x256 ![0] bcast_S50000_S50000x16x256_0 (inRange idx))
    (Host.gather gather_S12500x16x256_S50000x1_S50000x16x256_12_0_n_n_0_1_116256 A (wrapCol idx))
    (broadcastInDim S50000x16x256 ![] bcast_S_S50000x16x256 (constant S_ .f32 0x7FC00000#32))

/-- The mean over the middle axis of the entrywise product of the two weighted three-axis arrays. -/
def equ (G : FVec F S50000x16x256 .f32) (A3 : FVec F S50000x16x256 .f32) (W5 W6 : FVec F S256x256 .f32) :
    FVec F S50000x256 .f32 :=
  Host.divf
    (Host.reduceAdd
      (mulf (Host.dotGeneral dot_S50000x16x256_S256x256_S50000x16x256_2_0_01_1_n_n none A3 W6)
        (Host.dotGeneral dot_S50000x16x256_S256x256_S50000x16x256_2_0_01_1_n_n none G W5))
      (constant S_ .f32 0x00000000#32) reducesTo_S50000x16x256_S50000x256_d1 h_S_)
    (broadcastInDim S50000x256 ![] bcast_S_S50000x256 (constant S_ .f32 0x41800000#32))

/-- The three two-axis arrays side by side. -/
def com (L C E : FVec F S50000x256 .f32) : FVec F S50000x768 .f32 :=
  concatenate S50000x768 1 [⟨S50000x256, L⟩, ⟨S50000x256, C⟩, ⟨S50000x256, E⟩]
    concatenates_S50000x256_S50000x256_S50000x256_S50000x768_d1

/-- What the program leaves in its result buffer, for any float values. -/
def refOutF (A0 : FVec F S12500x256 .f32) (A1 : FVec F S50000x256 .f32) (A2 : FVec F S12500x16x256 .f32)
    (A3 : FVec F S50000x16x256 .f32) (idx : IVec S50000 32) (W5 W6 : FVec F S256x256 .f32)
    (W7 : FVec F S768x512 .f32) : FVec F S50000x512 .f32 :=
  Host.dotGeneral dot_S50000x768_S768x512_S50000x512_1_0_0_1_n_n none
    (com (take2 A0 idx) A1 (equ (take3 A2 idx) A3 W5 W6)) W7

end Term

/-- What the program leaves in its result buffer on the extended reals. -/
def refOut (A0 : FVec Ideal S12500x256 .f32) (A1 : FVec Ideal S50000x256 .f32) (A2 : FVec Ideal S12500x16x256 .f32)
    (A3 : FVec Ideal S50000x16x256 .f32) (idx : IVec S50000 32) (W5 W6 : FVec Ideal S256x256 .f32)
    (W7 : FVec Ideal S768x512 .f32) : FVec Ideal S50000x512 .f32 :=
  refOutF A0 A1 A2 A3 idx W5 W6 W7

/-! ## The program as a line of operations -/

variable {F : FTy → Type} [FloatOps F]

/-- The fifty-six operations in order: the first gather's twenty-three over its call's buffers (the inner select
    among them), the second gather's twenty-three, then the ten of the main function. -/
abbrev ops : List (HloOp τ sig (Elt F)) :=
  [ StableHlo.TRef.nullary main_call0.c (constantI S_ 32 0#32),
    StableHlo.TRef.unary main_call0.c main_call0.v0 (broadcastInDim S50000 ![] bcast_S_S50000),
    StableHlo.TRef.binary (.of main_arg4) main_call0.v0 main_call0.v1 (cmpi .slt),
    StableHlo.TRef.nullary main_call0.c_0 (constantI S_ 32 12500#32),
    StableHlo.TRef.unary main_call0.c_0 main_call0.v2 (broadcastInDim S50000 ![] bcast_S_S50000),
    StableHlo.TRef.binary (.of main_arg4) main_call0.v2 main_call0.v3 addi,
    StableHlo.TRef.ternary main_call0.v1 main_call0.v3 (.of main_arg4) main_call0.call0.v0 select,
    StableHlo.TRef.unary main_call0.call0.v0 main_call0.v5 (broadcastInDim S50000x1 ![0] bcast_S50000_S50000x1_0),
    StableHlo.TRef.nullary main_call0.c_1 (constantI S1 32 12499#32),
    StableHlo.TRef.nullary main_call0.c_2 (constantI S_ 32 0#32),
    StableHlo.TRef.unary main_call0.c_2 main_call0.v6 (broadcastInDim S50000x1 ![] bcast_S_S50000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S50000x1 ![0, 1] bcast_S1x1_S50000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S50000x1_S50000_d1 h_S_),
    StableHlo.TRef.binary (.of main_arg0) main_call0.v5 main_call0.v13 (fun x i => Host.gather gather_S12500x256_S50000x1_S50000x256_1_0_n_n_0_1_1256 x i),
    StableHlo.TRef.unary main_call0.v12 main_call0.v14 (broadcastInDim S50000x256 ![0] bcast_S50000_S50000x256_0),
    StableHlo.TRef.nullary main_call0.cst (constant S_ .f32 0x7FC00000#32),
    StableHlo.TRef.unary main_call0.cst main_call0.v15 (broadcastInDim S50000x256 ![] bcast_S_S50000x256),
    StableHlo.TRef.ternary main_call0.v14 main_call0.v13 main_call0.v15 main_call0.v16 select,
    StableHlo.TRef.nullary main_call1.c (constantI S_ 32 0#32),
    StableHlo.TRef.unary main_call1.c main_call1.v0 (broadcastInDim S50000 ![] bcast_S_S50000),
    StableHlo.TRef.binary (.of main_arg4) main_call1.v0 main_call1.v1 (cmpi .slt),
    StableHlo.TRef.nullary main_call1.c_0 (constantI S_ 32 12500#32),
    StableHlo.TRef.unary main_call1.c_0 main_call1.v2 (broadcastInDim S50000 ![] bcast_S_S50000),
    StableHlo.TRef.binary (.of main_arg4) main_call1.v2 main_call1.v3 addi,
    StableHlo.TRef.ternary main_call1.v1 main_call1.v3 (.of main_arg4) main_call1.call0.v0 select,
    StableHlo.TRef.unary main_call1.call0.v0 main_call1.v5 (broadcastInDim S50000x1 ![0] bcast_S50000_S50000x1_0),
    StableHlo.TRef.nullary main_call1.c_1 (constantI S1 32 12499#32),
    StableHlo.TRef.nullary main_call1.c_2 (constantI S_ 32 0#32),
    StableHlo.TRef.unary main_call1.c_2 main_call1.v6 (broadcastInDim S50000x1 ![] bcast_S_S50000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S50000x1 ![0, 1] bcast_S1x1_S50000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S50000x1_S50000_d1 h_S_),
    StableHlo.TRef.binary (.of main_arg2) main_call1.v5 main_call1.v13 (fun x i => Host.gather gather_S12500x16x256_S50000x1_S50000x16x256_12_0_n_n_0_1_116256 x i),
    StableHlo.TRef.unary main_call1.v12 main_call1.v14 (broadcastInDim S50000x16x256 ![0] bcast_S50000_S50000x16x256_0),
    StableHlo.TRef.nullary main_call1.cst (constant S_ .f32 0x7FC00000#32),
    StableHlo.TRef.unary main_call1.cst main_call1.v15 (broadcastInDim S50000x16x256 ![] bcast_S_S50000x16x256),
    StableHlo.TRef.ternary main_call1.v14 main_call1.v13 main_call1.v15 main_call1.v16 select,
    StableHlo.binary main_v1 main_arg5 main_v2 ((fun l r => Host.dotGeneral dot_S50000x16x256_S256x256_S50000x16x256_2_0_01_1_n_n none l r) : (⟨S50000x16x256, .f32⟩ : BufTy).Contents (Elt F) → (⟨S256x256, .f32⟩ : BufTy).Contents (Elt F) → (⟨S50000x16x256, .f32⟩ : BufTy).Contents (Elt F)),
    StableHlo.binary main_arg3 main_arg6 main_v3 ((fun l r => Host.dotGeneral dot_S50000x16x256_S256x256_S50000x16x256_2_0_01_1_n_n none l r) : (⟨S50000x16x256, .f32⟩ : BufTy).Contents (Elt F) → (⟨S256x256, .f32⟩ : BufTy).Contents (Elt F) → (⟨S50000x16x256, .f32⟩ : BufTy).Contents (Elt F)),
    StableHlo.binary main_v3 main_v2 main_v4 (mulf : (⟨S50000x16x256, .f32⟩ : BufTy).Contents (Elt F) → (⟨S50000x16x256, .f32⟩ : BufTy).Contents (Elt F) → (⟨S50000x16x256, .f32⟩ : BufTy).Contents (Elt F)),
    StableHlo.nullary main_cst (constant S_ .f32 0x00000000#32),
    StableHlo.binary main_v4 main_cst main_v5 ((fun x v => Host.reduceAdd x v reducesTo_S50000x16x256_S50000x256_d1 h_S_) : (⟨S50000x16x256, .f32⟩ : BufTy).Contents (Elt F) → (⟨S_, .f32⟩ : BufTy).Contents (Elt F) → (⟨S50000x256, .f32⟩ : BufTy).Contents (Elt F)),
    StableHlo.nullary main_cst_0 (constant S_ .f32 0x41800000#32),
    StableHlo.unary main_cst_0 main_v6 (broadcastInDim S50000x256 ![] bcast_S_S50000x256 : (⟨S_, .f32⟩ : BufTy).Contents (Elt F) → (⟨S50000x256, .f32⟩ : BufTy).Contents (Elt F)),
    StableHlo.binary main_v5 main_v6 main_v7 (Host.divf : (⟨S50000x256, .f32⟩ : BufTy).Contents (Elt F) → (⟨S50000x256, .f32⟩ : BufTy).Contents (Elt F) → (⟨S50000x256, .f32⟩ : BufTy).Contents (Elt F)),
    StableHlo.nary ![main_v0, main_arg1, main_v7] main_v8 (fun u => concatenate S50000x768 1 [⟨S50000x256, u 0⟩, ⟨S50000x256, u 1⟩, ⟨S50000x256, u 2⟩] concatenates_S50000x256_S50000x256_S50000x256_S50000x768_d1),
    StableHlo.binary main_v8 main_arg7 main_v9 ((fun l r => Host.dotGeneral dot_S50000x768_S768x512_S50000x512_1_0_0_1_n_n none l r) : (⟨S50000x768, .f32⟩ : BufTy).Contents (Elt F) → (⟨S768x512, .f32⟩ : BufTy).Contents (Elt F) → (⟨S50000x512, .f32⟩ : BufTy).Contents (Elt F)) ]

/-- The first gather's twenty-three operations. -/
abbrev opsTake2 : List (HloOp τ sig (Elt F)) :=
  [ StableHlo.TRef.nullary main_call0.c (constantI S_ 32 0#32),
    StableHlo.TRef.unary main_call0.c main_call0.v0 (broadcastInDim S50000 ![] bcast_S_S50000),
    StableHlo.TRef.binary (.of main_arg4) main_call0.v0 main_call0.v1 (cmpi .slt),
    StableHlo.TRef.nullary main_call0.c_0 (constantI S_ 32 12500#32),
    StableHlo.TRef.unary main_call0.c_0 main_call0.v2 (broadcastInDim S50000 ![] bcast_S_S50000),
    StableHlo.TRef.binary (.of main_arg4) main_call0.v2 main_call0.v3 addi,
    StableHlo.TRef.ternary main_call0.v1 main_call0.v3 (.of main_arg4) main_call0.call0.v0 select,
    StableHlo.TRef.unary main_call0.call0.v0 main_call0.v5 (broadcastInDim S50000x1 ![0] bcast_S50000_S50000x1_0),
    StableHlo.TRef.nullary main_call0.c_1 (constantI S1 32 12499#32),
    StableHlo.TRef.nullary main_call0.c_2 (constantI S_ 32 0#32),
    StableHlo.TRef.unary main_call0.c_2 main_call0.v6 (broadcastInDim S50000x1 ![] bcast_S_S50000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S50000x1 ![0, 1] bcast_S1x1_S50000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S50000x1_S50000_d1 h_S_),
    StableHlo.TRef.binary (.of main_arg0) main_call0.v5 main_call0.v13 (fun x i => Host.gather gather_S12500x256_S50000x1_S50000x256_1_0_n_n_0_1_1256 x i),
    StableHlo.TRef.unary main_call0.v12 main_call0.v14 (broadcastInDim S50000x256 ![0] bcast_S50000_S50000x256_0),
    StableHlo.TRef.nullary main_call0.cst (constant S_ .f32 0x7FC00000#32),
    StableHlo.TRef.unary main_call0.cst main_call0.v15 (broadcastInDim S50000x256 ![] bcast_S_S50000x256),
    StableHlo.TRef.ternary main_call0.v14 main_call0.v13 main_call0.v15 main_call0.v16 select ]

/-- The second gather's twenty-three operations. -/
abbrev opsTake3 : List (HloOp τ sig (Elt F)) :=
  [ StableHlo.TRef.nullary main_call1.c (constantI S_ 32 0#32),
    StableHlo.TRef.unary main_call1.c main_call1.v0 (broadcastInDim S50000 ![] bcast_S_S50000),
    StableHlo.TRef.binary (.of main_arg4) main_call1.v0 main_call1.v1 (cmpi .slt),
    StableHlo.TRef.nullary main_call1.c_0 (constantI S_ 32 12500#32),
    StableHlo.TRef.unary main_call1.c_0 main_call1.v2 (broadcastInDim S50000 ![] bcast_S_S50000),
    StableHlo.TRef.binary (.of main_arg4) main_call1.v2 main_call1.v3 addi,
    StableHlo.TRef.ternary main_call1.v1 main_call1.v3 (.of main_arg4) main_call1.call0.v0 select,
    StableHlo.TRef.unary main_call1.call0.v0 main_call1.v5 (broadcastInDim S50000x1 ![0] bcast_S50000_S50000x1_0),
    StableHlo.TRef.nullary main_call1.c_1 (constantI S1 32 12499#32),
    StableHlo.TRef.nullary main_call1.c_2 (constantI S_ 32 0#32),
    StableHlo.TRef.unary main_call1.c_2 main_call1.v6 (broadcastInDim S50000x1 ![] bcast_S_S50000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S50000x1 ![0, 1] bcast_S1x1_S50000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S50000x1_S50000_d1 h_S_),
    StableHlo.TRef.binary (.of main_arg2) main_call1.v5 main_call1.v13 (fun x i => Host.gather gather_S12500x16x256_S50000x1_S50000x16x256_12_0_n_n_0_1_116256 x i),
    StableHlo.TRef.unary main_call1.v12 main_call1.v14 (broadcastInDim S50000x16x256 ![0] bcast_S50000_S50000x16x256_0),
    StableHlo.TRef.nullary main_call1.cst (constant S_ .f32 0x7FC00000#32),
    StableHlo.TRef.unary main_call1.cst main_call1.v15 (broadcastInDim S50000x16x256 ![] bcast_S_S50000x16x256),
    StableHlo.TRef.ternary main_call1.v14 main_call1.v13 main_call1.v15 main_call1.v16 select ]

/-- The main function's own ten operations. -/
abbrev opsTail : List (HloOp τ sig (Elt F)) :=
  [ StableHlo.binary main_v1 main_arg5 main_v2 ((fun l r => Host.dotGeneral dot_S50000x16x256_S256x256_S50000x16x256_2_0_01_1_n_n none l r) : (⟨S50000x16x256, .f32⟩ : BufTy).Contents (Elt F) → (⟨S256x256, .f32⟩ : BufTy).Contents (Elt F) → (⟨S50000x16x256, .f32⟩ : BufTy).Contents (Elt F)),
    StableHlo.binary main_arg3 main_arg6 main_v3 ((fun l r => Host.dotGeneral dot_S50000x16x256_S256x256_S50000x16x256_2_0_01_1_n_n none l r) : (⟨S50000x16x256, .f32⟩ : BufTy).Contents (Elt F) → (⟨S256x256, .f32⟩ : BufTy).Contents (Elt F) → (⟨S50000x16x256, .f32⟩ : BufTy).Contents (Elt F)),
    StableHlo.binary main_v3 main_v2 main_v4 (mulf : (⟨S50000x16x256, .f32⟩ : BufTy).Contents (Elt F) → (⟨S50000x16x256, .f32⟩ : BufTy).Contents (Elt F) → (⟨S50000x16x256, .f32⟩ : BufTy).Contents (Elt F)),
    StableHlo.nullary main_cst (constant S_ .f32 0x00000000#32),
    StableHlo.binary main_v4 main_cst main_v5 ((fun x v => Host.reduceAdd x v reducesTo_S50000x16x256_S50000x256_d1 h_S_) : (⟨S50000x16x256, .f32⟩ : BufTy).Contents (Elt F) → (⟨S_, .f32⟩ : BufTy).Contents (Elt F) → (⟨S50000x256, .f32⟩ : BufTy).Contents (Elt F)),
    StableHlo.nullary main_cst_0 (constant S_ .f32 0x41800000#32),
    StableHlo.unary main_cst_0 main_v6 (broadcastInDim S50000x256 ![] bcast_S_S50000x256 : (⟨S_, .f32⟩ : BufTy).Contents (Elt F) → (⟨S50000x256, .f32⟩ : BufTy).Contents (Elt F)),
    StableHlo.binary main_v5 main_v6 main_v7 (Host.divf : (⟨S50000x256, .f32⟩ : BufTy).Contents (Elt F) → (⟨S50000x256, .f32⟩ : BufTy).Contents (Elt F) → (⟨S50000x256, .f32⟩ : BufTy).Contents (Elt F)),
    StableHlo.nary ![main_v0, main_arg1, main_v7] main_v8 (fun u => concatenate S50000x768 1 [⟨S50000x256, u 0⟩, ⟨S50000x256, u 1⟩, ⟨S50000x256, u 2⟩] concatenates_S50000x256_S50000x256_S50000x256_S50000x768_d1),
    StableHlo.binary main_v8 main_arg7 main_v9 ((fun l r => Host.dotGeneral dot_S50000x768_S768x512_S50000x512_1_0_0_1_n_n none l r) : (⟨S50000x768, .f32⟩ : BufTy).Contents (Elt F) → (⟨S768x512, .f32⟩ : BufTy).Contents (Elt F) → (⟨S50000x512, .f32⟩ : BufTy).Contents (Elt F)) ]

/-- The line is the three stretches one after the other. -/
theorem ops_split : (ops : List (HloOp τ sig (Elt F))) = opsTake2 ++ (opsTake3 ++ opsTail) := rfl

set_option maxRecDepth 2048 in
/-- The main function is that line: the outlined functions' definitions unfolded at their calls, the sequencing
    reassociated. -/
theorem main_eq (c : Dev nD) : main (F := F) c = seq ops := by
  simp only [main, fn_take.body, fn_take_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., binary_bufs_sub .., nullary_bufs_sub .., binary_bufs_sub .., nullary_bufs_sub .., unary_bufs_sub .., binary_bufs_sub .., nary_bufs_sub .., binary_bufs_sub ..⟩

end Cert.ReferenceIdeal.RefRun

end
-- ==== Proof.LibFoldSplit.lean ====
/-
  Folding a line of host operations can be cut anywhere.

  The buffer contents after a line of operations are a fold over the line: each operation rewrites the buffers it
  writes and leaves the rest. So the contents after two lines run one after the other are the contents after their
  concatenation, and a line can be cut after its first k operations: run those, then run the rest from what they
  leave. This lets a long line be read in pieces, each piece from contents that are just a name.
-/
import Idealize.ShloMosaic.Lib.StableHlo.Run

noncomputable section

namespace Idealize.ShloMosaic.StableHlo

variable {τ : Topo} {sig : RefSig} {Val : EltTy → Type}

/-- The contents after two lines in a row are the contents after the second line from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line cut after its first k operations. -/
theorem after_split (k : Nat) (l : List (HloOp τ sig Val)) (V : Valuation τ sig Val) :
    after l V = after (l.drop k) (after (l.take k) V) := by
  rw [← after_append, List.take_append_drop]

end Idealize.ShloMosaic.StableHlo

end
-- ==== Proof.RefRun.lean ====
/-
  What the reference program leaves in its buffers.

  The line of operations is read in three stretches, each from contents that are just a name: the first gather
  leaves its result at the fill-mode row gather of the two-axis table and touches no argument; the second
  likewise for the three-axis table, and leaves the first result alone; the last ten operations leave the
  result buffer at the product of the three side-by-side arrays with the last weight. Put together, every run of
  the program ends with the result buffer at the composed term of the eight arguments and the arguments as they
  were.
-/
import proofs.«129143_j42090679501122_1_alg».proof.Proof.RefOps
import proofs.«129143_j42090679501122_1_alg».proof.Proof.LibFoldSplit

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable [Facts]
variable {F : FTy → Type} [FloatOps F]

section Stretches

attribute [local irreducible] Host.reduce Host.gather Host.reduceAdd concatenate

/-! ## The first gather -/

attribute [local irreducible] select broadcastInDim cmpi andi addi constantI constant in
set_option maxRecDepth 8192 in
set_option maxHeartbeats 1600000 in
theorem take2_fold (V : Valuation τ sig (Elt F)) :
    after opsTake2 V (main_v0 : DevRef τ sig) = take2 (V (main_arg0 : DevRef τ sig)) (V (main_arg4 : DevRef τ sig)) := by
  simp only [after_cons, after_nil]
  rfl

theorem take2_main_arg0 (V : Valuation τ sig (Elt F)) :
    after opsTake2 V (main_arg0 : DevRef τ sig) = V (main_arg0 : DevRef τ sig) := by
  after_results

theorem take2_main_arg1 (V : Valuation τ sig (Elt F)) :
    after opsTake2 V (main_arg1 : DevRef τ sig) = V (main_arg1 : DevRef τ sig) := by
  after_results

theorem take2_main_arg2 (V : Valuation τ sig (Elt F)) :
    after opsTake2 V (main_arg2 : DevRef τ sig) = V (main_arg2 : DevRef τ sig) := by
  after_results

theorem take2_main_arg3 (V : Valuation τ sig (Elt F)) :
    after opsTake2 V (main_arg3 : DevRef τ sig) = V (main_arg3 : DevRef τ sig) := by
  after_results

theorem take2_main_arg4 (V : Valuation τ sig (Elt F)) :
    after opsTake2 V (main_arg4 : DevRef τ sig) = V (main_arg4 : DevRef τ sig) := by
  after_results

theorem take2_main_arg5 (V : Valuation τ sig (Elt F)) :
    after opsTake2 V (main_arg5 : DevRef τ sig) = V (main_arg5 : DevRef τ sig) := by
  after_results

theorem take2_main_arg6 (V : Valuation τ sig (Elt F)) :
    after opsTake2 V (main_arg6 : DevRef τ sig) = V (main_arg6 : DevRef τ sig) := by
  after_results

theorem take2_main_arg7 (V : Valuation τ sig (Elt F)) :
    after opsTake2 V (main_arg7 : DevRef τ sig) = V (main_arg7 : DevRef τ sig) := by
  after_results

/-! ## The second gather -/

attribute [local irreducible] select broadcastInDim cmpi andi addi constantI constant in
set_option maxRecDepth 8192 in
set_option maxHeartbeats 1600000 in
theorem take3_fold (V : Valuation τ sig (Elt F)) :
    after opsTake3 V (main_v1 : DevRef τ sig) = take3 (V (main_arg2 : DevRef τ sig)) (V (main_arg4 : DevRef τ sig)) := by
  simp only [after_cons, after_nil]
  rfl

theorem take3_main_arg0 (V : Valuation τ sig (Elt F)) :
    after opsTake3 V (main_arg0 : DevRef τ sig) = V (main_arg0 : DevRef τ sig) := by
  after_results

theorem take3_main_arg1 (V : Valuation τ sig (Elt F)) :
    after opsTake3 V (main_arg1 : DevRef τ sig) = V (main_arg1 : DevRef τ sig) := by
  after_results

theorem take3_main_arg2 (V : Valuation τ sig (Elt F)) :
    after opsTake3 V (main_arg2 : DevRef τ sig) = V (main_arg2 : DevRef τ sig) := by
  after_results

theorem take3_main_arg3 (V : Valuation τ sig (Elt F)) :
    after opsTake3 V (main_arg3 : DevRef τ sig) = V (main_arg3 : DevRef τ sig) := by
  after_results

theorem take3_main_arg4 (V : Valuation τ sig (Elt F)) :
    after opsTake3 V (main_arg4 : DevRef τ sig) = V (main_arg4 : DevRef τ sig) := by
  after_results

theorem take3_main_arg5 (V : Valuation τ sig (Elt F)) :
    after opsTake3 V (main_arg5 : DevRef τ sig) = V (main_arg5 : DevRef τ sig) := by
  after_results

theorem take3_main_arg6 (V : Valuation τ sig (Elt F)) :
    after opsTake3 V (main_arg6 : DevRef τ sig) = V (main_arg6 : DevRef τ sig) := by
  after_results

theorem take3_main_arg7 (V : Valuation τ sig (Elt F)) :
    after opsTake3 V (main_arg7 : DevRef τ sig) = V (main_arg7 : DevRef τ sig) := by
  after_results

theorem take3_main_v0 (V : Valuation τ sig (Elt F)) :
    after opsTake3 V (main_v0 : DevRef τ sig) = V (main_v0 : DevRef τ sig) := by
  after_results

/-! ## The main function's own operations -/

set_option maxRecDepth 8192 in
theorem tail_fold (V : Valuation τ sig (Elt F)) :
    after opsTail V (main_v9 : DevRef τ sig)
      = Host.dotGeneral dot_S50000x768_S768x512_S50000x512_1_0_0_1_n_n none
          (com (V (main_v0 : DevRef τ sig)) (V (main_arg1 : DevRef τ sig))
            (equ (V (main_v1 : DevRef τ sig)) (V (main_arg3 : DevRef τ sig)) (V (main_arg5 : DevRef τ sig)) (V (main_arg6 : DevRef τ sig))))
          (V (main_arg7 : DevRef τ sig)) := by
  after_results
  rfl

theorem tail_main_arg0 (V : Valuation τ sig (Elt F)) :
    after opsTail V (main_arg0 : DevRef τ sig) = V (main_arg0 : DevRef τ sig) := by
  after_results

theorem tail_main_arg1 (V : Valuation τ sig (Elt F)) :
    after opsTail V (main_arg1 : DevRef τ sig) = V (main_arg1 : DevRef τ sig) := by
  after_results

theorem tail_main_arg2 (V : Valuation τ sig (Elt F)) :
    after opsTail V (main_arg2 : DevRef τ sig) = V (main_arg2 : DevRef τ sig) := by
  after_results

theorem tail_main_arg3 (V : Valuation τ sig (Elt F)) :
    after opsTail V (main_arg3 : DevRef τ sig) = V (main_arg3 : DevRef τ sig) := by
  after_results

theorem tail_main_arg4 (V : Valuation τ sig (Elt F)) :
    after opsTail V (main_arg4 : DevRef τ sig) = V (main_arg4 : DevRef τ sig) := by
  after_results

theorem tail_main_arg5 (V : Valuation τ sig (Elt F)) :
    after opsTail V (main_arg5 : DevRef τ sig) = V (main_arg5 : DevRef τ sig) := by
  after_results

theorem tail_main_arg6 (V : Valuation τ sig (Elt F)) :
    after opsTail V (main_arg6 : DevRef τ sig) = V (main_arg6 : DevRef τ sig) := by
  after_results

theorem tail_main_arg7 (V : Valuation τ sig (Elt F)) :
    after opsTail V (main_arg7 : DevRef τ sig) = V (main_arg7 : DevRef τ sig) := by
  after_results

end Stretches

/-! ## The whole line -/

/-- The line's fold at the result buffer is the composed term of the arguments' contents. -/
theorem out_eq (V : Valuation τ sig (Elt F)) :
    after ops V (main_v9 : DevRef τ sig)
      = refOutF (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  rw [ops_split, after_append, after_append, tail_fold, take3_main_v0, take3_fold,
    take3_main_arg1, take3_main_arg3, take3_main_arg5, take3_main_arg6, take3_main_arg7,
    take2_fold, take2_main_arg1, take2_main_arg2, take2_main_arg3, take2_main_arg4, take2_main_arg5, take2_main_arg6,
    take2_main_arg7]
  rfl

theorem arg0_eq (V : Valuation τ sig (Elt F)) :
    after ops V (main_arg0 : DevRef τ sig) = V (main_arg0 : DevRef τ sig) := by
  rw [ops_split, after_append, after_append, tail_main_arg0, take3_main_arg0, take2_main_arg0]

theorem arg1_eq (V : Valuation τ sig (Elt F)) :
    after ops V (main_arg1 : DevRef τ sig) = V (main_arg1 : DevRef τ sig) := by
  rw [ops_split, after_append, after_append, tail_main_arg1, take3_main_arg1, take2_main_arg1]

theorem arg2_eq (V : Valuation τ sig (Elt F)) :
    after ops V (main_arg2 : DevRef τ sig) = V (main_arg2 : DevRef τ sig) := by
  rw [ops_split, after_append, after_append, tail_main_arg2, take3_main_arg2, take2_main_arg2]

theorem arg3_eq (V : Valuation τ sig (Elt F)) :
    after ops V (main_arg3 : DevRef τ sig) = V (main_arg3 : DevRef τ sig) := by
  rw [ops_split, after_append, after_append, tail_main_arg3, take3_main_arg3, take2_main_arg3]

theorem arg4_eq (V : Valuation τ sig (Elt F)) :
    after ops V (main_arg4 : DevRef τ sig) = V (main_arg4 : DevRef τ sig) := by
  rw [ops_split, after_append, after_append, tail_main_arg4, take3_main_arg4, take2_main_arg4]

theorem arg5_eq (V : Valuation τ sig (Elt F)) :
    after ops V (main_arg5 : DevRef τ sig) = V (main_arg5 : DevRef τ sig) := by
  rw [ops_split, after_append, after_append, tail_main_arg5, take3_main_arg5, take2_main_arg5]

theorem arg6_eq (V : Valuation τ sig (Elt F)) :
    after ops V (main_arg6 : DevRef τ sig) = V (main_arg6 : DevRef τ sig) := by
  rw [ops_split, after_append, after_append, tail_main_arg6, take3_main_arg6, take2_main_arg6]

theorem arg7_eq (V : Valuation τ sig (Elt F)) :
    after ops V (main_arg7 : DevRef τ sig) = V (main_arg7 : DevRef τ sig) := by
  rw [ops_split, after_append, after_append, tail_main_arg7, take3_main_arg7, take2_main_arg7]

/-- On every device, from any memory with zero counters: every weakly fair execution of the program terminates
    with the result buffer at the composed term of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v9).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.ReferenceIdeal.RefRun

end
-- ==== Proof.RefStages.lean ====
/-
  The reference's stages after the two row gathers, each read at an index on the extended reals.

  • A [n, 16, 256] array times a [256, 256] weight, contracting the last axis with the weight's first: at (n, b, d) the
    sum over c of X(n, b, c) · W(c, d).
  • The entrywise product of two such arrays summed over the middle axis from zero and divided by 16: the mean row.
  • Three 256-wide matrices side by side: the 768-entry row.
  • The [n, 768] matrix times the [768, 512] weight: at (n, j) the sum over k.
  Together: the result row of the specification on row n's data.
-/
import Idealize.ShloMosaic.Lib.Pipeline.Value
import Idealize.ShloMosaic.PureOps.Ideal.Laws
import proofs.«129143_j42090679501122_1_alg».proof.ReferenceIdeal
import proofs.«129143_j42090679501122_1_alg».proof.Proof.Spec
import proofs.«129143_j42090679501122_1_alg».proof.Proof.LibMatmulNN
import proofs.«129143_j42090679501122_1_alg».proof.Proof.RefOps

noncomputable section

namespace Cert.ReferenceIdeal.RefStages

open Idealize.ShloMosaic Idealize.ShloMosaic.ValueIdx Cert.ReferenceIdeal Cert.ReferenceIdeal.Facts₀

/-! ## General readings -/

/-- A stack of rows times a matrix — the last axis of [N, B, K] contracted with the first of [K, M] — at (n, b, d):
    the sum over c of A(n, b, c) · W(c, d). -/
theorem dotRows_apply {N B K M : Nat} {φ₁ φ₂ : FTy}
    (w : DotDims.WF ⟨3, ![N, B, K]⟩ ⟨2, ![K, M]⟩ ⟨3, ![N, B, M]⟩ [2] [0] [0, 1] [1] [] [])
    (prec : Option ContractPrecision) (A : FVec Ideal ⟨3, ![N, B, K]⟩ φ₁) (W : FVec Ideal ⟨2, ![K, M]⟩ φ₂)
    (n : Fin N) (b : Fin B) (d : Fin M) :
    Host.dotGeneral (⟨[2], [0], [0, 1], [1], [], [], w⟩ : DotDims _ _ _) prec A W (ix3 n b d)
      = ∑ c : Fin K, A (ix3 n b c) * W (ix2 c d) := by
  show FloatOps.dotGeneral _ prec _ A W (ix3 n b d) = _
  rw [Ideal.dotGeneral_apply,
    ← Equiv.sum_comp (contrEquiv1 (⟨[2], [0], [0, 1], [1], [], [], w⟩ : DotDims _ _ _) K rfl rfl).symm]
  refine Finset.sum_congr rfl fun c _ => ?_
  have c3 := contrEquiv1_symm_val
    (⟨[2], [0], [0, 1], [1], [], [], w⟩ : DotDims ⟨3, ![N, B, K]⟩ ⟨2, ![K, M]⟩ ⟨3, ![N, B, M]⟩) K rfl rfl c
  have l3 : (⟨[2], [0], [0, 1], [1], [], [], w⟩ : DotDims ⟨3, ![N, B, K]⟩ ⟨2, ![K, M]⟩ ⟨3, ![N, B, M]⟩).lhsIdx (ix3 n b d)
      ((contrEquiv1 _ K rfl rfl).symm c) = ix3 n b c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![N, B, K]⟩ ⟨2, ![K, M]⟩ ⟨3, ![N, B, M]⟩).rhsIdx (ix3 n b d)
      ((contrEquiv1 _ K rfl rfl).symm c) = ix2 c d := by
    funext ax; apply Fin.ext
    match ax with
    | ⟨0, _⟩ => simp [DotDims.rhsIdx]; exact c3
    | ⟨1, _⟩ => simp [DotDims.rhsIdx]; rfl
  rw [l3, r3]

/-- Inserting b at the middle axis of (p, d) gives (p, b, d). -/
theorem lift_mid {n0 n1 n2 : Nat} (h : Shape.Reduces (⟨3, ![n0, n1, n2]⟩ : Shape) [1] ⟨2, ![n0, n2]⟩)
    (p : Fin n0) (d : Fin n2) (b : Fin n1) : Shape.Reduces.lift (a := 1) h (ix2 p d) b = ix3 p b d := by
  funext a; match a with | ⟨0, _⟩ => rfl | ⟨1, _⟩ => rfl | ⟨2, _⟩ => rfl

section SideBySide
variable {α : Type}

/-- Column k of three matrices laid side by side is column k - pre of the piece whose span of columns holds k. -/
theorem concat3_piece {B w0 w1 w2 W : ℕ} (y0 : (⟨2, ![B, w0]⟩ : Shape).Idx → α) (y1 : (⟨2, ![B, w1]⟩ : Shape).Idx → α)
    (y2 : (⟨2, ![B, w2]⟩ : Shape).Idx → α)
    (hc : Shape.Concatenates [⟨2, ![B, w0]⟩, ⟨2, ![B, w1]⟩, ⟨2, ![B, w2]⟩] ⟨2, ![B, W]⟩ 1)
    (p : Fin B) (k : Fin W) :
    concatenate ⟨2, ![B, W]⟩ 1 [⟨⟨2, ![B, w0]⟩, y0⟩, ⟨⟨2, ![B, w1]⟩, y1⟩, ⟨⟨2, ![B, w2]⟩, y2⟩] hc (ix2 p k)
      = if c0 : k.val < w0 then y0 (ix2 p ⟨k.val, c0⟩)
        else if c1 : k.val < w0 + w1 then y1 (ix2 p ⟨k.val - w0, by omega⟩)
        else y2 (ix2 p ⟨k.val - (w0 + w1), by
          have hk := k.isLt
          have hs := hc.2.2
          simp at hs
          omega⟩) := by
  have hk := k.isLt
  have hs := hc.2.2
  simp at hs
  by_cases c0 : k.val < w0
  · rw [dif_pos c0]
    exact concatenate_apply_piece (t := ⟨2, ![B, W]⟩) 1 [⟨⟨2, ![B, w0]⟩, y0⟩, ⟨⟨2, ![B, w1]⟩, y1⟩, ⟨⟨2, ![B, w2]⟩, y2⟩] hc (ix2 p k) 0 (by simp) _ y0 rfl rfl 0 rfl (ix2 p ⟨k.val, c0⟩) (fun b hb => by
      match b with
      | ⟨0, _⟩ => rfl
      | ⟨1, _⟩ => exact absurd rfl hb) (by show 0 + k.val = k.val; omega)
  · rw [dif_neg c0]
    by_cases c1 : k.val < w0 + w1
    · rw [dif_pos c1]
      exact concatenate_apply_piece (t := ⟨2, ![B, W]⟩) 1 [⟨⟨2, ![B, w0]⟩, y0⟩, ⟨⟨2, ![B, w1]⟩, y1⟩, ⟨⟨2, ![B, w2]⟩, y2⟩] hc (ix2 p k) 1 (by simp) _ y1 rfl rfl w0 rfl (ix2 p ⟨k.val - w0, by omega⟩) (fun b hb => by
        match b with
        | ⟨0, _⟩ => rfl
        | ⟨1, _⟩ => exact absurd rfl hb) (by show w0 + (k.val - w0) = k.val; omega)
    · rw [dif_neg c1]
      exact concatenate_apply_piece (t := ⟨2, ![B, W]⟩) 1 [⟨⟨2, ![B, w0]⟩, y0⟩, ⟨⟨2, ![B, w1]⟩, y1⟩, ⟨⟨2, ![B, w2]⟩, y2⟩] hc (ix2 p k) 2 (by simp) _ y2 rfl rfl (w0 + w1) rfl (ix2 p ⟨k.val - (w0 + w1), by omega⟩) (fun b hb => by
        match b with
        | ⟨0, _⟩ => rfl
        | ⟨1, _⟩ => exact absurd rfl hb) (by show (w0 + w1) + (k.val - (w0 + w1)) = k.val; omega)

end SideBySide

variable [Cert.ReferenceIdeal.Facts]

/-! ## The stages -/

/-- The equivariant rows times a weight, at (n, b, d). -/
theorem dot3_apply (X : FVec Ideal S50000x16x256 .f32) (W : FVec Ideal S256x256 .f32) (n : Fin 50000) (b : Fin 16)
    (d : Fin 256) :
    Host.dotGeneral dot_S50000x16x256_S256x256_S50000x16x256_2_0_01_1_n_n none X W (ix3 n b d)
      = Cert.Spec.rowDot (fun c => X (ix3 n b c)) W d :=
  dotRows_apply dot_S50000x16x256_S256x256_S50000x16x256_2_0_01_1_n_n_wf none X W n b d

/-- The sum over the sixteen basis rows from the zero constant, at (n, d). -/
theorem sum_apply (x : FVec Ideal S50000x16x256 .f32) (n : Fin 50000) (d : Fin 256) :
    Host.reduceAdd (F := Ideal) x (constant (F := Ideal) S_ .f32 0x00000000#32) reducesTo_S50000x16x256_S50000x256_d1 h_S_
        (ix2 n d) = ∑ b : Fin 16, x (ix3 n b d) := by
  have h : S50000x16x256.Reduces [1] S50000x256 := by decide
  show Ideal.hostReduceAdd reducesTo_S50000x16x256_S50000x256_d1 x (Ideal.ofBits .f32 0x00000000#32) (ix2 n d) = _
  rw [Ideal.hostReduceAdd_single _ h, Ideal.ofBits_zero_f32, zero_add]
  exact Finset.sum_congr rfl fun b _ => congrArg x (lift_mid h n d b)

/-- The entrywise product summed over the basis rows and divided by the constant 16, at (n, d): the mean row. -/
theorem equ_apply (CE LE : FVec Ideal S50000x16x256 .f32) (n : Fin 50000) (d : Fin 256) :
    Host.divf (F := Ideal)
        (Host.reduceAdd (F := Ideal) (mulf CE LE) (constant (F := Ideal) S_ .f32 0x00000000#32)
          reducesTo_S50000x16x256_S50000x256_d1 h_S_)
        (broadcastInDim S50000x256 ![] bcast_S_S50000x256 (constant (F := Ideal) S_ .f32 0x41800000#32)) (ix2 n d)
      = Cert.Spec.rowEqu (fun b d => CE (ix3 n b d)) (fun b d => LE (ix3 n b d)) d := by
  show Ideal.div (Host.reduceAdd (F := Ideal) (mulf CE LE) (constant (F := Ideal) S_ .f32 0x00000000#32)
      reducesTo_S50000x16x256_S50000x256_d1 h_S_ (ix2 n d)) (Ideal.ofBits .f32 0x41800000#32) = _
  rw [sum_apply]
  rfl

/-- The three 256-wide matrices side by side, at (n, k): the 768-entry row of the specification. -/
theorem com_apply (LI A1 EQ : FVec Ideal S50000x256 .f32) (n : Fin 50000) (k : Fin 768) :
    concatenate S50000x768 1 [⟨S50000x256, LI⟩, ⟨S50000x256, A1⟩, ⟨S50000x256, EQ⟩]
        concatenates_S50000x256_S50000x256_S50000x256_S50000x768_d1 (ix2 n k)
      = Cert.Spec.rowCom (fun k => LI (ix2 n k)) (fun k => A1 (ix2 n k)) (fun k => EQ (ix2 n k)) k := by
  refine (concat3_piece LI A1 EQ concatenates_S50000x256_S50000x256_S50000x256_S50000x768_d1 n k).trans ?_
  unfold Cert.Spec.rowCom
  by_cases c0 : k.val < 256
  · rw [dif_pos c0]
  · rw [dif_neg c0]

/-- The last product's dimension numbers are the plain product's. -/
theorem dot2_eq : dot_S50000x768_S768x512_S50000x512_1_0_0_1_n_n = DotDims.plain 50000 768 512 := rfl

/-- The 768-entry rows times the last weight, at (n, j). -/
theorem dot2_apply (C : FVec Ideal S50000x768 .f32) (W : FVec Ideal S768x512 .f32) (n : Fin 50000) (j : Fin 512) :
    Host.dotGeneral dot_S50000x768_S768x512_S50000x512_1_0_0_1_n_n none C W (ix2 n j)
      = ∑ k : Fin 768, C (ix2 n k) * W (ix2 k j) := by
  rw [dot2_eq]
  show FloatOps.dotGeneral (DotDims.plain 50000 768 512) none _ C W (ix2 n j) = _
  rw [Ideal.dotGeneral_apply, ← Equiv.sum_comp (contrEquiv1 (DotDims.plain 50000 768 512) 768 rfl rfl).symm]
  refine Finset.sum_congr rfl fun c _ => ?_
  rw [MatmulNN.lhsIdx_plain, MatmulNN.rhsIdx_plain]

/-! ## The stages together -/

/-- Everything after the two gathers, at (n, j): the result row of the specification on row n's data, the coarse rows
    entering through their product with the coarse weight. -/
theorem tail_apply (LI A1 : FVec Ideal S50000x256 .f32) (T3 A3 : FVec Ideal S50000x16x256 .f32)
    (W5 W6 : FVec Ideal S256x256 .f32) (W7 : FVec Ideal S768x512 .f32) (n : Fin 50000) (j : Fin 512) :
    Host.dotGeneral dot_S50000x768_S768x512_S50000x512_1_0_0_1_n_n none
        (concatenate S50000x768 1 [⟨S50000x256, LI⟩, ⟨S50000x256, A1⟩, ⟨S50000x256,
          Host.divf (F := Ideal)
            (Host.reduceAdd (F := Ideal)
              (mulf (Host.dotGeneral dot_S50000x16x256_S256x256_S50000x16x256_2_0_01_1_n_n none A3 W6)
                (Host.dotGeneral dot_S50000x16x256_S256x256_S50000x16x256_2_0_01_1_n_n none T3 W5))
              (constant (F := Ideal) S_ .f32 0x00000000#32) reducesTo_S50000x16x256_S50000x256_d1 h_S_)
            (broadcastInDim S50000x256 ![] bcast_S_S50000x256 (constant (F := Ideal) S_ .f32 0x41800000#32))⟩]
          concatenates_S50000x256_S50000x256_S50000x256_S50000x768_d1) W7 (ix2 n j)
      = Cert.Spec.rowOut (fun k => LI (ix2 n k)) (fun k => A1 (ix2 n k)) (fun b c => A3 (ix3 n b c))
          (fun b d => Cert.Spec.rowDot (fun c => T3 (ix3 n b c)) W5 d) W6 W7 j := by
  rw [dot2_apply]
  unfold Cert.Spec.rowOut
  refine Finset.sum_congr rfl fun k _ => ?_
  refine congrArg (· * W7 (ix2 k j)) ?_
  rw [com_apply]
  refine congrArg (fun e => Cert.Spec.rowCom (fun k => LI (ix2 n k)) (fun k => A1 (ix2 n k)) e k) (funext fun d => ?_)
  have e1 : (fun (b : Fin 16) (d' : Fin 256) =>
      Host.dotGeneral dot_S50000x16x256_S256x256_S50000x16x256_2_0_01_1_n_n none A3 W6 (ix3 n b d'))
      = fun b => Cert.Spec.rowDot (fun c => A3 (ix3 n b c)) W6 :=
    funext fun b => funext fun d' => dot3_apply A3 W6 n b d'
  have e2 : (fun (b : Fin 16) (d' : Fin 256) =>
      Host.dotGeneral dot_S50000x16x256_S256x256_S50000x16x256_2_0_01_1_n_n none T3 W5 (ix3 n b d'))
      = fun b d' => Cert.Spec.rowDot (fun c => T3 (ix3 n b c)) W5 d' :=
    funext fun b => funext fun d' => dot3_apply T3 W5 n b d'
  rw [equ_apply, e1, e2]

/-! ## The same readings over the named stages of the composed term -/

/-- The mean row of the composed term, at (n, d). -/
theorem equ_def_apply (G A3 : FVec Ideal S50000x16x256 .f32) (W5 W6 : FVec Ideal S256x256 .f32) (n : Fin 50000)
    (d : Fin 256) :
    RefRun.equ (F := Ideal) G A3 W5 W6 (ix2 n d)
      = Cert.Spec.rowEqu (fun b => Cert.Spec.rowDot (fun c => A3 (ix3 n b c)) W6)
          (fun b d' => Cert.Spec.rowDot (fun c => G (ix3 n b c)) W5 d') d := by
  have e1 : (fun (b : Fin 16) (d' : Fin 256) =>
      Host.dotGeneral dot_S50000x16x256_S256x256_S50000x16x256_2_0_01_1_n_n none A3 W6 (ix3 n b d'))
      = fun b => Cert.Spec.rowDot (fun c => A3 (ix3 n b c)) W6 :=
    funext fun b => funext fun d' => dot3_apply A3 W6 n b d'
  have e2 : (fun (b : Fin 16) (d' : Fin 256) =>
      Host.dotGeneral dot_S50000x16x256_S256x256_S50000x16x256_2_0_01_1_n_n none G W5 (ix3 n b d'))
      = fun b d' => Cert.Spec.rowDot (fun c => G (ix3 n b c)) W5 d' :=
    funext fun b => funext fun d' => dot3_apply G W5 n b d'
  unfold RefRun.equ
  rw [equ_apply, e1, e2]

/-- The three arrays side by side in the composed term, at (n, k). -/
theorem com_def_apply (L C E : FVec Ideal S50000x256 .f32) (n : Fin 50000) (k : Fin 768) :
    RefRun.com (F := Ideal) L C E (ix2 n k)
      = Cert.Spec.rowCom (fun k => L (ix2 n k)) (fun k => C (ix2 n k)) (fun k => E (ix2 n k)) k :=
  com_apply L C E n k

/-- The composed term at (n, j): the result row of the specification on the gathered rows and row n's own data. -/
theorem refOut_apply (A0 : FVec Ideal S12500x256 .f32) (A1 : FVec Ideal S50000x256 .f32)
    (A2 : FVec Ideal S12500x16x256 .f32) (A3 : FVec Ideal S50000x16x256 .f32) (idx : IVec S50000 32)
    (W5 W6 : FVec Ideal S256x256 .f32) (W7 : FVec Ideal S768x512 .f32) (n : Fin 50000) (j : Fin 512) :
    RefRun.refOut A0 A1 A2 A3 idx W5 W6 W7 (ix2 n j)
      = Cert.Spec.rowOut (fun k => RefRun.take2 (F := Ideal) A0 idx (ix2 n k)) (fun k => A1 (ix2 n k))
          (fun b c => A3 (ix3 n b c))
          (fun b d => Cert.Spec.rowDot (fun c => RefRun.take3 (F := Ideal) A2 idx (ix3 n b c)) W5 d) W6 W7 j := by
  unfold RefRun.refOut RefRun.refOutF RefRun.com RefRun.equ
  exact tail_apply (RefRun.take2 A0 idx) A1 (RefRun.take3 A2 idx) A3 W5 W6 W7 n j

end Cert.ReferenceIdeal.RefStages

end
-- ==== Proof.RefValue.lean ====
/-
  The reference's result is the specification's.

  For indices in `[0, 12500)` the two fill-mode row gathers read the tables' rows `row idx n`, so entry `(n, j)` of the
  composed term — the result row on the gathered rows and row n's own data — is the specification's entry: its coarse
  invariant row is row `row idx n` of the coarse invariant table and its coarse equivariant rows are that row of the
  coarse equivariant table times the coarse weight.
-/
import proofs.«129143_j42090679501122_1_alg».proof.Proof.RefOps
import proofs.«129143_j42090679501122_1_alg».proof.Proof.RefStages
import proofs.«129143_j42090679501122_1_alg».proof.Proof.TakeRows
import proofs.«129143_j42090679501122_1_alg».proof.Proof.Spec

noncomputable section

namespace Cert.ReferenceIdeal.RefValue

open Idealize.ShloMosaic Idealize.ShloMosaic.ValueIdx Cert.ReferenceIdeal Cert.ReferenceIdeal.Facts₀

variable [Cert.ReferenceIdeal.Facts]

/-- The gathered coarse invariant rows, at (n, k): row `row idx n` of the table. -/
theorem take2_apply (A0 : FVec Ideal S12500x256 .f32) (idx : IVec S50000 32) (h0 : ∀ i, 0 ≤ (idx i).toInt)
    (h1 : ∀ i, (idx i).toInt < 12500) (n : Fin 50000) (k : Fin 256) :
    RefRun.take2 (F := Ideal) A0 idx (ix2 n k) = A0 (ix2 (Cert.Spec.row idx n) k) :=
  Cert.Take.take2_12500 (F := Ideal) bcast_S_S50000 bcast_S50000_S50000x1_0 bcast_S_S50000x1 bcast_S1_S1x1_1
    bcast_S1x1_S50000x1_0_1 reducesTo_S50000x1_S50000_d1 h_S_ bcast_S50000_S50000x256_0 bcast_S_S50000x256
    gather_S12500x256_S50000x1_S50000x256_1_0_n_n_0_1_1256 ⟨rfl, rfl, rfl, rfl, rfl, rfl, rfl⟩ A0 idx h0 h1 n k

/-- The gathered coarse equivariant rows, at (n, b, c): slab `row idx n` of the table. -/
theorem take3_apply (A2 : FVec Ideal S12500x16x256 .f32) (idx : IVec S50000 32) (h0 : ∀ i, 0 ≤ (idx i).toInt)
    (h1 : ∀ i, (idx i).toInt < 12500) (n : Fin 50000) (b : Fin 16) (c : Fin 256) :
    RefRun.take3 (F := Ideal) A2 idx (ix3 n b c) = A2 (ix3 (Cert.Spec.row idx n) b c) :=
  Cert.Take.take3_12500 (F := Ideal) bcast_S_S50000 bcast_S50000_S50000x1_0 bcast_S_S50000x1 bcast_S1_S1x1_1
    bcast_S1x1_S50000x1_0_1 reducesTo_S50000x1_S50000_d1 h_S_ bcast_S50000_S50000x16x256_0 bcast_S_S50000x16x256
    gather_S12500x16x256_S50000x1_S50000x16x256_12_0_n_n_0_1_116256 ⟨rfl, rfl, rfl, rfl, rfl, rfl, rfl⟩ A2 idx h0 h1
    n b c

/-- The reference's result on the extended reals is the specification, for indices in `[0, 12500)`. -/
theorem refOut_eq (A0 : FVec Ideal S12500x256 .f32) (A1 : FVec Ideal S50000x256 .f32)
    (A2 : FVec Ideal S12500x16x256 .f32) (A3 : FVec Ideal S50000x16x256 .f32) (idx : IVec S50000 32)
    (W5 W6 : FVec Ideal S256x256 .f32) (W7 : FVec Ideal S768x512 .f32) (h0 : ∀ i, 0 ≤ (idx i).toInt)
    (h1 : ∀ i, (idx i).toInt < 12500) :
    RefRun.refOut A0 A1 A2 A3 idx W5 W6 W7 = Cert.Spec.out A0 A1 A2 A3 idx W5 W6 W7 := by
  funext i
  obtain ⟨n, j, rfl⟩ : ∃ (n : Fin 50000) (j : Fin 512), i = ix2 n j := ⟨i 0, i 1, eq_ix2 i⟩
  rw [RefStages.refOut_apply, Cert.Spec.out_apply]
  have e0 : (fun k => RefRun.take2 (F := Ideal) A0 idx (ix2 n k)) = fun k => A0 (ix2 (Cert.Spec.row idx n) k) :=
    funext fun k => take2_apply A0 idx h0 h1 n k
  have e2 : (fun (b : Fin 16) (d : Fin 256) =>
        Cert.Spec.rowDot (fun c => RefRun.take3 (F := Ideal) A2 idx (ix3 n b c)) W5 d)
      = Cert.Spec.coarse A2 W5 (Cert.Spec.row idx n) :=
    funext fun b => funext fun d => by
      unfold Cert.Spec.coarse
      exact congrArg (fun x => Cert.Spec.rowDot x W5 d) (funext fun c => take3_apply A2 idx h0 h1 n b c)
  rw [e0, e2]

end Cert.ReferenceIdeal.RefValue

end
-- ==== Proof.lean ====
/-
  The proof of `Cert.Claim`: the kernel and its reference compute the same array on the extended reals.

  The kernel multiplies the whole coarse equivariant table by the coarse weight once, then gathers the rows each fine row
  needs; the reference gathers first and multiplies the gathered rows. A matrix product acts on every row by itself, so
  row `(idx n, b)` of the product is row `(idx n, b)` of the table times the weight, and the two orders read the same
  numbers — provided every index names a row of the table: the precondition's two added conjuncts, `0 ≤ idx` and
  `idx < 12500`, under which the fill-mode gather never fills. Everything after that is the same arithmetic on both
  sides, row by row (`Cert.Spec.out`): no entry needs to be finite, and the finiteness conjuncts are not used.

  The three frames are the generated frame certificates (the reference's is its run with the result dropped); the ideal
  pass rewrote nothing, so `preserves` is `True`.
-/
import proofs.«129143_j42090679501122_1_alg».proof.Defs
import proofs.«129143_j42090679501122_1_alg».proof.Proof.Gen.Kernel
import proofs.«129143_j42090679501122_1_alg».proof.Proof.Gen.Kernel.Frame
import proofs.«129143_j42090679501122_1_alg».proof.Proof.Gen.KernelIdeal
import proofs.«129143_j42090679501122_1_alg».proof.Proof.Gen.KernelIdeal.Frame
import proofs.«129143_j42090679501122_1_alg».proof.Proof.Gen.ReferenceIdeal
import proofs.«129143_j42090679501122_1_alg».proof.Proof.Gen.Pre_finite_inputs
import proofs.«129143_j42090679501122_1_alg».proof.Proof.KRun
import proofs.«129143_j42090679501122_1_alg».proof.Proof.KValue
import proofs.«129143_j42090679501122_1_alg».proof.Proof.PreRange
import proofs.«129143_j42090679501122_1_alg».proof.Proof.RefRun
import proofs.«129143_j42090679501122_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both programs end at the specification of the (agreeing) arguments. -/
theorem algebraic : Cert.algebraic_KernelIdeal_ReferenceIdeal := by
  intro m ρ m' ρ' hpre hagree
  have hr : ∀ c : Dev Cert.KernelIdeal.nD, (∀ i, 0 ≤ ((m ((c.tc : Thread Cert.KernelIdeal.nD Cert.KernelIdeal.τ).loc Cert.KernelIdeal.main_arg4)) i).toInt) ∧ (∀ i, ((m ((c.tc : Thread Cert.KernelIdeal.nD Cert.KernelIdeal.τ).loc Cert.KernelIdeal.main_arg4)) i).toInt < 12500) :=
    fun c => Cert.Pre_finite_inputs.Range.range_of_fn _ _ _ _ _ _ _ _ (hpre c)
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KValue.value m ρ c (hr c).1 (hr c).2), (h c).2⟩)
      (Cert.KernelIdeal.KRun.run_named m ρ)
  · refine (θ_run Cert.ReferenceIdeal.defs _ _).mono (fun r h c => ⟨(h c).1.trans ?_, (h c).2⟩)
      (Cert.ReferenceIdeal.RefRun.run m' ρ')
    obtain ⟨e0, e1, e2, e3, e4, e5, e6, e7⟩ := hagree c
    rw [e0, e1, e2, e3, e4, e5, e6, e7]
    exact Cert.ReferenceIdeal.RefValue.refOut_eq _ _ _ _ _ _ _ _ (hr c).1 (hr c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
